-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v58)) (v1 : (c : Dev Cert.KernelIdeal.nD) → Buf (Elt Ideal) ((c.tc : Thread Cert.KernelIdeal.nD Cert.KernelIdeal.τ).loc Cert.KernelIdeal.main_v71)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_v71) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_v109) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x5 : Shape := ⟨2, ![50000, 5]⟩
abbrev S2x800000 : Shape := ⟨2, ![2, 800000]⟩
abbrev S50000 : Shape := ⟨1, ![50000]⟩
abbrev S5x128 : Shape := ⟨2, ![5, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S_ : Shape := ⟨0, ![]⟩

class Facts : Prop where
  bcast_S_S50000x5 : S_.BroadcastsInDim S50000x5 (![] : Fin 0 → Fin S50000x5.rank)
  reducesTo_S50000x5_S_d0_1 : S50000x5.ReducesTo [0, 1] S_
  h_S_ : 0 < S_.numel
  bcast_S_S5x128 : S_.BroadcastsInDim S5x128 (![] : Fin 0 → Fin S5x128.rank)
  reducesTo_S5x128_S_d0_1 : S5x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg16 : FVec F S1 .f32) (main_v63 : IVec S_ 1) (main_v67 : IVec S_ 1) : IVec S_ 1 :=
  let main_v68 : IVec S_ 1 := andi main_v63 main_v67
  let main_v69 : FVec F S1 .f32 := Host.absf main_arg16
  let main_cst_26 : FVec F S_ .f32 := constant S_ .f32 0x7F800000#32
  let main_v70 : FVec F S1 .f32 := broadcastInDim S1 ![] bcast_S_S1 main_cst_26
  let main_v71 : IVec S1 1 := cmpf .olt main_v69 main_v70
  let main_c_27 : IVec S_ 1 := constantI S_ 1 1#1
  let main_v72 : IVec S_ 1 := (fun x v => Host.reduce IntOp.andi x v reducesTo_S1_S_d0 h_S_) main_v71 main_c_27
  let main_v73 : IVec S_ 1 := andi main_v68 main_v72
  main_v73

def fn_part3 {F : FTy → Type} [FloatOps F] (main_arg13 : FVec F S128 .f32) (main_arg14 : FVec F S128x128 .f32) (main_arg15 : FVec F S128x1 .f32) (main_arg16 : FVec F S1 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg14
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128x1 .f32 := Host.absf main_arg15
  let main_cst_24 : FVec F S_ .f32 := constant S_ .f32 0x7F800000#32
  let main_v65 : FVec F S128x1 .f32 := broadcastInDim S128x1 ![] bcast_S_S128x1 main_cst_24
  let main_v66 : IVec S128x1 1 := cmpf .olt main_v64 main_v65
  let main_c_25 : IVec S_ 1 := constantI S_ 1 1#1
  let main_v67 : IVec S_ 1 := (fun x v => Host.reduce IntOp.andi x v reducesTo_S128x1_S_d0_1 h_S_) main_v66 main_c_25
  fn_part4 (F := F) main_arg16 main_v63 main_v67

def fn_part2 {F : FTy → Type} [FloatOps F] (main_arg9 : FVec F S128x1 .f32) (main_arg10 : FVec F S1 .f32) (main_arg11 : FVec F S128x1 .f32) (main_arg12 : FVec F S128x128 .f32) (main_arg13 : FVec F S128 .f32) (main_arg14 : FVec F S128x128 .f32) (main_arg15 : FVec F S128x1 .f32) (main_arg16 : FVec F S1 .f32) (main_v33 : IVec S_ 1) : IVec S_ 1 :=
  let main_v34 : FVec F S128x1 .f32 := Host.absf main_arg9
  let main_cst_12 : FVec F S_ .f32 := constant S_ .f32 0x7F800000#32
  let main_v35 : FVec F S128x1 .f32 := broadcastInDim S128x1 ![] bcast_S_S128x1 main_cst_12
  let main_v36 : IVec S128x1 1 := cmpf .olt main_v34 main_v35
  let main_c_13 : IVec S_ 1 := constantI S_ 1 1#1
  let main_v37 : IVec S_ 1 := (fun x v => Host.reduce IntOp.andi x v reducesTo_S128x1_S_d0_1 h_S_) main_v36 main_c_13
  let main_v38 : IVec S_ 1 := andi main_v33 main_v37
  let main_v39 : FVec F S1 .f32 := Host.absf main_arg10
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  let main_v44 : FVec F S128x1 .f32 := Host.absf main_arg11
  let main_cst_16 : FVec F S_ .f32 := constant S_ .f32 0x7F800000#32
  let main_v45 : FVec F S128x1 .f32 := broadcastInDim S128x1 ![] bcast_S_S128x1 main_cst_16
  let main_v46 : IVec S128x1 1 := cmpf .olt main_v44 main_v45
  let main_c_17 : IVec S_ 1 := constantI S_ 1 1#1
  let main_v47 : IVec S_ 1 := (fun x v => Host.reduce IntOp.andi x v reducesTo_S128x1_S_d0_1 h_S_) main_v46 main_c_17
  let main_v48 : IVec S_ 1 := andi main_v43 main_v47
  let main_v49 : FVec F S128x128 .f32 := Host.absf main_arg12
  let main_cst_18 : FVec F S_ .f32 := constant S_ .f32 0x7F800000#32
  let main_v50 : FVec F S128x128 .f32 := broadcastInDim S128x128 ![] bcast_S_S128x128 main_cst_18
  fn_part3 (F := F) main_arg13 main_arg14 main_arg15 main_arg16 main_v48 main_v49 main_v50

def fn_part1 {F : FTy → Type} [FloatOps F] (main_arg6 : FVec F S128x128 .f32) (main_arg7 : FVec F S128 .f32) (main_arg8 : FVec F S128x128 .f32) (main_arg9 : FVec F S128x1 .f32) (main_arg10 : FVec F S1 .f32) (main_arg11 : FVec F S128x1 .f32) (main_arg12 : FVec F S128x128 .f32) (main_arg13 : FVec F S128 .f32) (main_arg14 : FVec F S128x128 .f32) (main_arg15 : FVec F S128x1 .f32) (main_arg16 : FVec F S1 .f32) (main_v13 : IVec S_ 1) (main_v16 : IVec S5x128 1) : IVec S_ 1 :=
  let main_c_5 : IVec S_ 1 := constantI S_ 1 1#1
  let main_v17 : IVec S_ 1 := (fun x v => Host.reduce IntOp.andi x v reducesTo_S5x128_S_d0_1 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_arg12 main_arg13 main_arg14 main_arg15 main_arg16 main_v33

def fn {F : FTy → Type} [FloatOps F] (main_arg0 : FVec F S50000x5 .f32) (main_arg1 : IVec S2x800000 32) (main_arg2 : IVec S50000 32) (main_arg3 : FVec F S5x128 .f32) (main_arg4 : FVec F S128 .f32) (main_arg5 : FVec F S5x128 .f32) (main_arg6 : FVec F S128x128 .f32) (main_arg7 : FVec F S128 .f32) (main_arg8 : FVec F S128x128 .f32) (main_arg9 : FVec F S128x1 .f32) (main_arg10 : FVec F S1 .f32) (main_arg11 : FVec F S128x1 .f32) (main_arg12 : FVec F S128x128 .f32) (main_arg13 : FVec F S128 .f32) (main_arg14 : FVec F S128x128 .f32) (main_arg15 : FVec F S128x1 .f32) (main_arg16 : FVec F S1 .f32) : IVec S_ 1 :=
  let main_v0 : FVec F S50000x5 .f32 := Host.absf main_arg0
  let main_cst : FVec F S_ .f32 := constant S_ .f32 0x7F800000#32
  let main_v1 : FVec F S50000x5 .f32 := broadcastInDim S50000x5 ![] bcast_S_S50000x5 main_cst
  let main_v2 : IVec S50000x5 1 := cmpf .olt main_v0 main_v1
  let main_c : IVec S_ 1 := constantI S_ 1 1#1
  let main_v3 : IVec S_ 1 := (fun x v => Host.reduce IntOp.andi x v reducesTo_S50000x5_S_d0_1 h_S_) main_v2 main_c
  let main_v4 : FVec F S5x128 .f32 := Host.absf main_arg3
  let main_cst_0 : FVec F S_ .f32 := constant S_ .f32 0x7F800000#32
  let main_v5 : FVec F S5x128 .f32 := broadcastInDim S5x128 ![] bcast_S_S5x128 main_cst_0
  let main_v6 : IVec S5x128 1 := cmpf .olt main_v4 main_v5
  let main_c_1 : IVec S_ 1 := constantI S_ 1 1#1
  let main_v7 : IVec S_ 1 := (fun x v => Host.reduce IntOp.andi x v reducesTo_S5x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S5x128 .f32 := Host.absf main_arg5
  let main_cst_4 : FVec F S_ .f32 := constant S_ .f32 0x7F800000#32
  let main_v15 : FVec F S5x128 .f32 := broadcastInDim S5x128 ![] bcast_S_S5x128 main_cst_4
  let main_v16 : IVec S5x128 1 := cmpf .olt main_v14 main_v15
  fn_part1 (F := F) main_arg6 main_arg7 main_arg8 main_arg9 main_arg10 main_arg11 main_arg12 main_arg13 main_arg14 main_arg15 main_arg16 main_v13 main_v16
-- ==== Kernel.lean ====
abbrev S50000x5 : Shape := ⟨2, ![50000, 5]⟩
abbrev S2x800000 : Shape := ⟨2, ![2, 800000]⟩
abbrev S50000 : Shape := ⟨1, ![50000]⟩
abbrev S5x128 : Shape := ⟨2, ![5, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000x1 : Shape := ⟨2, ![50000, 1]⟩
abbrev S800000x5 : Shape := ⟨2, ![800000, 5]⟩
abbrev S50000x128 : Shape := ⟨2, ![50000, 128]⟩
abbrev S2000x5 : Shape := ⟨2, ![2000, 5]⟩
abbrev S2000x128 : Shape := ⟨2, ![2000, 128]⟩
abbrev S1x128 : Shape := ⟨2, ![1, 128]⟩
abbrev S800000x128 : Shape := ⟨2, ![800000, 128]⟩
abbrev S2000x1 : Shape := ⟨2, ![2000, 1]⟩
abbrev S1x1 : Shape := ⟨2, ![1, 1]⟩

abbrev nBuf : Space → Nat
  | .hbm => 124
  | .vmem => 38
  | .smem => 0
  | _ => 0

abbrev bufTy : (tb : Table) → Fin (tcTables nBuf tb) → BufTy
  | .hbm, ⟨0, _⟩ => ⟨S50000x5, .f32⟩
  | .hbm, ⟨1, _⟩ => ⟨S2x800000, .i32⟩
  | .hbm, ⟨2, _⟩ => ⟨S50000, .i32⟩
  | .hbm, ⟨3, _⟩ => ⟨S5x128, .f32⟩
  | .hbm, ⟨4, _⟩ => ⟨S128, .f32⟩
  | .hbm, ⟨5, _⟩ => ⟨S5x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x1, .f32⟩
  | .hbm, ⟨10, _⟩ => ⟨S1, .f32⟩
  | .hbm, ⟨11, _⟩ => ⟨S128x1, .f32⟩
  | .hbm, ⟨12, _⟩ => ⟨S128x128, .f32⟩
  | .hbm, ⟨13, _⟩ => ⟨S128, .f32⟩
  | .hbm, ⟨14, _⟩ => ⟨S128x128, .f32⟩
  | .hbm, ⟨15, _⟩ => ⟨S128x1, .f32⟩
  | .hbm, ⟨16, _⟩ => ⟨S1, .f32⟩
  | .hbm, ⟨17, _⟩ => ⟨S1x800000, .i32⟩
  | .hbm, ⟨18, _⟩ => ⟨S800000, .i32⟩
  | .hbm, ⟨19, _⟩ => ⟨S1x800000, .i32⟩
  | .hbm, ⟨20, _⟩ => ⟨S800000, .i32⟩
  | .hbm, ⟨21, _⟩ => ⟨S_, .f32⟩
  | .hbm, ⟨22, _⟩ => ⟨S800000, .f32⟩
  | .hbm, ⟨23, _⟩ => ⟨S_, .f32⟩
  | .hbm, ⟨24, _⟩ => ⟨S50000, .f32⟩
  | .hbm, ⟨25, _⟩ => ⟨S800000x1, .i32⟩
  | .hbm, ⟨26, _⟩ => ⟨S50000, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S_, .f32⟩
  | .hbm, ⟨31, _⟩ => ⟨S50000, .f32⟩
  | .hbm, ⟨32, _⟩ => ⟨S50000, .f32⟩
  | .hbm, ⟨33, _⟩ => ⟨S50000x1, .f32⟩
  | .hbm, ⟨34, _⟩ => ⟨S_, .i32⟩
  | .hbm, ⟨35, _⟩ => ⟨S800000, .i32⟩
  | .hbm, ⟨36, _⟩ => ⟨S800000, .i1⟩
  | .hbm, ⟨37, _⟩ => ⟨S_, .i32⟩
  | .hbm, ⟨38, _⟩ => ⟨S800000, .i32⟩
  | .hbm, ⟨39, _⟩ => ⟨S800000, .i32⟩
  | .hbm, ⟨40, _⟩ => ⟨S800000, .i32⟩
  | .hbm, ⟨41, _⟩ => ⟨S800000x1, .i32⟩
  | .hbm, ⟨42, _⟩ => ⟨S800000x5, .f32⟩
  | .hbm, ⟨43, _⟩ => ⟨S_, .f32⟩
  | .hbm, ⟨44, _⟩ => ⟨S50000x5, .f32⟩
  | .hbm, ⟨45, _⟩ => ⟨S800000x1, .i32⟩
  | .hbm, ⟨46, _⟩ => ⟨S50000x5, .f32⟩
  | .hbm, ⟨47, _⟩ => ⟨S50000x5, .f32⟩
  | .hbm, ⟨48, _⟩ => ⟨S50000x5, .f32⟩
  | .hbm, ⟨49, _⟩ => ⟨S50000x128, .f32⟩
  | .hbm, ⟨50, _⟩ => ⟨S_, .i32⟩
  | .hbm, ⟨51, _⟩ => ⟨S800000, .i32⟩
  | .hbm, ⟨52, _⟩ => ⟨S800000, .i1⟩
  | .hbm, ⟨53, _⟩ => ⟨S_, .i32⟩
  | .hbm, ⟨54, _⟩ => ⟨S800000, .i32⟩
  | .hbm, ⟨55, _⟩ => ⟨S800000, .i32⟩
  | .hbm, ⟨56, _⟩ => ⟨S800000, .i32⟩
  | .hbm, ⟨57, _⟩ => ⟨S800000x1, .i32⟩
  | .hbm, ⟨58, _⟩ => ⟨S800000x128, .f32⟩
  | .hbm, ⟨59, _⟩ => ⟨S_, .f32⟩
  | .hbm, ⟨60, _⟩ => ⟨S50000x128, .f32⟩
  | .hbm, ⟨61, _⟩ => ⟨S800000x1, .i32⟩
  | .hbm, ⟨62, _⟩ => ⟨S50000x128, .f32⟩
  | .hbm, ⟨63, _⟩ => ⟨S50000x128, .f32⟩
  | .hbm, ⟨64, _⟩ => ⟨S50000x128, .f32⟩
  | .hbm, ⟨65, _⟩ => ⟨S50000x128, .f32⟩
  | .hbm, ⟨66, _⟩ => ⟨S_, .i32⟩
  | .hbm, ⟨67, _⟩ => ⟨S800000, .i32⟩
  | .hbm, ⟨68, _⟩ => ⟨S800000, .i1⟩
  | .hbm, ⟨69, _⟩ => ⟨S_, .i32⟩
  | .hbm, ⟨70, _⟩ => ⟨S800000, .i32⟩
  | .hbm, ⟨71, _⟩ => ⟨S800000, .i32⟩
  | .hbm, ⟨72, _⟩ => ⟨S800000, .i32⟩
  | .hbm, ⟨73, _⟩ => ⟨S800000x1, .i32⟩
  | .hbm, ⟨74, _⟩ => ⟨S800000x128, .f32⟩
  | .hbm, ⟨75, _⟩ => ⟨S_, .f32⟩
  | .hbm, ⟨76, _⟩ => ⟨S50000x128, .f32⟩
  | .hbm, ⟨77, _⟩ => ⟨S800000x1, .i32⟩
  | .hbm, ⟨78, _⟩ => ⟨S50000x128, .f32⟩
  | .hbm, ⟨79, _⟩ => ⟨S50000x128, .f32⟩
  | .hbm, ⟨80, _⟩ => ⟨S50000x128, .f32⟩
  | .hbm, ⟨81, _⟩ => ⟨S50000x1, .f32⟩
  | .hbm, ⟨82, _⟩ => ⟨S50000x1, .f32⟩
  | .hbm, ⟨83, _⟩ => ⟨S50000, .f32⟩
  | .hbm, ⟨84, _⟩ => ⟨S_, .f32⟩
  | .hbm, ⟨85, _⟩ => ⟨S50000, .f32⟩
  | .hbm, ⟨86, _⟩ => ⟨S50000, .i1⟩
  | .hbm, ⟨87, _⟩ => ⟨S50000x1, .i1⟩
  | .hbm, ⟨88, _⟩ => ⟨S_, .f32⟩
  | .hbm, ⟨89, _⟩ => ⟨S_, .f32⟩
  | .hbm, ⟨90, _⟩ => ⟨S50000x1, .f32⟩
  | .hbm, ⟨91, _⟩ => ⟨S50000x1, .f32⟩
  | .hbm, ⟨92, _⟩ => ⟨S_, .f32⟩
  | .hbm, ⟨93, _⟩ => ⟨S1, .f32⟩
  | .hbm, ⟨94, _⟩ => ⟨S_, .f32⟩
  | .hbm, ⟨95, _⟩ => ⟨S1, .f32⟩
  | .hbm, ⟨96, _⟩ => ⟨S1, .f32⟩
  | .hbm, ⟨97, _⟩ => ⟨S1x1, .f32⟩
  | .hbm, ⟨98, _⟩ => ⟨S50000x1, .f32⟩
  | .hbm, ⟨99, _⟩ => ⟨S50000x1, .f32⟩
  | .hbm, ⟨100, _⟩ => ⟨S50000x1, .f32⟩
  | .hbm, ⟨101, _⟩ => ⟨S_, .f32⟩
  | .hbm, ⟨102, _⟩ => ⟨S1, .f32⟩
  | .hbm, ⟨103, _⟩ => ⟨S1x1, .f32⟩
  | .hbm, ⟨104, _⟩ => ⟨S1x1, .f32⟩
  | .hbm, ⟨105, _⟩ => ⟨S50000x1, .f32⟩
  | .hbm, ⟨106, _⟩ => ⟨S50000x1, .f32⟩
  | .hbm, ⟨107, _⟩ => ⟨S50000x1, .f32⟩
  | .hbm, ⟨108, _⟩ => ⟨S_, .f32⟩
  | .hbm, ⟨109, _⟩ => ⟨S1x1, .f32⟩
  | .hbm, ⟨110, _⟩ => ⟨S50000x1, .i32⟩
  | .hbm, ⟨111, _⟩ => ⟨S1x1, .f32⟩
  | .hbm, ⟨112, _⟩ => ⟨S_, .f32⟩
  | .hbm, ⟨113, _⟩ => ⟨S50000, .f32⟩
  | .hbm, ⟨114, _⟩ => ⟨S_, .f32⟩
  | .hbm, ⟨115, _⟩ => ⟨S1, .f32⟩
  | .hbm, ⟨116, _⟩ => ⟨S50000x1, .i32⟩
  | .hbm, ⟨117, _⟩ => ⟨S1, .f32⟩
  | .hbm, ⟨118, _⟩ => ⟨S_, .f32⟩
  | .hbm, ⟨119, _⟩ => ⟨S1, .f32⟩
  | .hbm, ⟨120, _⟩ => ⟨S1, .f32⟩
  | .hbm, ⟨121, _⟩ => ⟨S1x1, .f32⟩
  | .hbm, ⟨122, _⟩ => ⟨S1x1, .f32⟩
  | .hbm, ⟨123, _⟩ => ⟨S1x1, .f32⟩
  | .local _ .vmem, ⟨0, _⟩ => ⟨S2000x5, .f32⟩
  | .local _ .vmem, ⟨1, _⟩ => ⟨S2000x5, .f32⟩
  | .local _ .vmem, ⟨2, _⟩ => ⟨S2000x5, .f32⟩
  | .local _ .vmem, ⟨3, _⟩ => ⟨S2000x5, .f32⟩
  | .local _ .vmem, ⟨4, _⟩ => ⟨S5x128, .f32⟩
  | .local _ .vmem, ⟨5, _⟩ => ⟨S128, .f32⟩
  | .local _ .vmem, ⟨6, _⟩ => ⟨S5x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S128x128, .f32⟩
  | .local _ .vmem, ⟨14, _⟩ => ⟨S128, .f32⟩
  | .local _ .vmem, ⟨15, _⟩ => ⟨S128x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S128x1, .f32⟩
  | .local _ .vmem, ⟨23, _⟩ => ⟨S1, .f32⟩
  | .local _ .vmem, ⟨24, _⟩ => ⟨S128x1, .f32⟩
  | .local _ .vmem, ⟨25, _⟩ => ⟨S2000x1, .f32⟩
  | .local _ .vmem, ⟨26, _⟩ => ⟨S2000x1, .f32⟩
  | .local _ .vmem, ⟨27, _⟩ => ⟨S2000x128, .f32⟩
  | .local _ .vmem, ⟨28, _⟩ => ⟨S2000x128, .f32⟩
  | .local _ .vmem, ⟨29, _⟩ => ⟨S2000x128, .f32⟩
  | .local _ .vmem, ⟨30, _⟩ => ⟨S2000x128, .f32⟩
  | .local _ .vmem, ⟨31, _⟩ => ⟨S128x128, .f32⟩
  | .local _ .vmem, ⟨32, _⟩ => ⟨S128, .f32⟩
  | .local _ .vmem, ⟨33, _⟩ => ⟨S128x128, .f32⟩
  | .local _ .vmem, ⟨34, _⟩ => ⟨S128x1, .f32⟩
  | .local _ .vmem, ⟨35, _⟩ => ⟨S1, .f32⟩
  | .local _ .vmem, ⟨36, _⟩ => ⟨S2000x1, .f32⟩
  | .local _ .vmem, ⟨37, _⟩ => ⟨S2000x1, .f32⟩
  | _, _ => ⟨S50000x5, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst : Ref sig .tc := ⟨.hbm, 21, rfl⟩
abbrev main_v4 : Ref sig .tc := ⟨.hbm, 22, rfl⟩
abbrev main_cst_0 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_cst_1 : Ref sig .tc := ⟨.hbm, 27, rfl⟩
abbrev main_v8 : Ref sig .tc := ⟨.hbm, 28, rfl⟩
abbrev main_v9 : Ref sig .tc := ⟨.hbm, 29, rfl⟩
abbrev main_cst_2 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_c : Ref sig .tc := ⟨.hbm, 34, rfl⟩
abbrev main_v13 : Ref sig .tc := ⟨.hbm, 35, rfl⟩
abbrev main_v14 : Ref sig .tc := ⟨.hbm, 36, rfl⟩
abbrev main_c_3 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_cst_4 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_c_5 : Ref sig .tc := ⟨.hbm, 50, rfl⟩
abbrev main_v26 : Ref sig .tc := ⟨.hbm, 51, rfl⟩
abbrev main_v27 : Ref sig .tc := ⟨.hbm, 52, rfl⟩
abbrev main_c_6 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_cst_7 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_c_8 : Ref sig .tc := ⟨.hbm, 66, rfl⟩
abbrev main_v39 : Ref sig .tc := ⟨.hbm, 67, rfl⟩
abbrev main_v40 : Ref sig .tc := ⟨.hbm, 68, rfl⟩
abbrev main_c_9 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_10 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_cst_11 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_cst_12 : Ref sig .tc := ⟨.hbm, 88, rfl⟩
abbrev main_call0_v0 : Ref sig .tc := ⟨.hbm, 89, rfl⟩
abbrev main_call0_v1 : Ref sig .tc := ⟨.hbm, 90, rfl⟩
abbrev main_v57 : Ref sig .tc := ⟨.hbm, 91, rfl⟩
abbrev main_call1_cst : Ref sig .tc := ⟨.hbm, 92, rfl⟩
abbrev main_call1_v0 : Ref sig .tc := ⟨.hbm, 93, rfl⟩
abbrev main_call1_cst_0 : Ref sig .tc := ⟨.hbm, 94, rfl⟩
abbrev main_call1_v1 : Ref sig .tc := ⟨.hbm, 95, rfl⟩
abbrev main_call1_v2 : Ref sig .tc := ⟨.hbm, 96, rfl⟩
abbrev main_call1_v3 : Ref sig .tc := ⟨.hbm, 97, rfl⟩
abbrev main_call1_v4 : Ref sig .tc := ⟨.hbm, 98, rfl⟩
abbrev main_call1_v5 : Ref sig .tc := ⟨.hbm, 99, rfl⟩
abbrev main_call1_v6 : Ref sig .tc := ⟨.hbm, 100, rfl⟩
abbrev main_call1_cst_1 : Ref sig .tc := ⟨.hbm, 101, rfl⟩
abbrev main_call1_v7 : Ref sig .tc := ⟨.hbm, 102, rfl⟩
abbrev main_call1_v8 : Ref sig .tc := ⟨.hbm, 103, rfl⟩
abbrev main_call1_v9 : Ref sig .tc := ⟨.hbm, 104, rfl⟩
abbrev main_call1_v10 : Ref sig .tc := ⟨.hbm, 105, rfl⟩
abbrev main_v58 : Ref sig .tc := ⟨.hbm, 106, rfl⟩
abbrev main_v59 : Ref sig .tc := ⟨.hbm, 107, rfl⟩
abbrev main_cst_13 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_cst_14 : Ref sig .tc := ⟨.hbm, 112, rfl⟩
abbrev main_v63 : Ref sig .tc := ⟨.hbm, 113, rfl⟩
abbrev main_cst_15 : Ref sig .tc := ⟨.hbm, 114, rfl⟩
abbrev main_v64 : Ref sig .tc := ⟨.hbm, 115, rfl⟩
abbrev main_v65 : Ref sig .tc := ⟨.hbm, 116, rfl⟩
abbrev main_v66 : Ref sig .tc := ⟨.hbm, 117, rfl⟩
abbrev main_cst_16 : Ref sig .tc := ⟨.hbm, 118, rfl⟩
abbrev main_v67 : Ref sig .tc := ⟨.hbm, 119, rfl⟩
abbrev main_v68 : Ref sig .tc := ⟨.hbm, 120, rfl⟩
abbrev main_v69 : Ref sig .tc := ⟨.hbm, 121, rfl⟩
abbrev main_v70 : Ref sig .tc := ⟨.hbm, 122, rfl⟩
abbrev main_v71 : Ref sig .tc := ⟨.hbm, 123, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg6_0 : Ref sig .tc := ⟨.vmem, 35, rfl⟩
abbrev cc3_stg7_0 : Ref sig .tc := ⟨.vmem, 36, rfl⟩
abbrev cc3_stg7_1 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem3_0 : DmaSem sig := 32
abbrev cc3_sem4_0 : DmaSem sig := 33
abbrev cc3_sem5_0 : DmaSem sig := 34
abbrev cc3_sem6_0 : DmaSem sig := 35
abbrev cc3_sem7_0 : DmaSem sig := 36
abbrev cc3_sem7_1 : DmaSem sig := 37

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x5 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x5 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S5x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S5x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x1 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128x1 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S2000x1 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x5 : S_.BroadcastsInDim S50000x5 (![] : Fin 0 → Fin S50000x5.rank)
  bcast_S50000x1_S50000x5_0_1 : S50000x1.BroadcastsInDim S50000x5 (![0, 1] : Fin 2 → Fin S50000x5.rank)
  inb_S2000x5_S2000x5_0_0 : ∀ a, (![0, 0] : Fin 2 → Nat) a + S2000x5.size a ≤ S2000x5.size a
  h_S2000x5 : 0 < S2000x5.numel
  shapeCasts_S2000x5_S2000x5 : S2000x5.ShapeCasts S2000x5
  bitsLt_bf16_f32 : FTy.bits .bf16 < FTy.bits .f32
  inb_S5x128_S5x128_0_0 : ∀ a, (![0, 0] : Fin 2 → Nat) a + S5x128.size a ≤ S5x128.size a
  h_S5x128 : 0 < S5x128.numel
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  inb_S128x1_S128x1_0_0 : ∀ a, (![0, 0] : Fin 2 → Nat) a + S128x1.size a ≤ S128x1.size a
  h_S128x1 : 0 < S128x1.numel
  inb_S1_S1_0 : ∀ a, (![0] : Fin 1 → Nat) a + S1.size a ≤ S1.size a
  h_S1 : 0 < S1.numel
  shapeCasts_S1_S1x1 : S1.ShapeCasts S1x1
  broadcasts_S1x1_S2000x1 : S1x1.Broadcasts S2000x1
  inb_S2000x1_S2000x1_0_0 : ∀ a, (![0, 0] : Fin 2 → Nat) a + S2000x1.size a ≤ S2000x1.size a
  h_S2000x1 : 0 < S2000x1.numel
  slices_S50000x5_S50000x1_0_2 : S50000x5.Slices ![0, 2] S50000x1
  shapeCasts_S50000x1_S50000 : S50000x1.ShapeCasts S50000
  bcast_S_S50000x1 : S_.BroadcastsInDim S50000x1 (![] : Fin 0 → Fin S50000x1.rank)
  reducesTo_S50000x1_S1_d0 : S50000x1.ReducesTo [0] S1
  h_S_ : 0 < S_.numel
  bcast_S_S1 : S_.BroadcastsInDim S1 (![] : Fin 0 → Fin S1.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  bcast_S_S1x1 : S_.BroadcastsInDim S1x1 (![] : Fin 0 → Fin S1x1.rank)
  bcast_S1_S1x1_0 : S1.BroadcastsInDim S1x1 (![0] : Fin 1 → Fin S1x1.rank)
  scatter_S50000_S800000x1_S800000_n_0_0_1_wf : ScatterDims.WF S50000 S800000x1 S800000 [] [0] [0] 1
  gather_S50000x5_S800000x1_S800000x5_1_0_n_n_0_1_15_wf : GatherDims.WF S50000x5 S800000x1 S800000x5 [1] [0] [] [0] [] 1 ![1, 5]
  scatter_S50000x5_S800000x1_S800000x5_1_0_0_1_wf : ScatterDims.WF S50000x5 S800000x1 S800000x5 [1] [0] [0] 1
  dot_S2000x5_S5x128_S2000x128_1_0_0_1_n_n_wf : DotDims.WF S2000x5 S5x128 S2000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x128_S2000x128_1_0_0_1_n_n_wf : DotDims.WF S2000x128 S128x128 S2000x128 [1] [0] [0] [1] [] []
  dot_S2000x128_S128x1_S2000x1_1_0_0_1_n_n_wf : DotDims.WF S2000x128 S128x1 S2000x1 [1] [0] [0] [1] [] []
  scatter_S1x1_S50000x1_S50000x1_1_0_0_1_wf : ScatterDims.WF S1x1 S50000x1 S50000x1 [1] [0] [0] 1
  scatter_S1_S50000x1_S50000_n_0_0_1_wf : ScatterDims.WF S1 S50000x1 S50000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x5.size a ≤ S50000x5.size a
  hwx0_0 : ∀ i : grid0.Coords, EltTy.bits .f32 = 32 ∨ (Rect.block (s := S50000x5) S2000x5.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x5.size a ≤ S50000x5.size a
  hwx0_1 : ∀ i : grid0.Coords, EltTy.bits .f32 = 32 ∨ (Rect.block (s := S50000x5) S2000x5.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S5x128.size a ≤ S5x128.size a
  hwx0_2 : ∀ i : grid0.Coords, EltTy.bits .f32 = 32 ∨ (Rect.block (s := S5x128) S5x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S5x128.size a ≤ S5x128.size a
  hwx0_4 : ∀ i : grid0.Coords, EltTy.bits .f32 = 32 ∨ (Rect.block (s := S5x128) S5x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S50000x128.size a
  hwx0_5 : ∀ i : grid0.Coords, EltTy.bits .f32 = 32 ∨ (Rect.block (s := S50000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S50000x128.size a
  hwx1_5 : ∀ i : grid1.Coords, EltTy.bits .f32 = 32 ∨ (Rect.block (s := S50000x128) S2000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S50000x128.size a
  hwx2_1 : ∀ i : grid2.Coords, EltTy.bits .f32 = 32 ∨ (Rect.block (s := S50000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x1.size a ≤ S128x1.size a
  hwx2_2 : ∀ i : grid2.Coords, EltTy.bits .f32 = 32 ∨ (Rect.block (s := S128x1) S128x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1.size a ≤ S1.size a
  hwx2_3 : ∀ i : grid2.Coords, EltTy.bits .f32 = 32 ∨ (Rect.block (s := S1) S1.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x1.size a ≤ S128x1.size a
  hwx2_4 : ∀ i : grid2.Coords, EltTy.bits .f32 = 32 ∨ (Rect.block (s := S128x1) S128x1.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x1.size a ≤ S50000x1.size a
  hwx2_5 : ∀ i : grid2.Coords, EltTy.bits .f32 = 32 ∨ (Rect.block (s := S50000x1) S2000x1.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x128.size a ≤ S50000x128.size a
  hwx3_1 : ∀ i : grid3.Coords, EltTy.bits .f32 = 32 ∨ (Rect.block (s := S50000x128) S2000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128.size a ≤ S128.size a
  hwx3_3 : ∀ i : grid3.Coords, EltTy.bits .f32 = 32 ∨ (Rect.block (s := S128) S128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x1.size a ≤ S128x1.size a
  hwx3_5 : ∀ i : grid3.Coords, EltTy.bits .f32 = 32 ∨ (Rect.block (s := S128x1) S128x1.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1.size a ≤ S1.size a
  hwx3_6 : ∀ i : grid3.Coords, EltTy.bits .f32 = 32 ∨ (Rect.block (s := S1) S1.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S2000x1.size a ≤ S50000x1.size a
  hwx3_7 : ∀ i : grid3.Coords, EltTy.bits .f32 = 32 ∨ (Rect.block (s := S50000x1) S2000x1.size (cc3_transform_7 i) (hinb3_7 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x5_S800000x1_S800000x5_1_0_n_n_0_1_15 : GatherDims S50000x5 S800000x1 S800000x5 where
  offsetDims := [1]
  collapsedSliceDims := [0]
  operandBatchingDims := []
  startIndicesBatchingDims := []
  startIndexMap := [0]
  indexVectorDim := 1
  sliceSizes := ![1, 5]
  wf := gather_S50000x5_S800000x1_S800000x5_1_0_n_n_0_1_15_wf
def scatter_S50000x5_S800000x1_S800000x5_1_0_0_1 : ScatterDims S50000x5 S800000x1 S800000x5 where
  updateWindowDims := [1]
  insertedWindowDims := [0]
  scatterDimsToOperandDims := [0]
  indexVectorDim := 1
  wf := scatter_S50000x5_S800000x1_S800000x5_1_0_0_1_wf
def dot_S2000x5_S5x128_S2000x128_1_0_0_1_n_n : DotDims S2000x5 S5x128 S2000x128 where
  lhsContracting := [1]
  rhsContracting := [0]
  lhsNonContracting := [0]
  rhsNonContracting := [1]
  lhsBatch := []
  rhsBatch := []
  wf := dot_S2000x5_S5x128_S2000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x1_S2000x1_1_0_0_1_n_n : DotDims S2000x128 S128x1 S2000x1 where
  lhsContracting := [1]
  rhsContracting := [0]
  lhsNonContracting := [0]
  rhsNonContracting := [1]
  lhsBatch := []
  rhsBatch := []
  wf := dot_S2000x128_S128x1_S2000x1_1_0_0_1_n_n_wf
def scatter_S1x1_S50000x1_S50000x1_1_0_0_1 : ScatterDims S1x1 S50000x1 S50000x1 where
  updateWindowDims := [1]
  insertedWindowDims := [0]
  scatterDimsToOperandDims := [0]
  indexVectorDim := 1
  wf := scatter_S1x1_S50000x1_S50000x1_1_0_0_1_wf
def scatter_S1_S50000x1_S50000_n_0_0_1 : ScatterDims S1 S50000x1 S50000 where
  updateWindowDims := []
  insertedWindowDims := [0]
  scatterDimsToOperandDims := [0]
  indexVectorDim := 1
  wf := scatter_S1_S50000x1_S50000_n_0_0_1_wf

abbrev win0_0 : Pipeline.Window sig grid0 :=
  Pipeline.Window.ofSpec (Memref.whole main_v24) S2000x5.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x5.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S5x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S5x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v37) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v38) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v50) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v38) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S128x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg10) S1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg11) S128x1.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v51) S2000x1.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v50) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v38) S2000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg12) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg13) S128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg14) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg15) S128x1.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_arg16) S1.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v59) S2000x1.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

class Facts : Prop extends Facts₀ where

variable [Facts]
-- ==== ReferenceIdeal.lean ====
abbrev S50000x5 : Shape := ⟨2, ![50000, 5]⟩
abbrev S2x800000 : Shape := ⟨2, ![2, 800000]⟩
abbrev S50000 : Shape := ⟨1, ![50000]⟩
abbrev S5x128 : Shape := ⟨2, ![5, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000x1 : Shape := ⟨2, ![50000, 1]⟩
abbrev S800000x5 : Shape := ⟨2, ![800000, 5]⟩
abbrev S50000x128 : Shape := ⟨2, ![50000, 128]⟩
abbrev S1x128 : Shape := ⟨2, ![1, 128]⟩
abbrev S800000x128 : Shape := ⟨2, ![800000, 128]⟩
abbrev S1x1 : Shape := ⟨2, ![1, 1]⟩

abbrev nBuf : Space → Nat
  | .hbm => 165
  | .vmem => 0
  | .smem => 0
  | _ => 0

abbrev hbmTy0_0 (i : Nat) : BufTy := match i % 128 with
  | 0 => ⟨S50000x5, .f32⟩
  | 1 => ⟨S2x800000, .i32⟩
  | 2 => ⟨S50000, .i32⟩
  | 3 => ⟨S5x128, .f32⟩
  | 4 => ⟨S128, .f32⟩
  | 5 => ⟨S5x128, .f32⟩
  | 6 => ⟨S128x128, .f32⟩
  | 7 => ⟨S128, .f32⟩
  | 8 => ⟨S128x128, .f32⟩
  | 9 => ⟨S128x1, .f32⟩
  | 10 => ⟨S1, .f32⟩
  | 11 => ⟨S128x1, .f32⟩
  | 12 => ⟨S128x128, .f32⟩
  | 13 => ⟨S128, .f32⟩
  | 14 => ⟨S128x128, .f32⟩
  | 15 => ⟨S128x1, .f32⟩
  | 16 => ⟨S1, .f32⟩
  | 17 => ⟨S1x800000, .i32⟩
  | 18 => ⟨S800000, .i32⟩
  | 19 => ⟨S1x800000, .i32⟩
  | 20 => ⟨S800000, .i32⟩
  | 21 => ⟨S_, .f32⟩
  | 22 => ⟨S800000, .f32⟩
  | 23 => ⟨S_, .f32⟩
  | 24 => ⟨S50000, .f32⟩
  | 25 => ⟨S800000x1, .i32⟩
  | 26 => ⟨S50000, .f32⟩
  | 27 => ⟨S_, .f32⟩
  | 28 => ⟨S50000, .f32⟩
  | 29 => ⟨S50000, .f32⟩
  | 30 => ⟨S_, .f32⟩
  | 31 => ⟨S50000, .f32⟩
  | 32 => ⟨S50000, .f32⟩
  | 33 => ⟨S50000x1, .f32⟩
  | 34 => ⟨S50000x1, .f32⟩
  | 35 => ⟨S50000, .f32⟩
  | 36 => ⟨S_, .f32⟩
  | 37 => ⟨S50000, .f32⟩
  | 38 => ⟨S50000, .i1⟩
  | 39 => ⟨S_, .i32⟩
  | 40 => ⟨S800000, .i32⟩
  | 41 => ⟨S800000, .i1⟩
  | 42 => ⟨S_, .i32⟩
  | 43 => ⟨S800000, .i32⟩
  | 44 => ⟨S800000, .i32⟩
  | 45 => ⟨S800000, .i32⟩
  | 46 => ⟨S800000x1, .i32⟩
  | 47 => ⟨S800000x5, .f32⟩
  | 48 => ⟨S_, .f32⟩
  | 49 => ⟨S50000x5, .f32⟩
  | 50 => ⟨S800000x1, .i32⟩
  | 51 => ⟨S50000x5, .f32⟩
  | 52 => ⟨S50000x5, .f32⟩
  | 53 => ⟨S50000x5, .f32⟩
  | 54 => ⟨S50000x128, .f32⟩
  | 55 => ⟨S1x128, .f32⟩
  | 56 => ⟨S50000x128, .f32⟩
  | 57 => ⟨S50000x128, .f32⟩
  | 58 => ⟨S50000x128, .f32⟩
  | 59 => ⟨S50000x128, .f32⟩
  | 60 => ⟨S50000x128, .f32⟩
  | 61 => ⟨S_, .i32⟩
  | 62 => ⟨S800000, .i32⟩
  | 63 => ⟨S800000, .i1⟩
  | 64 => ⟨S_, .i32⟩
  | 65 => ⟨S800000, .i32⟩
  | 66 => ⟨S800000, .i32⟩
  | 67 => ⟨S800000, .i32⟩
  | 68 => ⟨S800000x1, .i32⟩
  | 69 => ⟨S800000x128, .f32⟩
  | 70 => ⟨S_, .f32⟩
  | 71 => ⟨S50000x128, .f32⟩
  | 72 => ⟨S800000x1, .i32⟩
  | 73 => ⟨S50000x128, .f32⟩
  | 74 => ⟨S50000x128, .f32⟩
  | 75 => ⟨S50000x128, .f32⟩
  | 76 => ⟨S50000x128, .f32⟩
  | 77 => ⟨S1x128, .f32⟩
  | 78 => ⟨S50000x128, .f32⟩
  | 79 => ⟨S50000x128, .f32⟩
  | 80 => ⟨S50000x128, .f32⟩
  | 81 => ⟨S50000x128, .f32⟩
  | 82 => ⟨S50000x128, .f32⟩
  | 83 => ⟨S_, .i32⟩
  | 84 => ⟨S800000, .i32⟩
  | 85 => ⟨S800000, .i1⟩
  | 86 => ⟨S_, .i32⟩
  | 87 => ⟨S800000, .i32⟩
  | 88 => ⟨S800000, .i32⟩
  | 89 => ⟨S800000, .i32⟩
  | 90 => ⟨S800000x1, .i32⟩
  | 91 => ⟨S800000x128, .f32⟩
  | 92 => ⟨S_, .f32⟩
  | 93 => ⟨S50000x128, .f32⟩
  | 94 => ⟨S800000x1, .i32⟩
  | 95 => ⟨S50000x128, .f32⟩
  | 96 => ⟨S50000x128, .f32⟩
  | 97 => ⟨S50000x128, .f32⟩
  | 98 => ⟨S50000x1, .f32⟩
  | 99 => ⟨S1x1, .f32⟩
  | 100 => ⟨S50000x1, .f32⟩
  | 101 => ⟨S50000x1, .f32⟩
  | 102 => ⟨S50000x1, .f32⟩
  | 103 => ⟨S50000x1, .f32⟩
  | 104 => ⟨S50000x1, .i1⟩
  | 105 => ⟨S_, .f32⟩
  | 106 => ⟨S_, .f32⟩
  | 107 => ⟨S50000x1, .f32⟩
  | 108 => ⟨S50000x1, .f32⟩
  | 109 => ⟨S_, .f32⟩
  | 110 => ⟨S1, .f32⟩
  | 111 => ⟨S_, .f32⟩
  | 112 => ⟨S1, .f32⟩
  | 113 => ⟨S1, .f32⟩
  | 114 => ⟨S1x1, .f32⟩
  | 115 => ⟨S50000x1, .f32⟩
  | 116 => ⟨S50000x1, .f32⟩
  | 117 => ⟨S50000x1, .f32⟩
  | 118 => ⟨S_, .f32⟩
  | 119 => ⟨S1, .f32⟩
  | 120 => ⟨S1x1, .f32⟩
  | 121 => ⟨S1x1, .f32⟩
  | 122 => ⟨S50000x1, .f32⟩
  | 123 => ⟨S50000x1, .f32⟩
  | 124 => ⟨S_, .i32⟩
  | 125 => ⟨S800000, .i32⟩
  | 126 => ⟨S800000, .i1⟩
  | 127 => ⟨S_, .i32⟩
  | _ => ⟨S50000x5, .f32⟩

abbrev hbmTy0_1 (i : Nat) : BufTy := match i % 128 with
  | 0 => ⟨S800000, .i32⟩
  | 1 => ⟨S800000, .i32⟩
  | 2 => ⟨S800000, .i32⟩
  | 3 => ⟨S800000x1, .i32⟩
  | 4 => ⟨S800000x128, .f32⟩
  | 5 => ⟨S_, .f32⟩
  | 6 => ⟨S50000x128, .f32⟩
  | 7 => ⟨S800000x1, .i32⟩
  | 8 => ⟨S50000x128, .f32⟩
  | 9 => ⟨S50000x128, .f32⟩
  | 10 => ⟨S50000x128, .f32⟩
  | 11 => ⟨S50000x128, .f32⟩
  | 12 => ⟨S1x128, .f32⟩
  | 13 => ⟨S50000x128, .f32⟩
  | 14 => ⟨S50000x128, .f32⟩
  | 15 => ⟨S50000x128, .f32⟩
  | 16 => ⟨S50000x128, .f32⟩
  | 17 => ⟨S50000x1, .f32⟩
  | 18 => ⟨S1x1, .f32⟩
  | 19 => ⟨S50000x1, .f32⟩
  | 20 => ⟨S50000x1, .f32⟩
  | 21 => ⟨S_, .f32⟩
  | 22 => ⟨S1x1, .f32⟩
  | 23 => ⟨S50000x1, .i32⟩
  | 24 => ⟨S1x1, .f32⟩
  | 25 => ⟨S_, .f32⟩
  | 26 => ⟨S50000, .f32⟩
  | 27 => ⟨S_, .f32⟩
  | 28 => ⟨S1, .f32⟩
  | 29 => ⟨S50000x1, .i32⟩
  | 30 => ⟨S1, .f32⟩
  | 31 => ⟨S_, .f32⟩
  | 32 => ⟨S1, .f32⟩
  | 33 => ⟨S1, .f32⟩
  | 34 => ⟨S1x1, .f32⟩
  | 35 => ⟨S1x1, .f32⟩
  | 36 => ⟨S1x1, .f32⟩
  | _ => ⟨S50000x5, .f32⟩

abbrev hbmTy (i : Nat) : BufTy := match i / 128 with
  | 0 => hbmTy0_0 i
  | 1 => hbmTy0_1 i
  | _ => ⟨S50000x5, .f32⟩

abbrev bufTy : (tb : Table) → Fin (tcTables nBuf tb) → BufTy
  | .hbm, ⟨i, _⟩ => hbmTy i
  | _, _ => ⟨S50000x5, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst : Ref sig .tc := ⟨.hbm, 21, rfl⟩
abbrev main_v4 : Ref sig .tc := ⟨.hbm, 22, rfl⟩
abbrev main_cst_0 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_cst_1 : Ref sig .tc := ⟨.hbm, 27, rfl⟩
abbrev main_v8 : Ref sig .tc := ⟨.hbm, 28, rfl⟩
abbrev main_v9 : Ref sig .tc := ⟨.hbm, 29, rfl⟩
abbrev main_cst_2 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_cst_3 : Ref sig .tc := ⟨.hbm, 36, rfl⟩
abbrev main_v15 : Ref sig .tc := ⟨.hbm, 37, rfl⟩
abbrev main_v16 : Ref sig .tc := ⟨.hbm, 38, rfl⟩
abbrev main_c : Ref sig .tc := ⟨.hbm, 39, rfl⟩
abbrev main_v17 : Ref sig .tc := ⟨.hbm, 40, rfl⟩
abbrev main_v18 : Ref sig .tc := ⟨.hbm, 41, rfl⟩
abbrev main_c_4 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_cst_5 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_c_6 : Ref sig .tc := ⟨.hbm, 61, rfl⟩
abbrev main_v36 : Ref sig .tc := ⟨.hbm, 62, rfl⟩
abbrev main_v37 : Ref sig .tc := ⟨.hbm, 63, rfl⟩
abbrev main_c_7 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_cst_8 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_c_9 : Ref sig .tc := ⟨.hbm, 83, rfl⟩
abbrev main_v55 : Ref sig .tc := ⟨.hbm, 84, rfl⟩
abbrev main_v56 : Ref sig .tc := ⟨.hbm, 85, rfl⟩
abbrev main_c_10 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_cst_11 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_cst_12 : Ref sig .tc := ⟨.hbm, 105, rfl⟩
abbrev main_call0_v0 : Ref sig .tc := ⟨.hbm, 106, rfl⟩
abbrev main_call0_v1 : Ref sig .tc := ⟨.hbm, 107, rfl⟩
abbrev main_v74 : Ref sig .tc := ⟨.hbm, 108, rfl⟩
abbrev main_call1_cst : Ref sig .tc := ⟨.hbm, 109, rfl⟩
abbrev main_call1_v0 : Ref sig .tc := ⟨.hbm, 110, rfl⟩
abbrev main_call1_cst_0 : Ref sig .tc := ⟨.hbm, 111, rfl⟩
abbrev main_call1_v1 : Ref sig .tc := ⟨.hbm, 112, rfl⟩
abbrev main_call1_v2 : Ref sig .tc := ⟨.hbm, 113, rfl⟩
abbrev main_call1_v3 : Ref sig .tc := ⟨.hbm, 114, rfl⟩
abbrev main_call1_v4 : Ref sig .tc := ⟨.hbm, 115, rfl⟩
abbrev main_call1_v5 : Ref sig .tc := ⟨.hbm, 116, rfl⟩
abbrev main_call1_v6 : Ref sig .tc := ⟨.hbm, 117, rfl⟩
abbrev main_call1_cst_1 : Ref sig .tc := ⟨.hbm, 118, rfl⟩
abbrev main_call1_v7 : Ref sig .tc := ⟨.hbm, 119, rfl⟩
abbrev main_call1_v8 : Ref sig .tc := ⟨.hbm, 120, rfl⟩
abbrev main_call1_v9 : Ref sig .tc := ⟨.hbm, 121, rfl⟩
abbrev main_call1_v10 : Ref sig .tc := ⟨.hbm, 122, rfl⟩
abbrev main_v75 : Ref sig .tc := ⟨.hbm, 123, rfl⟩
abbrev main_c_13 : Ref sig .tc := ⟨.hbm, 124, rfl⟩
abbrev main_v76 : Ref sig .tc := ⟨.hbm, 125, rfl⟩
abbrev main_v77 : Ref sig .tc := ⟨.hbm, 126, rfl⟩
abbrev main_c_14 : Ref sig .tc := ⟨.hbm, 127, rfl⟩
abbrev main_v78 : Ref sig .tc := ⟨.hbm, 128, rfl⟩
abbrev main_v79 : Ref sig .tc := ⟨.hbm, 129, rfl⟩
abbrev main_v80 : Ref sig .tc := ⟨.hbm, 130, rfl⟩
abbrev main_v81 : Ref sig .tc := ⟨.hbm, 131, rfl⟩
abbrev main_v82 : Ref sig .tc := ⟨.hbm, 132, rfl⟩
abbrev main_cst_15 : Ref sig .tc := ⟨.hbm, 133, rfl⟩
abbrev main_v83 : Ref sig .tc := ⟨.hbm, 134, rfl⟩
abbrev main_v84 : Ref sig .tc := ⟨.hbm, 135, rfl⟩
abbrev main_v85 : Ref sig .tc := ⟨.hbm, 136, rfl⟩
abbrev main_v86 : Ref sig .tc := ⟨.hbm, 137, rfl⟩
abbrev main_v87 : Ref sig .tc := ⟨.hbm, 138, rfl⟩
abbrev main_v88 : Ref sig .tc := ⟨.hbm, 139, rfl⟩
abbrev main_v89 : Ref sig .tc := ⟨.hbm, 140, rfl⟩
abbrev main_v90 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_v94 : Ref sig .tc := ⟨.hbm, 145, rfl⟩
abbrev main_v95 : Ref sig .tc := ⟨.hbm, 146, rfl⟩
abbrev main_v96 : Ref sig .tc := ⟨.hbm, 147, rfl⟩
abbrev main_v97 : Ref sig .tc := ⟨.hbm, 148, rfl⟩
abbrev main_cst_16 : Ref sig .tc := ⟨.hbm, 149, rfl⟩
abbrev main_v98 : Ref sig .tc := ⟨.hbm, 150, rfl⟩
abbrev main_v99 : Ref sig .tc := ⟨.hbm, 151, rfl⟩
abbrev main_v100 : Ref sig .tc := ⟨.hbm, 152, rfl⟩
abbrev main_cst_17 : Ref sig .tc := ⟨.hbm, 153, rfl⟩
abbrev main_v101 : Ref sig .tc := ⟨.hbm, 154, rfl⟩
abbrev main_cst_18 : Ref sig .tc := ⟨.hbm, 155, rfl⟩
abbrev main_v102 : Ref sig .tc := ⟨.hbm, 156, rfl⟩
abbrev main_v103 : Ref sig .tc := ⟨.hbm, 157, rfl⟩
abbrev main_v104 : Ref sig .tc := ⟨.hbm, 158, rfl⟩
abbrev main_cst_19 : Ref sig .tc := ⟨.hbm, 159, rfl⟩
abbrev main_v105 : Ref sig .tc := ⟨.hbm, 160, rfl⟩
abbrev main_v106 : Ref sig .tc := ⟨.hbm, 161, rfl⟩
abbrev main_v107 : Ref sig .tc := ⟨.hbm, 162, rfl⟩
abbrev main_v108 : Ref sig .tc := ⟨.hbm, 163, rfl⟩
abbrev main_v109 : Ref sig .tc := ⟨.hbm, 164, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  slices_S50000x5_S50000x1_0_2 : S50000x5.Slices ![0, 2] S50000x1
  shapeCasts_S50000x1_S50000 : S50000x1.ShapeCasts S50000
  bcast_S_S50000x5 : S_.BroadcastsInDim S50000x5 (![] : Fin 0 → Fin S50000x5.rank)
  bcast_S50000x1_S50000x5_0_1 : S50000x1.BroadcastsInDim S50000x5 (![0, 1] : Fin 2 → Fin S50000x5.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  bcast_S_S50000x1 : S_.BroadcastsInDim S50000x1 (![] : Fin 0 → Fin S50000x1.rank)
  reducesTo_S50000x1_S1_d0 : S50000x1.ReducesTo [0] S1
  h_S_ : 0 < S_.numel
  bcast_S_S1 : S_.BroadcastsInDim S1 (![] : Fin 0 → Fin S1.rank)
  bcast_S_S1x1 : S_.BroadcastsInDim S1x1 (![] : Fin 0 → Fin S1x1.rank)
  bcast_S1_S1x1_0 : S1.BroadcastsInDim S1x1 (![0] : Fin 1 → Fin S1x1.rank)
  scatter_S50000_S800000x1_S800000_n_0_0_1_wf : ScatterDims.WF S50000 S800000x1 S800000 [] [0] [0] 1
  gather_S50000x5_S800000x1_S800000x5_1_0_n_n_0_1_15_wf : GatherDims.WF S50000x5 S800000x1 S800000x5 [1] [0] [] [0] [] 1 ![1, 5]
  scatter_S50000x5_S800000x1_S800000x5_1_0_0_1_wf : ScatterDims.WF S50000x5 S800000x1 S800000x5 [1] [0] [0] 1
  dot_S50000x5_S5x128_S50000x128_1_0_0_1_n_n_wf : DotDims.WF S50000x5 S5x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  dot_S50000x128_S128x1_S50000x1_1_0_0_1_n_n_wf : DotDims.WF S50000x128 S128x1 S50000x1 [1] [0] [0] [1] [] []
  scatter_S1x1_S50000x1_S50000x1_1_0_0_1_wf : ScatterDims.WF S1x1 S50000x1 S50000x1 [1] [0] [0] 1
  scatter_S1_S50000x1_S50000_n_0_0_1_wf : ScatterDims.WF S1 S50000x1 S50000 [] [0] [0] 1

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x5_S800000x1_S800000x5_1_0_n_n_0_1_15 : GatherDims S50000x5 S800000x1 S800000x5 where
  offsetDims := [1]
  collapsedSliceDims := [0]
  operandBatchingDims := []
  startIndicesBatchingDims := []
  startIndexMap := [0]
  indexVectorDim := 1
  sliceSizes := ![1, 5]
  wf := gather_S50000x5_S800000x1_S800000x5_1_0_n_n_0_1_15_wf
def scatter_S50000x5_S800000x1_S800000x5_1_0_0_1 : ScatterDims S50000x5 S800000x1 S800000x5 where
  updateWindowDims := [1]
  insertedWindowDims := [0]
  scatterDimsToOperandDims := [0]
  indexVectorDim := 1
  wf := scatter_S50000x5_S800000x1_S800000x5_1_0_0_1_wf
def dot_S50000x5_S5x128_S50000x128_1_0_0_1_n_n : DotDims S50000x5 S5x128 S50000x128 where
  lhsContracting := [1]
  rhsContracting := [0]
  lhsNonContracting := [0]
  rhsNonContracting := [1]
  lhsBatch := []
  rhsBatch := []
  wf := dot_S50000x5_S5x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x1_S50000x1_1_0_0_1_n_n : DotDims S50000x128 S128x1 S50000x1 where
  lhsContracting := [1]
  rhsContracting := [0]
  lhsNonContracting := [0]
  rhsNonContracting := [1]
  lhsBatch := []
  rhsBatch := []
  wf := dot_S50000x128_S128x1_S50000x1_1_0_0_1_n_n_wf
def scatter_S1x1_S50000x1_S50000x1_1_0_0_1 : ScatterDims S1x1 S50000x1 S50000x1 where
  updateWindowDims := [1]
  insertedWindowDims := [0]
  scatterDimsToOperandDims := [0]
  indexVectorDim := 1
  wf := scatter_S1x1_S50000x1_S50000x1_1_0_0_1_wf
def scatter_S1_S50000x1_S50000_n_0_0_1 : ScatterDims S1 S50000x1 S50000 where
  updateWindowDims := []
  insertedWindowDims := [0]
  scatterDimsToOperandDims := [0]
  indexVectorDim := 1
  wf := scatter_S1_S50000x1_S50000_n_0_0_1_wf

class Facts : Prop extends Facts₀ where

variable [Facts]
-- ==== Proof.KernelRun.lean ====
/-
  The kernel program's run, read at its two results.

  From any launch memory with zero counters, every weakly fair execution of the kernel program's entry function on the
  TensorCores terminates, nothing faulting, and in every final state the two result buffers hold what the fold of the
  entry function's segments leaves there (the last boundary's contents), and every argument array is as launched.
-/
import proofs.«127485_j53523882443412_1_alg».proof.Proof.Gen.KernelIdeal.Frame

set_option maxRecDepth 16384

noncomputable section

namespace Cert.Sage.KernelRun

open Cert Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch lemma's implicit arguments are found by unifying its conclusion with this one, which takes unfolding
-- plain definitions in a metavariable's type
set_option backward.isDefEq.respectTransparency.types false in
/-- The run of the kernel program: termination without fault, and in every final state each result buffer at the last
    boundary's contents and each argument array as launched. -/
theorem run_results : θ_run defs (onTc (τ := τ) (main (F := F))) ⟨m, fun _ => 0, ρ⟩ (fun r => ∀ c : Dev nD,
      r.2.mem ((c.tc : Thread nD τ).loc main_v58) = W11 m ρ c (Proc.devRef .tc main_v58)
      ∧ r.2.mem ((c.tc : Thread nD τ).loc main_v71) = W11 m ρ c (Proc.devRef .tc main_v71)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v58 (by decide)),
       h c _ (mem_uc main_v71 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c),
       (h c _ (mem_uc main_arg9 (by decide))).trans (W11_main_arg9 m ρ c),
       (h c _ (mem_uc main_arg10 (by decide))).trans (W11_main_arg10 m ρ c),
       (h c _ (mem_uc main_arg11 (by decide))).trans (W11_main_arg11 m ρ c),
       (h c _ (mem_uc main_arg12 (by decide))).trans (W11_main_arg12 m ρ c),
       (h c _ (mem_uc main_arg13 (by decide))).trans (W11_main_arg13 m ρ c),
       (h c _ (mem_uc main_arg14 (by decide))).trans (W11_main_arg14 m ρ c),
       (h c _ (mem_uc main_arg15 (by decide))).trans (W11_main_arg15 m ρ c),
       (h c _ (mem_uc main_arg16 (by decide))).trans (W11_main_arg16 m ρ c)⟩)

end Cert.Sage.KernelRun

end
-- ==== Proof.Spec.lean ====
/-
  The network both programs compute, written once as whole-array functions of the argument arrays.

  A graph has 50000 nodes and 800000 directed edges; `e` holds the edge sources (row 0) and destinations (row 1).
  The MEAN AGGREGATION of a node feature array `f` is, at node `i`, the sum of `f (src k)` over the edges `k` with
  `dst k = i`, times `1 / max (in-degree of i) 1`.  A SAGE layer is `agg f · Wl + bl + f · Wr`; the network is two such
  layers under `tanh`, then an actor head (a layer of width 1, masked to `-∞` where column 2 of `x` is non-zero, then a
  log-softmax down the node axis) and a critic head (a layer of width 128, a linear map to width 1, the mean over the
  graphs named by `batch`, `tanh`).  Every function below is the reference's own sequence of host operations.
-/
import proofs.«127485_j53523882443412_1_alg».proof.ReferenceIdeal
import proofs.«127485_j53523882443412_1_alg».proof.Proof.Gen.ReferenceIdeal
import Idealize.ShloMosaic.PureOps.Ideal

noncomputable section

namespace Cert.Sage

open Cert.ReferenceIdeal Cert.ReferenceIdeal.Facts₀ Cert.ReferenceIdeal.Facts Idealize.ShloMosaic

variable {F : FTy → Type} [FloatOps F]

/-- Edge sources: row 0 of the edge array. -/
def src (e : Vec F S2x800000 .i32) : Vec F S800000 .i32 :=
  shapeCast S800000 (extractStridedSlice S1x800000 ![0, 0] e slices_S2x800000_S1x800000_0_0) shapeCasts_S1x800000_S800000

/-- Edge destinations: row 1 of the edge array. -/
def dst (e : Vec F S2x800000 .i32) : Vec F S800000 .i32 :=
  shapeCast S800000 (extractStridedSlice S1x800000 ![1, 0] e slices_S2x800000_S1x800000_1_0) shapeCasts_S1x800000_S800000

/-- The destinations as a column of scatter indices. -/
def dstIdx (e : Vec F S2x800000 .i32) : Vec F S800000x1 .i32 :=
  broadcastInDim S800000x1 ![0] bcast_S800000_S800000x1_0 (dst e)

/-- The sources, a negative one wrapped around by the node count, as a column of gather indices. -/
def srcIdx (e : Vec F S2x800000 .i32) : Vec F S800000x1 .i32 :=
  broadcastInDim S800000x1 ![0] bcast_S800000_S800000x1_0
    (select (cmpi .slt (src e) (broadcastInDim S800000 ![] bcast_S_S800000 (constantI S_ 32 0#32)))
      (addi (src e) (broadcastInDim S800000 ![] bcast_S_S800000 (constantI S_ 32 50000#32))) (src e))

/-- `1 / max (in-degree) 1` per node, as a column. -/
def invDeg (e : Vec F S2x800000 .i32) : Vec F S50000x1 .f32 :=
  broadcastInDim S50000x1 ![0] bcast_S50000_S50000x1_0
    (Host.divf (broadcastInDim S50000 ![] bcast_S_S50000 (constant S_ .f32 0x3F800000#32))
      (maximumf
        (Host.scatterAdd scatter_S50000_S800000x1_S800000_n_0_0_1
          (broadcastInDim S50000 ![] bcast_S_S50000 (constant S_ .f32 0x00000000#32)) (dstIdx e)
          (broadcastInDim S800000 ![] bcast_S_S800000 (constant S_ .f32 0x3F800000#32)))
        (broadcastInDim S50000 ![] bcast_S_S50000 (constant S_ .f32 0x3F800000#32))))

/-- Mean aggregation of a 5-column feature array over incoming edges. -/
def agg5 (x : Vec F S50000x5 .f32) (e : Vec F S2x800000 .i32) : Vec F S50000x5 .f32 :=
  mulf
    (Host.scatterAdd scatter_S50000x5_S800000x1_S800000x5_1_0_0_1
      (broadcastInDim S50000x5 ![] bcast_S_S50000x5 (constant S_ .f32 0x00000000#32)) (dstIdx e)
      (Host.gather gather_S50000x5_S800000x1_S800000x5_1_0_n_n_0_1_15 x (srcIdx e)))
    (broadcastInDim S50000x5 ![0, 1] bcast_S50000x1_S50000x5_0_1 (invDeg e))

/-- Mean aggregation of a 128-column feature array over incoming edges. -/
def agg128 (h : Vec F S50000x128 .f32) (e : Vec F S2x800000 .i32) : Vec F S50000x128 .f32 :=
  mulf
    (Host.scatterAdd scatter_S50000x128_S800000x1_S800000x128_1_0_0_1
      (broadcastInDim S50000x128 ![] bcast_S_S50000x128 (constant S_ .f32 0x00000000#32)) (dstIdx e)
      (Host.gather gather_S50000x128_S800000x1_S800000x128_1_0_n_n_0_1_1128 h (srcIdx e)))
    (broadcastInDim S50000x128 ![0, 1] bcast_S50000x1_S50000x128_0_1 (invDeg e))

/-- `a · Wl + bl + x · Wr` from width 5 to width 128. -/
def lin5 (a x : Vec F S50000x5 .f32) (Wl : Vec F S5x128 .f32) (bl : Vec F S128 .f32) (Wr : Vec F S5x128 .f32) :
    Vec F S50000x128 .f32 :=
  addf
    (addf (Host.dotGeneral dot_S50000x5_S5x128_S50000x128_1_0_0_1_n_n none a Wl)
      (broadcastInDim S50000x128 ![0, 1] bcast_S1x128_S50000x128_0_1 (broadcastInDim S1x128 ![1] bcast_S128_S1x128_1 bl)))
    (Host.dotGeneral dot_S50000x5_S5x128_S50000x128_1_0_0_1_n_n none x Wr)

/-- `a · Wl + bl + h · Wr` from width 128 to width 128. -/
def lin128 (a h : Vec F S50000x128 .f32) (Wl : Vec F S128x128 .f32) (bl : Vec F S128 .f32) (Wr : Vec F S128x128 .f32) :
    Vec F S50000x128 .f32 :=
  addf
    (addf (Host.dotGeneral dot_S50000x128_S128x128_S50000x128_1_0_0_1_n_n none a Wl)
      (broadcastInDim S50000x128 ![0, 1] bcast_S1x128_S50000x128_0_1 (broadcastInDim S1x128 ![1] bcast_S128_S1x128_1 bl)))
    (Host.dotGeneral dot_S50000x128_S128x128_S50000x128_1_0_0_1_n_n none h Wr)

/-- `a · Wl + bl + h · Wr` from width 128 to width 1. -/
def lin1 (a h : Vec F S50000x128 .f32) (Wl : Vec F S128x1 .f32) (bl : Vec F S1 .f32) (Wr : Vec F S128x1 .f32) :
    Vec F S50000x1 .f32 :=
  addf
    (addf (Host.dotGeneral dot_S50000x128_S128x1_S50000x1_1_0_0_1_n_n none a Wl)
      (broadcastInDim S50000x1 ![0, 1] bcast_S1x1_S50000x1_0_1 (broadcastInDim S1x1 ![1] bcast_S1_S1x1_1 bl)))
    (Host.dotGeneral dot_S50000x128_S128x1_S50000x1_1_0_0_1_n_n none h Wr)

/-- The first layer: `tanh` of the width-5 combination. -/
def layer1 (a x : Vec F S50000x5 .f32) (Wl : Vec F S5x128 .f32) (bl : Vec F S128 .f32) (Wr : Vec F S5x128 .f32) :
    Vec F S50000x128 .f32 := Host.tanh (lin5 a x Wl bl Wr)

/-- The second layer: `tanh` of the width-128 combination. -/
def layer2 (a h : Vec F S50000x128 .f32) (Wl : Vec F S128x128 .f32) (bl : Vec F S128 .f32) (Wr : Vec F S128x128 .f32) :
    Vec F S50000x128 .f32 := Host.tanh (lin128 a h Wl bl Wr)

/-- The critic's per-node score: the width-128 combination mapped to width 1 by `Wf`, plus `bf`. -/
def criticLin (a h : Vec F S50000x128 .f32) (Wlc : Vec F S128x128 .f32) (blc : Vec F S128 .f32) (Wrc : Vec F S128x128 .f32)
    (Wf : Vec F S128x1 .f32) (bf : Vec F S1 .f32) : Vec F S50000x1 .f32 :=
  addf (Host.dotGeneral dot_S50000x128_S128x1_S50000x1_1_0_0_1_n_n none (lin128 a h Wlc blc Wrc) Wf)
    (broadcastInDim S50000x1 ![0, 1] bcast_S1x1_S50000x1_0_1 (broadcastInDim S1x1 ![1] bcast_S1_S1x1_1 bf))

/-- The actor scores with `-∞` where column 2 of `x` is non-zero. -/
def masked (x : Vec F S50000x5 .f32) (act : Vec F S50000x1 .f32) : Vec F S50000x1 .f32 :=
  select
    (broadcastInDim S50000x1 ![0] bcast_S50000_S50000x1_0
      (cmpf .une (shapeCast S50000 (extractStridedSlice S50000x1 ![0, 2] x slices_S50000x5_S50000x1_0_2) shapeCasts_S50000x1_S50000)
        (broadcastInDim S50000 ![] bcast_S_S50000 (constant S_ .f32 0x00000000#32))))
    (broadcastInDim S50000x1 ![] bcast_S_S50000x1 (id (constant S_ .f32 0xFF800000#32))) act

/-- `v` minus its maximum down the node axis. -/
def centred (v : Vec F S50000x1 .f32) : Vec F S50000x1 .f32 :=
  subf v
    (broadcastInDim S50000x1 ![0, 1] bcast_S1x1_S50000x1_0_1
      (broadcastInDim S1x1 ![1] bcast_S1_S1x1_1
        (maximumf (broadcastInDim S1 ![] bcast_S_S1 (constant S_ .f32 0xFF800000#32))
          (Host.reduce FloatOps.maximumf v (constant S_ .f32 0xFF800000#32) reducesTo_S50000x1_S1_d0 h_S_))))

/-- Log-softmax down the node axis. -/
def logSoftmax (v : Vec F S50000x1 .f32) : Vec F S50000x1 .f32 :=
  subf (centred v)
    (broadcastInDim S50000x1 ![0, 1] bcast_S1x1_S50000x1_0_1
      (Host.log (broadcastInDim S1x1 ![1] bcast_S1_S1x1_1
        (Host.reduceAdd (Host.exp (centred v)) (constant S_ .f32 0x00000000#32) reducesTo_S50000x1_S1_d0 h_S_))))

/-- The mean of the per-node scores over each graph of `batch`, under `tanh`. -/
def pooled (batch : Vec F S50000 .i32) (s : Vec F S50000x1 .f32) : Vec F S1x1 .f32 :=
  Host.tanh (Host.divf
    (Host.scatterAdd scatter_S1x1_S50000x1_S50000x1_1_0_0_1
      (broadcastInDim S1x1 ![] bcast_S_S1x1 (constant S_ .f32 0x00000000#32))
      (broadcastInDim S50000x1 ![0] bcast_S50000_S50000x1_0 batch) s)
    (broadcastInDim S1x1 ![0] bcast_S1_S1x1_0
      (maximumf
        (Host.scatterAdd scatter_S1_S50000x1_S50000_n_0_0_1
          (broadcastInDim S1 ![] bcast_S_S1 (constant S_ .f32 0x00000000#32))
          (broadcastInDim S50000x1 ![0] bcast_S50000_S50000x1_0 batch)
          (broadcastInDim S50000 ![] bcast_S_S50000 (constant S_ .f32 0x3F800000#32)))
        (broadcastInDim S1 ![] bcast_S_S1 (constant S_ .f32 0x3F800000#32)))))

/-- The first hidden layer of the network. -/
def hidden1 (x : Vec F S50000x5 .f32) (e : Vec F S2x800000 .i32) (Wl1 : Vec F S5x128 .f32) (bl1 : Vec F S128 .f32)
    (Wr1 : Vec F S5x128 .f32) : Vec F S50000x128 .f32 := layer1 (agg5 x e) x Wl1 bl1 Wr1

/-- The second hidden layer of the network. -/
def hidden2 (x : Vec F S50000x5 .f32) (e : Vec F S2x800000 .i32) (Wl1 : Vec F S5x128 .f32) (bl1 : Vec F S128 .f32)
    (Wr1 : Vec F S5x128 .f32) (Wl2 : Vec F S128x128 .f32) (bl2 : Vec F S128 .f32) (Wr2 : Vec F S128x128 .f32) :
    Vec F S50000x128 .f32 :=
  layer2 (agg128 (hidden1 x e Wl1 bl1 Wr1) e) (hidden1 x e Wl1 bl1 Wr1) Wl2 bl2 Wr2

/-- The actor's output as a function of the second hidden layer. -/
def actorOf (x : Vec F S50000x5 .f32) (e : Vec F S2x800000 .i32) (h2 : Vec F S50000x128 .f32)
    (Wla : Vec F S128x1 .f32) (bla : Vec F S1 .f32) (Wra : Vec F S128x1 .f32) : Vec F S50000x1 .f32 :=
  logSoftmax (masked x (lin1 (agg128 h2 e) h2 Wla bla Wra))

/-- The critic's output as a function of the second hidden layer. -/
def criticOf (e : Vec F S2x800000 .i32) (batch : Vec F S50000 .i32) (h2 : Vec F S50000x128 .f32)
    (Wlc : Vec F S128x128 .f32) (blc : Vec F S128 .f32) (Wrc : Vec F S128x128 .f32) (Wf : Vec F S128x1 .f32) (bf : Vec F S1 .f32) :
    Vec F S1x1 .f32 :=
  pooled batch (criticLin (agg128 h2 e) h2 Wlc blc Wrc Wf bf)

end Cert.Sage

end
-- ==== Proof.LibPlainDot.lean ====
/-
  A plain matrix product read at an index.

  The dimension numbers of the product of an `[R, K]` array with a `[K, C]` array into `[R, C]` — contract the
  left operand's axis 1 with the right operand's axis 0, no batch axes — are the record `plainDot` below, whose
  side condition is a parameter: any record with the same lists is one of them by unfolding. On the extended reals
  the product into a zero accumulator, read at `(p, q)`, is the sum over `k` of `lhs (p, k) * rhs (k, q)`.
-/
import Idealize.ShloMosaic.PureOps.Ideal
import Idealize.ShloMosaic.PureOps.Ideal.Laws
import Idealize.ShloMosaic.PureOps.Dims
import Idealize.ShloMosaic.PureOps.Contract
import Idealize.ShloMosaic.Lib.ValueIdx

noncomputable section

open scoped BigOperators

namespace Cert.LibPlainDot

open Idealize.ShloMosaic Idealize.ShloMosaic.ValueIdx

/-- The dimension numbers of a plain `[R, K] × [K, C] → [R, C]` product. -/
abbrev plainDot (R K C : Nat)
    (wf : DotDims.WF ⟨2, ![R, K]⟩ ⟨2, ![K, C]⟩ ⟨2, ![R, C]⟩ [1] [0] [0] [1] [] []) :
    DotDims ⟨2, ![R, K]⟩ ⟨2, ![K, C]⟩ ⟨2, ![R, C]⟩ where
  lhsContracting := [1]
  rhsContracting := [0]
  lhsNonContracting := [0]
  rhsNonContracting := [1]
  lhsBatch := []
  rhsBatch := []
  wf := wf

section
variable {R K C : Nat} (wf : DotDims.WF ⟨2, ![R, K]⟩ ⟨2, ![K, C]⟩ ⟨2, ![R, C]⟩ [1] [0] [0] [1] [] [])

/-- The left operand's index for output `(p, q)` and contraction coordinate `k` is `(p, k)`. -/
theorem plainDot_lhsIdx (p : Fin R) (q : Fin C) (k : Fin K) :
    (plainDot R K C wf).lhsIdx (ix2 p q) ((contrEquiv1 (plainDot R K C wf) K rfl rfl).symm k) = ix2 p k := by
  have hk := contrEquiv1_symm_val (plainDot R K C wf) K rfl rfl k
  funext a
  refine Fin.ext ?_
  match a with
  | ⟨0, _⟩ =>
    show ((plainDot R K C wf).lhsIdx (ix2 p q) ((contrEquiv1 (plainDot R K C wf) K rfl rfl).symm k) 0).val = p.val
    unfold DotDims.lhsIdx
    rw [dif_neg (show ¬(0 : Fin 2) ∈ (plainDot R K C wf).lhsBatch from List.not_mem_nil),
      dif_pos (show (0 : Fin 2) ∈ (plainDot R K C wf).lhsNonContracting from List.mem_singleton.mpr rfl)]
    rfl
  | ⟨1, _⟩ =>
    exact ((plainDot R K C wf).lhsIdx_val_of_single (cl := (1 : Fin 2)) rfl (ix2 p q) _).trans hk

/-- The right operand's index for output `(p, q)` and contraction coordinate `k` is `(k, q)`. -/
theorem plainDot_rhsIdx (p : Fin R) (q : Fin C) (k : Fin K) :
    (plainDot R K C wf).rhsIdx (ix2 p q) ((contrEquiv1 (plainDot R K C wf) K rfl rfl).symm k) = ix2 k q := by
  have hk := contrEquiv1_symm_val (plainDot R K C wf) K rfl rfl k
  funext a
  refine Fin.ext ?_
  match a with
  | ⟨0, _⟩ =>
    exact ((plainDot R K C wf).rhsIdx_val_of_single (cr := (0 : Fin 2)) rfl (ix2 p q) _).trans hk
  | ⟨1, _⟩ =>
    show ((plainDot R K C wf).rhsIdx (ix2 p q) ((contrEquiv1 (plainDot R K C wf) K rfl rfl).symm k) 1).val = q.val
    unfold DotDims.rhsIdx
    rw [dif_neg (show ¬(1 : Fin 2) ∈ (plainDot R K C wf).rhsBatch from List.not_mem_nil),
      dif_pos (show (1 : Fin 2) ∈ (plainDot R K C wf).rhsNonContracting from List.mem_singleton.mpr rfl)]
    rfl

/-- THE PLAIN PRODUCT INTO A ZERO ACCUMULATOR AT `(p, q)`: the sum over `k` of `lhs (p, k) * rhs (k, q)`. -/
theorem matmul_zero_apply {φ₁ φ₂ : FTy} (prec : Option ContractPrecision)
    (lhs : FVec Ideal ⟨2, ![R, K]⟩ φ₁) (rhs : FVec Ideal ⟨2, ![K, C]⟩ φ₂) (p : Fin R) (q : Fin C) :
    FloatOps.matmul (plainDot R K C wf) prec lhs rhs (constant ⟨2, ![R, C]⟩ .f32 0x00000000#32) (ix2 p q)
      = ∑ k : Fin K, lhs (ix2 p k) * rhs (ix2 k q) := by
  rw [Ideal.matmul_constant_zero_apply, ← Equiv.sum_comp (contrEquiv1 (plainDot R K C wf) K rfl rfl).symm]
  refine Finset.sum_congr rfl fun k _ => ?_
  rw [plainDot_lhsIdx wf p q k, plainDot_rhsIdx wf p q k]

end

end Cert.LibPlainDot

end
-- ==== Proof.LibHostDot.lean ====
/-
  The host's matrix product read at an index.

  For the dimension numbers of a plain `[R, K] × [K, C] → [R, C]` product (contract the left operand's axis 1 with
  the right operand's axis 0, no batch axes), the host's `dot_general` on the extended reals, read at `(p, q)`, is
  the sum over `k` of `lhs (p, k) * rhs (k, q)`: the same sum a product into a zero accumulator gives, whatever
  the number of rows. So a product computed row block by row block is the whole product.
-/
import proofs.«127485_j53523882443412_1_alg».proof.Proof.LibPlainDot
import Idealize.ShloMosaic.PureOps.Ideal
import Idealize.ShloMosaic.PureOps.Ideal.Laws
import Idealize.ShloMosaic.Lib.ValueIdx

noncomputable section

open scoped BigOperators

namespace Cert.LibHostDot

open Idealize.ShloMosaic Idealize.ShloMosaic.ValueIdx Cert.LibPlainDot

variable {R K C : Nat} (wf : DotDims.WF ⟨2, ![R, K]⟩ ⟨2, ![K, C]⟩ ⟨2, ![R, C]⟩ [1] [0] [0] [1] [] [])

/-- THE HOST'S PLAIN PRODUCT AT `(p, q)`: the sum over `k` of `lhs (p, k) * rhs (k, q)`. -/
theorem hostDot_apply {φ₁ φ₂ : FTy} (prec : Option ContractPrecision)
    (lhs : FVec Ideal ⟨2, ![R, K]⟩ φ₁) (rhs : FVec Ideal ⟨2, ![K, C]⟩ φ₂) (p : Fin R) (q : Fin C) :
    Host.dotGeneral (F := Ideal) (plainDot R K C wf) prec lhs rhs (ix2 p q)
      = ∑ k : Fin K, lhs (ix2 p k) * rhs (ix2 k q) := by
  simp only [Host.dotGeneral]
  rw [Ideal.dotGeneral_apply, ← Equiv.sum_comp (contrEquiv1 (plainDot R K C wf) K rfl rfl).symm]
  refine Finset.sum_congr rfl fun k _ => ?_
  rw [plainDot_lhsIdx wf p q k, plainDot_rhsIdx wf p q k]

end Cert.LibHostDot

end
-- ==== Proof.LibColumn.lean ====
/-
  Columns and rows of small shapes read at an index.

  A column `[a, 1]` stretched along its unit axis to `[a, b]` reads, at `(p, c)`, its entry `(p, 0)`; a row
  `[1, b]` stretched to `[a, b]` reads its entry `(0, c)`; a vector `[a]` set up as a column `[a, 1]` (by a cast, or by
  a broadcast that names its one axis) or as a row `[1, a]` reads its entry `p`; a scalar stretched to any shape reads
  its one entry.  These are the host's `broadcast_in_dim` and the vector unit's `broadcast` / `shape_cast` in the
  forms a "keep the axis" reduction or a bias produces.
-/
import Idealize.ShloMosaic.Lib.Pipeline.Value
import Idealize.ShloMosaic.Lib.ValueIdx
import Idealize.ShloMosaic.Lib.ValueLayout

namespace Cert.LibColumn

open Idealize.ShloMosaic Idealize.ShloMosaic.ValueIdx

variable {α : Type}

/-- A column `[a, 1]` broadcast (vector unit) to `[a, b]` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A column `[a, 1]` broadcast (host) along axes `[0, 1]` to `[a, b]` reads, at `(p, c)`, the column's entry `p`. -/
theorem bcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- A row `[1, b]` broadcast (host) along axes `[0, 1]` to `[a, b]` reads, at `(p, c)`, the row's entry `c`. -/
theorem bcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

/-- A vector `[b]` broadcast (host) along axis `[1]` to a row `[1, b]` reads, at `(u, c)`, the vector's entry `c`. -/
theorem bcastInDim_b_1b_apply {b : ℕ} (v : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h v (ix2 u c) = v (ix1 c) := by
  refine broadcastInDim_apply ![1] h v (ix2 u c) (ix1 c) fun ax => ?_
  match ax with
  | ⟨0, _⟩ =>
    show c.val = if b = 1 then 0 else c.val
    split
    · have := c.isLt; omega
    · rfl

/-- A vector `[a]` broadcast (host) along axis `[0]` to a column `[a, 1]` reads, at `(p, u)`, the vector's entry `p`. -/
theorem bcastInDim_a_a1_apply {a : ℕ} (v : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h v (ix2 p u) = v (ix1 p) := by
  refine broadcastInDim_apply ![0] h v (ix2 p u) (ix1 p) fun ax => ?_
  match ax with
  | ⟨0, _⟩ =>
    show p.val = if a = 1 then 0 else p.val
    split
    · have := p.isLt; omega
    · rfl

/-- A vector `[a]` cast to a column `[a, 1]` reads, at `(p, u)`, the vector's entry `p`. -/
theorem shapeCast_a_a1_apply {a : ℕ} (v : (⟨1, ![a]⟩ : Shape).Idx → α)
    (h : (⟨1, ![a]⟩ : Shape).ShapeCasts ⟨2, ![a, 1]⟩) (p : Fin a) (u : Fin 1) :
    shapeCast ⟨2, ![a, 1]⟩ v h (ix2 p u) = v (ix1 p) :=
  shapeCast_apply v h _ _ (by
    have hu : u.val = 0 := by omega
    rw [Shape.rowMajor_val_two, Shape.rowMajor_val_one]
    show p.val = p.val * 1 + u.val
    rw [hu]; omega)

/-- So the cast of a vector to a column and its broadcast to a column are one array. -/
theorem shapeCast_a_a1_eq_bcastInDim {a : ℕ} (v : (⟨1, ![a]⟩ : Shape).Idx → α)
    (h : (⟨1, ![a]⟩ : Shape).ShapeCasts ⟨2, ![a, 1]⟩) (h' : (⟨1, ![a]⟩ : Shape).BroadcastsInDim ⟨2, ![a, 1]⟩ ![0]) :
    shapeCast ⟨2, ![a, 1]⟩ v h = broadcastInDim ⟨2, ![a, 1]⟩ ![0] h' v := by
  funext j
  obtain ⟨p, u, rfl⟩ : ∃ (p : Fin a) (u : Fin 1), j = ix2 p u := ⟨j 0, j 1, eq_ix2 j⟩
  rw [shapeCast_a_a1_apply, bcastInDim_a_a1_apply]

/-- A scalar broadcast (host) to any shape reads its one entry everywhere. -/
theorem bcastInDim_scalar_apply {t : Shape} (v : (⟨0, ![]⟩ : Shape).Idx → α)
    (h : (⟨0, ![]⟩ : Shape).BroadcastsInDim t (![] : Fin 0 → Fin t.rank)) (j : t.Idx) (k : (⟨0, ![]⟩ : Shape).Idx) :
    broadcastInDim t ![] h v j = v k :=
  broadcastInDim_apply ![] h v j k fun ax => ax.elim0

end Cert.LibColumn
-- ==== Proof.Region0.lean ====
/-
  Region 0 computes the first layer. At grid point t its body reads rows 2000·t … 2000·t + 1999 of the aggregated
  features and of the node features, the two 5 × 128 weight matrices and the bias, and writes the same rows of the
  result: at (p, q) it is tanh ((Σ_k agg (p, k) · Wl (k, q) + Σ_k x (p, k) · Wr (k, q)) + bl q), a change of float format
  being the identity on the extended reals. The reference's layer is tanh ((Σ_k agg · Wl + bl) + Σ_k x · Wr) at the same
  entry; the two differ by the order of a sum of three terms, and addition of extended reals is commutative and
  associative, so they agree with no finiteness assumption. The 25 blocks tile the 50000 rows, so the whole array the
  region leaves is the reference's layer of the arrays the region found.
-/
import proofs.«127485_j53523882443412_1_alg».proof.Proof.Gen.KernelIdeal.Frame
import proofs.«127485_j53523882443412_1_alg».proof.Proof.Spec
import proofs.«127485_j53523882443412_1_alg».proof.Proof.LibPlainDot
import proofs.«127485_j53523882443412_1_alg».proof.Proof.LibHostDot
import proofs.«127485_j53523882443412_1_alg».proof.Proof.LibColumn
import Idealize.ShloMosaic.Lib.Pipeline.Value
import Idealize.ShloMosaic.Lib.ValueIdx
import Idealize.ShloMosaic.Lib.ValueLayout

set_option maxRecDepth 16384

noncomputable section

namespace Cert.Sage.Region0

open Idealize.ShloMosaic Idealize.ShloMosaic.ValueIdx Idealize.ShloMosaic.TcCoe Idealize.SL.Sem
open Cert.KernelIdeal Cert.KernelIdeal.Gen
open scoped BigOperators

/-! ## The body's value at an entry of its block -/

/-- A bias vector laid out as a row and repeated down the rows reads, at (p, q), its entry q. -/
theorem bias_apply (b : Vec Ideal S128 .f32) (p : Fin 2000) (q : Fin 128) :
    broadcastTo S2000x128 (shapeCast S1x128 b shapeCasts_S128_S1x128) broadcasts_S1x128_S2000x128 (ix2 p q) = b (ix1 q) := by
  refine (broadcastTo_apply _ broadcasts_S1x128_S2000x128 (ix2 p q) (ix2 (0 : Fin 1) q) fun a => ?_).trans ?_
  · match a with
    | ⟨0, _⟩ => rfl
    | ⟨1, _⟩ => rfl
  · refine shapeCast_apply b shapeCasts_S128_S1x128 (ix2 (0 : Fin 1) q) (ix1 q) ?_
    rw [Shape.rowMajor_val_one, Shape.rowMajor_val_two]
    show q.val = 0 * 128 + q.val
    omega

/-- The stored value at (p, q) of the block: tanh of the two products' sum plus the bias. -/
theorem pay_apply (x0 x1 : Vec Ideal S2000x5 .f32) (x2 x4 : Vec Ideal S5x128 .f32) (x3 : Vec Ideal S128 .f32)
    (p : Fin 2000) (q : Fin 128) :
    k0_pay1 (F := Ideal) x0 x1 x2 x4 x3 (ix2 p q)
      = Ideal.tanh (((∑ k : Fin 5, x0 (ix2 p k) * x2 (ix2 k q)) + ∑ k : Fin 5, x1 (ix2 p k) * x4 (ix2 k q)) + x3 (ix1 q)) := by
  unfold k0_pay1
  show Ideal.tanh
      ((matmul (F := Ideal) (φ₁ := .bf16) (φ₂ := .bf16) dot_S2000x5_S5x128_S2000x128_1_0_0_1_n_n none (shapeCast S2000x5 x0 shapeCasts_S2000x5_S2000x5) x2 (constant (F := Ideal) S2000x128 .f32 0x00000000#32) (ix2 p q)
        + matmul (F := Ideal) (φ₁ := .bf16) (φ₂ := .bf16) dot_S2000x5_S5x128_S2000x128_1_0_0_1_n_n none x1 x4 (constant (F := Ideal) S2000x128 .f32 0x00000000#32) (ix2 p q))
       + broadcastTo S2000x128 (shapeCast S1x128 x3 shapeCasts_S128_S1x128) broadcasts_S1x128_S2000x128 (ix2 p q)) = _
  rw [shapeCast_self, bias_apply]
  have h1 : matmul (F := Ideal) (φ₁ := .bf16) (φ₂ := .bf16) dot_S2000x5_S5x128_S2000x128_1_0_0_1_n_n none x0 x2 (constant (F := Ideal) S2000x128 .f32 0x00000000#32) (ix2 p q)
      = ∑ k : Fin 5, x0 (ix2 p k) * x2 (ix2 k q) :=
    Cert.LibPlainDot.matmul_zero_apply (φ₁ := .bf16) (φ₂ := .bf16) dot_S2000x5_S5x128_S2000x128_1_0_0_1_n_n.wf none x0 x2 p q
  have h2 : matmul (F := Ideal) (φ₁ := .bf16) (φ₂ := .bf16) dot_S2000x5_S5x128_S2000x128_1_0_0_1_n_n none x1 x4 (constant (F := Ideal) S2000x128 .f32 0x00000000#32) (ix2 p q)
      = ∑ k : Fin 5, x1 (ix2 p k) * x4 (ix2 k q) :=
    Cert.LibPlainDot.matmul_zero_apply (φ₁ := .bf16) (φ₂ := .bf16) dot_S2000x5_S5x128_S2000x128_1_0_0_1_n_n.wf none x1 x4 p q
  rw [h1, h2]

/-! ## The reference's layer at an entry -/

/-- The reference's first layer at (P, q). -/
theorem layer1_apply (a x : Vec Ideal S50000x5 .f32) (Wl : Vec Ideal S5x128 .f32) (bl : Vec Ideal S128 .f32)
    (Wr : Vec Ideal S5x128 .f32) (P : Fin 50000) (q : Fin 128) :
    Cert.Sage.layer1 a x Wl bl Wr (ix2 P q)
      = Ideal.tanh (((∑ k : Fin 5, a (ix2 P k) * Wl (ix2 k q)) + bl (ix1 q)) + ∑ k : Fin 5, x (ix2 P k) * Wr (ix2 k q)) := by
  unfold Cert.Sage.layer1 Cert.Sage.lin5
  show Ideal.tanh
      ((Host.dotGeneral (F := Ideal) (φ₁ := .f32) (φ₂ := .f32) Cert.ReferenceIdeal.dot_S50000x5_S5x128_S50000x128_1_0_0_1_n_n none a Wl (ix2 P q)
        + broadcastInDim Cert.ReferenceIdeal.S50000x128 ![0, 1] Cert.ReferenceIdeal.Facts₀.bcast_S1x128_S50000x128_0_1
            (broadcastInDim Cert.ReferenceIdeal.S1x128 ![1] Cert.ReferenceIdeal.Facts₀.bcast_S128_S1x128_1 bl) (ix2 P q))
       + Host.dotGeneral (F := Ideal) (φ₁ := .f32) (φ₂ := .f32) Cert.ReferenceIdeal.dot_S50000x5_S5x128_S50000x128_1_0_0_1_n_n none x Wr (ix2 P q)) = _
  have h1 : Host.dotGeneral (F := Ideal) (φ₁ := .f32) (φ₂ := .f32) Cert.ReferenceIdeal.dot_S50000x5_S5x128_S50000x128_1_0_0_1_n_n none a Wl (ix2 P q)
      = ∑ k : Fin 5, a (ix2 P k) * Wl (ix2 k q) :=
    Cert.LibHostDot.hostDot_apply (φ₁ := .f32) (φ₂ := .f32) Cert.ReferenceIdeal.dot_S50000x5_S5x128_S50000x128_1_0_0_1_n_n.wf none a Wl P q
  have h2 : Host.dotGeneral (F := Ideal) (φ₁ := .f32) (φ₂ := .f32) Cert.ReferenceIdeal.dot_S50000x5_S5x128_S50000x128_1_0_0_1_n_n none x Wr (ix2 P q)
      = ∑ k : Fin 5, x (ix2 P k) * Wr (ix2 k q) :=
    Cert.LibHostDot.hostDot_apply (φ₁ := .f32) (φ₂ := .f32) Cert.ReferenceIdeal.dot_S50000x5_S5x128_S50000x128_1_0_0_1_n_n.wf none x Wr P q
  have h3 : broadcastInDim Cert.ReferenceIdeal.S50000x128 ![0, 1] Cert.ReferenceIdeal.Facts₀.bcast_S1x128_S50000x128_0_1
            (broadcastInDim Cert.ReferenceIdeal.S1x128 ![1] Cert.ReferenceIdeal.Facts₀.bcast_S128_S1x128_1 bl) (ix2 P q) = bl (ix1 q) :=
    (Cert.LibColumn.bcastInDim_1b_ab_apply _ Cert.ReferenceIdeal.Facts₀.bcast_S1x128_S50000x128_0_1 P q).trans
      (Cert.LibColumn.bcastInDim_b_1b_apply bl Cert.ReferenceIdeal.Facts₀.bcast_S128_S1x128_1 (0 : Fin 1) q)
  rw [h1, h2, h3]

/-! ## From blocks to the array -/

variable (V : (c : Dev nD) → (b : Ref sig .tc) → Buf (Elt Ideal) ((c : Thread nD τ).loc b))

theorem hz : (![0, 0] : Fin 2 → Nat) = fun _ => 0 := funext fun a => by fin_cases a <;> rfl
theorem hz1 : (![0] : Fin 1 → Nat) = fun _ => 0 := funext fun a => by fin_cases a; rfl

/-- The block index maps over the grid: the row-blocked windows sit at block (t, 0), the weights and the bias at 0. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- What point t writes back is block t of the reference's layer of the arrays the region found. -/
theorem flushed_eq (c : Dev nD) (t : Fin cfg0.N) :
    (dat0 (F := Ideal) V c).flushed 5 t
      = ((cfg0.win 5).blk t).view.read (Elt Ideal)
          (Cert.Sage.layer1 (V c main_v24) (V c main_arg0) (V c main_arg3) (V c main_arg4) (V c main_arg5)) := by
  show (cfg0.win 5).cut (grid0.coords t) ((dat0 V c).after 5 t) = _
  rw [after0_5]
  unfold out0_5
  rw [View.canon_unit_zero hz]
  simp only [View.ld_unit_zero (S := S2000x5) hz, View.ld_unit_zero (S := S5x128) hz, View.ld_unit_zero (S := S128) hz1]
  obtain ⟨e00, e01, e10, e11, e20, e21, e30, e40, e41, e50, e51⟩ := idx_facts t
  have ht : t.val < 25 := t.isLt
  funext j
  obtain ⟨p, q, rfl⟩ : ∃ (p : Fin 2000) (q : Fin 128), j = ix2 p q := ⟨j 0, j 1, eq_ix2 j⟩
  have hp : p.val < 2000 := p.isLt
  have hq : q.val < 128 := q.isLt
  refine (pay_apply (iblk0 V c 0 t) (iblk0 V c 1 t) (iblk0 V c 2 t) (iblk0 V c 4 t) (iblk0 V c 3 t) p q).trans ?_
  show _ = Cert.Sage.layer1 (V c main_v24) (V c main_arg0) (V c main_arg3) (V c main_arg4) (V c main_arg5)
      (((cfg0.win 5).blk t).view.emb (ix2 p q))
  have hP : ((cfg0.win 5).blk t).view.emb (ix2 p q) = ix2 (⟨t.val * 2000 + p.val, by omega⟩ : Fin 50000) q := by
    funext a; apply Fin.ext
    match a with
    | ⟨0, _⟩ => show win0_5.index t (0 : Fin 2) * 2000 + 1 * p.val = t.val * 2000 + p.val; omega
    | ⟨1, _⟩ => show win0_5.index t (1 : Fin 2) * 128 + 1 * q.val = q.val; omega
  rw [hP, layer1_apply]
  have a0 : ∀ k : Fin 5, iblk0 V c 0 t (ix2 p k) = V c main_v24 (ix2 (⟨t.val * 2000 + p.val, by omega⟩ : Fin 50000) k) := fun k => by
    show V c main_v24 (((cfg0.win 0).blk t).view.emb (ix2 p k)) = _
    refine congrArg (V c main_v24) ?_
    funext a; apply Fin.ext
    have hk : k.val < 5 := k.isLt
    match a with
    | ⟨0, _⟩ => show win0_0.index t (0 : Fin 2) * 2000 + 1 * p.val = t.val * 2000 + p.val; omega
    | ⟨1, _⟩ => show win0_0.index t (1 : Fin 2) * 5 + 1 * k.val = k.val; omega
  have a1 : ∀ k : Fin 5, iblk0 V c 1 t (ix2 p k) = V c main_arg0 (ix2 (⟨t.val * 2000 + p.val, by omega⟩ : Fin 50000) k) := fun k => by
    show V c main_arg0 (((cfg0.win 1).blk t).view.emb (ix2 p k)) = _
    refine congrArg (V c main_arg0) ?_
    funext a; apply Fin.ext
    have hk : k.val < 5 := k.isLt
    match a with
    | ⟨0, _⟩ => show win0_1.index t (0 : Fin 2) * 2000 + 1 * p.val = t.val * 2000 + p.val; omega
    | ⟨1, _⟩ => show win0_1.index t (1 : Fin 2) * 5 + 1 * k.val = k.val; omega
  have a2 : ∀ k : Fin 5, iblk0 V c 2 t (ix2 k q) = V c main_arg3 (ix2 k q) := fun k => by
    show V c main_arg3 (((cfg0.win 2).blk t).view.emb (ix2 k q)) = _
    refine congrArg (V c main_arg3) ?_
    funext a; apply Fin.ext
    have hk : k.val < 5 := k.isLt
    match a with
    | ⟨0, _⟩ => show win0_2.index t (0 : Fin 2) * 5 + 1 * k.val = k.val; omega
    | ⟨1, _⟩ => show win0_2.index t (1 : Fin 2) * 128 + 1 * q.val = q.val; omega
  have a4 : ∀ k : Fin 5, iblk0 V c 4 t (ix2 k q) = V c main_arg5 (ix2 k q) := fun k => by
    show V c main_arg5 (((cfg0.win 4).blk t).view.emb (ix2 k q)) = _
    refine congrArg (V c main_arg5) ?_
    funext a; apply Fin.ext
    have hk : k.val < 5 := k.isLt
    match a with
    | ⟨0, _⟩ => show win0_4.index t (0 : Fin 2) * 5 + 1 * k.val = k.val; omega
    | ⟨1, _⟩ => show win0_4.index t (1 : Fin 2) * 128 + 1 * q.val = q.val; omega
  have a3 : iblk0 V c 3 t (ix1 q) = V c main_arg4 (ix1 q) := by
    show V c main_arg4 (((cfg0.win 3).blk t).view.emb (ix1 q)) = _
    refine congrArg (V c main_arg4) ?_
    funext a; apply Fin.ext
    match a with
    | ⟨0, _⟩ => show win0_3.index t (0 : Fin 1) * 128 + 1 * q.val = q.val; omega
  simp only [a0, a1, a2, a4, a3]
  exact congrArg Ideal.tanh (add_right_comm _ _ _)

/-- An index of the result array is in point t's block iff its row is among the block's 2000 rows. -/
theorem mem_blk (t : Fin cfg0.N) (i : S50000x128.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole main_v25).slice (win0_5.rect t)).set ↔ _
  rw [View.set_slice_whole, Rect.mem_set_unit]
  exact Iff.rfl

/-- Every entry of the result array lies in the block of the point its row belongs to. -/
theorem covered (i : S50000x128.Idx) : ∃ t : Fin cfg0.N, (cfg0.win 5).flush t = true ∧ i ∈ ((cfg0.win 5).blk t).view.set := by
  have hi0 : (i 0).val < 50000 := (i 0).isLt
  have hi1 : (i 1).val < 128 := (i 1).isLt
  let t : Fin cfg0.N := ⟨(i 0).val / 2000, by show (i 0).val / 2000 < 25; omega⟩
  obtain ⟨-, -, -, -, -, -, -, -, -, e50, e51⟩ := idx_facts t
  have e50' : win0_5.index t (0 : Fin 2) = (i 0).val / 2000 := e50
  refine ⟨t, flush0_5 t, ?_⟩
  rw [mem_blk]
  intro a
  match a with
  | ⟨0, _⟩ => show win0_5.index t (0 : Fin 2) * 2000 ≤ (i 0).val ∧ (i 0).val < win0_5.index t (0 : Fin 2) * 2000 + 2000; omega
  | ⟨1, _⟩ => show win0_5.index t (1 : Fin 2) * 128 ≤ (i 1).val ∧ (i 1).val < win0_5.index t (1 : Fin 2) * 128 + 128; omega

/-- THE ARRAY REGION 0 LEAVES is the reference's first layer of the arrays the region found. -/
theorem value (c : Dev nD) :
    (dat0 (F := Ideal) V c).arrAt 5 cfg0.N
      = Cert.Sage.layer1 (V c main_v24) (V c main_arg0) (V c main_arg3) (V c main_arg4) (V c main_arg5) :=
  (dat0 (F := Ideal) V c).arrAt_eq_of_cover 5 _ (fun t _ => flushed_eq V c t) covered

end Cert.Sage.Region0

end
-- ==== Proof.Region1.lean ====
/-
  Region 1 computes the second layer. At grid point t its body reads rows 2000·t … 2000·t + 1999 of the aggregated
  features and of the node features, the two 128 × 128 weight matrices and the bias, and writes the same rows of the
  result: at (p, q) it is tanh ((Σ_k agg (p, k) · Wl (k, q) + Σ_k h (p, k) · Wr (k, q)) + bl q), a change of float format
  being the identity on the extended reals. The reference's value is tanh ((Σ_k agg · Wl + bl) + Σ_k h · Wr) at the same
  entry; the two differ by the order of a sum of three terms, and addition of extended reals is commutative and
  associative, so they agree with no finiteness assumption. The 25 blocks tile the 50000 rows, so the whole array the
  region leaves is the reference's value of the arrays the region found.
-/
import proofs.«127485_j53523882443412_1_alg».proof.Proof.Gen.KernelIdeal.Frame
import proofs.«127485_j53523882443412_1_alg».proof.Proof.Spec
import proofs.«127485_j53523882443412_1_alg».proof.Proof.LibPlainDot
import proofs.«127485_j53523882443412_1_alg».proof.Proof.LibHostDot
import proofs.«127485_j53523882443412_1_alg».proof.Proof.LibColumn
import Idealize.ShloMosaic.Lib.Pipeline.Value
import Idealize.ShloMosaic.Lib.ValueIdx
import Idealize.ShloMosaic.Lib.ValueLayout

set_option maxRecDepth 16384

noncomputable section

namespace Cert.Sage.Region1

open Idealize.ShloMosaic Idealize.ShloMosaic.ValueIdx Idealize.ShloMosaic.TcCoe Idealize.SL.Sem
open Cert.KernelIdeal Cert.KernelIdeal.Gen
open scoped BigOperators

/-! ## The body's value at an entry of its block -/

/-- A bias vector laid out as a row and repeated down the rows reads, at (p, q), its entry q. -/
theorem bias_apply (b : Vec Ideal S128 .f32) (p : Fin 2000) (q : Fin 128) :
    broadcastTo S2000x128 (shapeCast S1x128 b shapeCasts_S128_S1x128) broadcasts_S1x128_S2000x128 (ix2 p q) = b (ix1 q) := by
  have hq : q.val < 128 := q.isLt
  refine (broadcastTo_apply _ broadcasts_S1x128_S2000x128 (ix2 p q) (ix2 (0 : Fin 1) q) fun a => ?_).trans ?_
  · match a with
    | ⟨0, _⟩ => rfl
    | ⟨1, _⟩ => rfl
  · refine shapeCast_apply b shapeCasts_S128_S1x128 (ix2 (0 : Fin 1) q) (ix1 q) ?_
    rw [Shape.rowMajor_val_one, Shape.rowMajor_val_two]
    show q.val = 0 * 128 + q.val
    omega

/-- The stored value at (p, q) of the block: tanh of the two products' sum plus the bias. -/
theorem pay_apply (x0 x1 : Vec Ideal S2000x128 .f32) (x2 x4 : Vec Ideal S128x128 .f32) (x3 : Vec Ideal S128 .f32)
    (p : Fin 2000) (q : Fin 128) :
    k1_pay1 (F := Ideal) x0 x1 x2 x4 x3 (ix2 p q)
      = Ideal.tanh (((∑ k : Fin 128, x0 (ix2 p k) * x2 (ix2 k q)) + ∑ k : Fin 128, x1 (ix2 p k) * x4 (ix2 k q)) + x3 (ix1 q)) := by
  unfold k1_pay1
  show Ideal.tanh ((matmul (F := Ideal) (φ₁ := .bf16) (φ₂ := .bf16) dot_S2000x128_S128x128_S2000x128_1_0_0_1_n_n none (shapeCast S2000x128 x0 shapeCasts_S2000x128_S2000x128) x2 (constant (F := Ideal) S2000x128 .f32 0x00000000#32) (ix2 p q)
        + matmul (F := Ideal) (φ₁ := .bf16) (φ₂ := .bf16) dot_S2000x128_S128x128_S2000x128_1_0_0_1_n_n none (shapeCast S2000x128 x1 shapeCasts_S2000x128_S2000x128) x4 (constant (F := Ideal) S2000x128 .f32 0x00000000#32) (ix2 p q))
       + broadcastTo S2000x128 (shapeCast S1x128 x3 shapeCasts_S128_S1x128) broadcasts_S1x128_S2000x128 (ix2 p q)) = _
  rw [shapeCast_self, shapeCast_self, bias_apply]
  have h1 : matmul (F := Ideal) (φ₁ := .bf16) (φ₂ := .bf16) dot_S2000x128_S128x128_S2000x128_1_0_0_1_n_n none x0 x2 (constant (F := Ideal) S2000x128 .f32 0x00000000#32) (ix2 p q)
      = ∑ k : Fin 128, x0 (ix2 p k) * x2 (ix2 k q) :=
    Cert.LibPlainDot.matmul_zero_apply (φ₁ := .bf16) (φ₂ := .bf16) dot_S2000x128_S128x128_S2000x128_1_0_0_1_n_n.wf none x0 x2 p q
  have h2 : matmul (F := Ideal) (φ₁ := .bf16) (φ₂ := .bf16) dot_S2000x128_S128x128_S2000x128_1_0_0_1_n_n none x1 x4 (constant (F := Ideal) S2000x128 .f32 0x00000000#32) (ix2 p q)
      = ∑ k : Fin 128, x1 (ix2 p k) * x4 (ix2 k q) :=
    Cert.LibPlainDot.matmul_zero_apply (φ₁ := .bf16) (φ₂ := .bf16) dot_S2000x128_S128x128_S2000x128_1_0_0_1_n_n.wf none x1 x4 p q
  rw [h1, h2]

/-! ## The reference's combination at an entry -/

/-- The reference's combination at (P, q). -/
theorem spec_apply (a x : Vec Ideal S50000x128 .f32) (Wl : Vec Ideal S128x128 .f32) (bl : Vec Ideal S128 .f32)
    (Wr : Vec Ideal S128x128 .f32) (P : Fin 50000) (q : Fin 128) :
    Cert.Sage.layer2 a x Wl bl Wr (ix2 P q)
      = Ideal.tanh (((∑ k : Fin 128, a (ix2 P k) * Wl (ix2 k q)) + bl (ix1 q)) + ∑ k : Fin 128, x (ix2 P k) * Wr (ix2 k q)) := by
  unfold Cert.Sage.layer2 Cert.Sage.lin128
  show Ideal.tanh ((Host.dotGeneral (F := Ideal) (φ₁ := .f32) (φ₂ := .f32) Cert.ReferenceIdeal.dot_S50000x128_S128x128_S50000x128_1_0_0_1_n_n none a Wl (ix2 P q)
        + broadcastInDim Cert.ReferenceIdeal.S50000x128 ![0, 1] Cert.ReferenceIdeal.Facts₀.bcast_S1x128_S50000x128_0_1
            (broadcastInDim Cert.ReferenceIdeal.S1x128 ![1] Cert.ReferenceIdeal.Facts₀.bcast_S128_S1x128_1 bl) (ix2 P q))
       + Host.dotGeneral (F := Ideal) (φ₁ := .f32) (φ₂ := .f32) Cert.ReferenceIdeal.dot_S50000x128_S128x128_S50000x128_1_0_0_1_n_n none x Wr (ix2 P q)) = _
  have h1 : Host.dotGeneral (F := Ideal) (φ₁ := .f32) (φ₂ := .f32) Cert.ReferenceIdeal.dot_S50000x128_S128x128_S50000x128_1_0_0_1_n_n none a Wl (ix2 P q)
      = ∑ k : Fin 128, a (ix2 P k) * Wl (ix2 k q) :=
    Cert.LibHostDot.hostDot_apply (φ₁ := .f32) (φ₂ := .f32) Cert.ReferenceIdeal.dot_S50000x128_S128x128_S50000x128_1_0_0_1_n_n.wf none a Wl P q
  have h2 : Host.dotGeneral (F := Ideal) (φ₁ := .f32) (φ₂ := .f32) Cert.ReferenceIdeal.dot_S50000x128_S128x128_S50000x128_1_0_0_1_n_n none x Wr (ix2 P q)
      = ∑ k : Fin 128, x (ix2 P k) * Wr (ix2 k q) :=
    Cert.LibHostDot.hostDot_apply (φ₁ := .f32) (φ₂ := .f32) Cert.ReferenceIdeal.dot_S50000x128_S128x128_S50000x128_1_0_0_1_n_n.wf none x Wr P q
  have h3 : broadcastInDim Cert.ReferenceIdeal.S50000x128 ![0, 1] Cert.ReferenceIdeal.Facts₀.bcast_S1x128_S50000x128_0_1
            (broadcastInDim Cert.ReferenceIdeal.S1x128 ![1] Cert.ReferenceIdeal.Facts₀.bcast_S128_S1x128_1 bl) (ix2 P q) = bl (ix1 q) :=
    (Cert.LibColumn.bcastInDim_1b_ab_apply _ Cert.ReferenceIdeal.Facts₀.bcast_S1x128_S50000x128_0_1 P q).trans
      (Cert.LibColumn.bcastInDim_b_1b_apply bl Cert.ReferenceIdeal.Facts₀.bcast_S128_S1x128_1 (0 : Fin 1) q)
  rw [h1, h2, h3]

/-! ## From blocks to the array -/

variable (V : (c : Dev nD) → (b : Ref sig .tc) → Buf (Elt Ideal) ((c : Thread nD τ).loc b))

theorem hz : (![0, 0] : Fin 2 → Nat) = fun _ => 0 := funext fun a => by fin_cases a <;> rfl
theorem hz1 : (![0] : Fin 1 → Nat) = fun _ => 0 := funext fun a => by fin_cases a; rfl

/-- The block index maps over the grid: the row-blocked windows sit at block (t, 0), the weights and the bias at 0. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- What point t writes back is block t of the reference's combination of the arrays the region found. -/
theorem flushed_eq (c : Dev nD) (t : Fin cfg1.N) :
    (dat1 (F := Ideal) V c).flushed 5 t
      = ((cfg1.win 5).blk t).view.read (Elt Ideal)
          (Cert.Sage.layer2 (V c main_v37) (V c main_v25) (V c main_arg6) (V c main_arg7) (V c main_arg8)) := by
  show (cfg1.win 5).cut (grid1.coords t) ((dat1 V c).after 5 t) = _
  rw [after1_5]
  unfold out1_5
  rw [View.canon_unit_zero hz]
  simp only [View.ld_unit_zero (S := S2000x128) hz, View.ld_unit_zero (S := S128x128) hz, View.ld_unit_zero (S := S128) hz1]
  obtain ⟨e00, e01, e10, e11, e20, e21, e30, e40, e41, e50, e51⟩ := idx_facts t
  have ht : t.val < 25 := t.isLt
  funext j
  obtain ⟨p, q, rfl⟩ : ∃ (p : Fin 2000) (q : Fin 128), j = ix2 p q := ⟨j 0, j 1, eq_ix2 j⟩
  have hp : p.val < 2000 := p.isLt
  have hq : q.val < 128 := q.isLt
  refine (pay_apply (iblk1 V c 0 t) (iblk1 V c 1 t) (iblk1 V c 2 t) (iblk1 V c 4 t) (iblk1 V c 3 t) p q).trans ?_
  show _ = Cert.Sage.layer2 (V c main_v37) (V c main_v25) (V c main_arg6) (V c main_arg7) (V c main_arg8)
      (((cfg1.win 5).blk t).view.emb (ix2 p q))
  have hP : ((cfg1.win 5).blk t).view.emb (ix2 p q) = ix2 (⟨t.val * 2000 + p.val, by omega⟩ : Fin 50000) q := by
    funext a; apply Fin.ext
    match a with
    | ⟨0, _⟩ => show win1_5.index t (0 : Fin 2) * 2000 + 1 * p.val = t.val * 2000 + p.val; omega
    | ⟨1, _⟩ => show win1_5.index t (1 : Fin 2) * 128 + 1 * q.val = q.val; omega
  rw [hP, spec_apply]
  have a0 : ∀ k : Fin 128, iblk1 V c 0 t (ix2 p k) = V c main_v37 (ix2 (⟨t.val * 2000 + p.val, by omega⟩ : Fin 50000) k) := fun k => by
    show V c main_v37 (((cfg1.win 0).blk t).view.emb (ix2 p k)) = _
    refine congrArg (V c main_v37) ?_
    funext a; apply Fin.ext
    have hk : k.val < 128 := k.isLt
    match a with
    | ⟨0, _⟩ => show win1_0.index t (0 : Fin 2) * 2000 + 1 * p.val = t.val * 2000 + p.val; omega
    | ⟨1, _⟩ => show win1_0.index t (1 : Fin 2) * 128 + 1 * k.val = k.val; omega
  have a1 : ∀ k : Fin 128, iblk1 V c 1 t (ix2 p k) = V c main_v25 (ix2 (⟨t.val * 2000 + p.val, by omega⟩ : Fin 50000) k) := fun k => by
    show V c main_v25 (((cfg1.win 1).blk t).view.emb (ix2 p k)) = _
    refine congrArg (V c main_v25) ?_
    funext a; apply Fin.ext
    have hk : k.val < 128 := k.isLt
    match a with
    | ⟨0, _⟩ => show win1_1.index t (0 : Fin 2) * 2000 + 1 * p.val = t.val * 2000 + p.val; omega
    | ⟨1, _⟩ => show win1_1.index t (1 : Fin 2) * 128 + 1 * k.val = k.val; omega
  have a2 : ∀ k : Fin 128, iblk1 V c 2 t (ix2 k q) = V c main_arg6 (ix2 k q) := fun k => by
    show V c main_arg6 (((cfg1.win 2).blk t).view.emb (ix2 k q)) = _
    refine congrArg (V c main_arg6) ?_
    funext a; apply Fin.ext
    have hk : k.val < 128 := k.isLt
    match a with
    | ⟨0, _⟩ => show win1_2.index t (0 : Fin 2) * 128 + 1 * k.val = k.val; omega
    | ⟨1, _⟩ => show win1_2.index t (1 : Fin 2) * 128 + 1 * q.val = q.val; omega
  have a4 : ∀ k : Fin 128, iblk1 V c 4 t (ix2 k q) = V c main_arg8 (ix2 k q) := fun k => by
    show V c main_arg8 (((cfg1.win 4).blk t).view.emb (ix2 k q)) = _
    refine congrArg (V c main_arg8) ?_
    funext a; apply Fin.ext
    have hk : k.val < 128 := k.isLt
    match a with
    | ⟨0, _⟩ => show win1_4.index t (0 : Fin 2) * 128 + 1 * k.val = k.val; omega
    | ⟨1, _⟩ => show win1_4.index t (1 : Fin 2) * 128 + 1 * q.val = q.val; omega
  have a3 : iblk1 V c 3 t (ix1 q) = V c main_arg7 (ix1 q) := by
    show V c main_arg7 (((cfg1.win 3).blk t).view.emb (ix1 q)) = _
    refine congrArg (V c main_arg7) ?_
    funext a; apply Fin.ext
    match a with
    | ⟨0, _⟩ => show win1_3.index t (0 : Fin 1) * 128 + 1 * q.val = q.val; omega
  simp only [a0, a1, a2, a4, a3]
  exact congrArg Ideal.tanh (add_right_comm _ _ _)

/-- An index of the result array is in point t's block iff its row is among the block's 2000 rows. -/
theorem mem_blk (t : Fin cfg1.N) (i : S50000x128.Idx) :
    i ∈ ((cfg1.win 5).blk t).view.set ↔ ∀ a : Fin 2, win1_5.index t a * S2000x128.size a ≤ (i a).val ∧ (i a).val < win1_5.index t a * S2000x128.size a + S2000x128.size a := by
  show i ∈ ((View.whole main_v38).slice (win1_5.rect t)).set ↔ _
  rw [View.set_slice_whole, Rect.mem_set_unit]
  exact Iff.rfl

/-- Every entry of the result array lies in the block of the point its row belongs to. -/
theorem covered (i : S50000x128.Idx) : ∃ t : Fin cfg1.N, (cfg1.win 5).flush t = true ∧ i ∈ ((cfg1.win 5).blk t).view.set := by
  have hi0 : (i 0).val < 50000 := (i 0).isLt
  have hi1 : (i 1).val < 128 := (i 1).isLt
  let t : Fin cfg1.N := ⟨(i 0).val / 2000, by show (i 0).val / 2000 < 25; omega⟩
  obtain ⟨-, -, -, -, -, -, -, -, -, e50, e51⟩ := idx_facts t
  have e50' : win1_5.index t (0 : Fin 2) = (i 0).val / 2000 := e50
  refine ⟨t, flush1_5 t, ?_⟩
  rw [mem_blk]
  intro a
  match a with
  | ⟨0, _⟩ => show win1_5.index t (0 : Fin 2) * 2000 ≤ (i 0).val ∧ (i 0).val < win1_5.index t (0 : Fin 2) * 2000 + 2000; omega
  | ⟨1, _⟩ => show win1_5.index t (1 : Fin 2) * 128 ≤ (i 1).val ∧ (i 1).val < win1_5.index t (1 : Fin 2) * 128 + 128; omega

/-- THE ARRAY THE REGION LEAVES is the reference's combination of the arrays the region found. -/
theorem value (c : Dev nD) :
    (dat1 (F := Ideal) V c).arrAt 5 cfg1.N
      = Cert.Sage.layer2 (V c main_v37) (V c main_v25) (V c main_arg6) (V c main_arg7) (V c main_arg8) :=
  (dat1 (F := Ideal) V c).arrAt_eq_of_cover 5 _ (fun t _ => flushed_eq V c t) covered

end Cert.Sage.Region1

end
-- ==== Proof.Region2.lean ====
/-
  Region 2 computes the actor's scores before masking. At grid point t its body reads rows 2000·t … 2000·t + 1999 of the aggregated
  features and of the node features, the two 128 × 1 weight matrices and the bias, and writes the same rows of the
  result: at (p, q) it is ((Σ_k agg (p, k) · Wl (k, q) + Σ_k h (p, k) · Wr (k, q)) + bl q), a change of float format
  being the identity on the extended reals. The reference's value is ((Σ_k agg · Wl + bl) + Σ_k h · Wr) at the same
  entry; the two differ by the order of a sum of three terms, and addition of extended reals is commutative and
  associative, so they agree with no finiteness assumption. The 25 blocks tile the 50000 rows, so the whole array the
  region leaves is the reference's value of the arrays the region found.
-/
import proofs.«127485_j53523882443412_1_alg».proof.Proof.Gen.KernelIdeal.Frame
import proofs.«127485_j53523882443412_1_alg».proof.Proof.Spec
import proofs.«127485_j53523882443412_1_alg».proof.Proof.LibPlainDot
import proofs.«127485_j53523882443412_1_alg».proof.Proof.LibHostDot
import proofs.«127485_j53523882443412_1_alg».proof.Proof.LibColumn
import Idealize.ShloMosaic.Lib.Pipeline.Value
import Idealize.ShloMosaic.Lib.ValueIdx
import Idealize.ShloMosaic.Lib.ValueLayout

set_option maxRecDepth 16384

noncomputable section

namespace Cert.Sage.Region2

open Idealize.ShloMosaic Idealize.ShloMosaic.ValueIdx Idealize.ShloMosaic.TcCoe Idealize.SL.Sem
open Cert.KernelIdeal Cert.KernelIdeal.Gen
open scoped BigOperators

/-! ## The body's value at an entry of its block -/

/-- A bias vector laid out as a row and repeated down the rows reads, at (p, q), its entry q. -/
theorem bias_apply (b : Vec Ideal S1 .f32) (p : Fin 2000) (q : Fin 1) :
    broadcastTo S2000x1 (shapeCast S1x1 b shapeCasts_S1_S1x1) broadcasts_S1x1_S2000x1 (ix2 p q) = b (ix1 q) := by
  have hq : q.val < 1 := q.isLt
  refine (broadcastTo_apply _ broadcasts_S1x1_S2000x1 (ix2 p q) (ix2 (0 : Fin 1) q) fun a => ?_).trans ?_
  · match a with
    | ⟨0, _⟩ => rfl
    | ⟨1, _⟩ => show q.val = 0; omega
  · refine shapeCast_apply b shapeCasts_S1_S1x1 (ix2 (0 : Fin 1) q) (ix1 q) ?_
    rw [Shape.rowMajor_val_one, Shape.rowMajor_val_two]
    show q.val = 0 * 1 + q.val
    omega

/-- The stored value at (p, q) of the block: the two products' sum plus the bias. -/
theorem pay_apply (x0 x1 : Vec Ideal S2000x128 .f32) (x2 x4 : Vec Ideal S128x1 .f32) (x3 : Vec Ideal S1 .f32)
    (p : Fin 2000) (q : Fin 1) :
    k2_pay1 (F := Ideal) x0 x1 x2 x4 x3 (ix2 p q)
      = (((∑ k : Fin 128, x0 (ix2 p k) * x2 (ix2 k q)) + ∑ k : Fin 128, x1 (ix2 p k) * x4 (ix2 k q)) + x3 (ix1 q)) := by
  unfold k2_pay1
  show ((matmul (F := Ideal) (φ₁ := .bf16) (φ₂ := .bf16) dot_S2000x128_S128x1_S2000x1_1_0_0_1_n_n none (shapeCast S2000x128 x0 shapeCasts_S2000x128_S2000x128) x2 (constant (F := Ideal) S2000x1 .f32 0x00000000#32) (ix2 p q)
        + matmul (F := Ideal) (φ₁ := .bf16) (φ₂ := .bf16) dot_S2000x128_S128x1_S2000x1_1_0_0_1_n_n none (shapeCast S2000x128 x1 shapeCasts_S2000x128_S2000x128) x4 (constant (F := Ideal) S2000x1 .f32 0x00000000#32) (ix2 p q))
       + broadcastTo S2000x1 (shapeCast S1x1 x3 shapeCasts_S1_S1x1) broadcasts_S1x1_S2000x1 (ix2 p q)) = _
  rw [shapeCast_self, shapeCast_self, bias_apply]
  have h1 : matmul (F := Ideal) (φ₁ := .bf16) (φ₂ := .bf16) dot_S2000x128_S128x1_S2000x1_1_0_0_1_n_n none x0 x2 (constant (F := Ideal) S2000x1 .f32 0x00000000#32) (ix2 p q)
      = ∑ k : Fin 128, x0 (ix2 p k) * x2 (ix2 k q) :=
    Cert.LibPlainDot.matmul_zero_apply (φ₁ := .bf16) (φ₂ := .bf16) dot_S2000x128_S128x1_S2000x1_1_0_0_1_n_n.wf none x0 x2 p q
  have h2 : matmul (F := Ideal) (φ₁ := .bf16) (φ₂ := .bf16) dot_S2000x128_S128x1_S2000x1_1_0_0_1_n_n none x1 x4 (constant (F := Ideal) S2000x1 .f32 0x00000000#32) (ix2 p q)
      = ∑ k : Fin 128, x1 (ix2 p k) * x4 (ix2 k q) :=
    Cert.LibPlainDot.matmul_zero_apply (φ₁ := .bf16) (φ₂ := .bf16) dot_S2000x128_S128x1_S2000x1_1_0_0_1_n_n.wf none x1 x4 p q
  rw [h1, h2]

/-! ## The reference's combination at an entry -/

/-- The reference's combination at (P, q). -/
theorem spec_apply (a x : Vec Ideal S50000x128 .f32) (Wl : Vec Ideal S128x1 .f32) (bl : Vec Ideal S1 .f32)
    (Wr : Vec Ideal S128x1 .f32) (P : Fin 50000) (q : Fin 1) :
    Cert.Sage.lin1 a x Wl bl Wr (ix2 P q)
      = (((∑ k : Fin 128, a (ix2 P k) * Wl (ix2 k q)) + bl (ix1 q)) + ∑ k : Fin 128, x (ix2 P k) * Wr (ix2 k q)) := by
  unfold Cert.Sage.lin1
  show ((Host.dotGeneral (F := Ideal) (φ₁ := .f32) (φ₂ := .f32) Cert.ReferenceIdeal.dot_S50000x128_S128x1_S50000x1_1_0_0_1_n_n none a Wl (ix2 P q)
        + broadcastInDim Cert.ReferenceIdeal.S50000x1 ![0, 1] Cert.ReferenceIdeal.Facts₀.bcast_S1x1_S50000x1_0_1
            (broadcastInDim Cert.ReferenceIdeal.S1x1 ![1] Cert.ReferenceIdeal.Facts₀.bcast_S1_S1x1_1 bl) (ix2 P q))
       + Host.dotGeneral (F := Ideal) (φ₁ := .f32) (φ₂ := .f32) Cert.ReferenceIdeal.dot_S50000x128_S128x1_S50000x1_1_0_0_1_n_n none x Wr (ix2 P q)) = _
  have h1 : Host.dotGeneral (F := Ideal) (φ₁ := .f32) (φ₂ := .f32) Cert.ReferenceIdeal.dot_S50000x128_S128x1_S50000x1_1_0_0_1_n_n none a Wl (ix2 P q)
      = ∑ k : Fin 128, a (ix2 P k) * Wl (ix2 k q) :=
    Cert.LibHostDot.hostDot_apply (φ₁ := .f32) (φ₂ := .f32) Cert.ReferenceIdeal.dot_S50000x128_S128x1_S50000x1_1_0_0_1_n_n.wf none a Wl P q
  have h2 : Host.dotGeneral (F := Ideal) (φ₁ := .f32) (φ₂ := .f32) Cert.ReferenceIdeal.dot_S50000x128_S128x1_S50000x1_1_0_0_1_n_n none x Wr (ix2 P q)
      = ∑ k : Fin 128, x (ix2 P k) * Wr (ix2 k q) :=
    Cert.LibHostDot.hostDot_apply (φ₁ := .f32) (φ₂ := .f32) Cert.ReferenceIdeal.dot_S50000x128_S128x1_S50000x1_1_0_0_1_n_n.wf none x Wr P q
  have h3 : broadcastInDim Cert.ReferenceIdeal.S50000x1 ![0, 1] Cert.ReferenceIdeal.Facts₀.bcast_S1x1_S50000x1_0_1
            (broadcastInDim Cert.ReferenceIdeal.S1x1 ![1] Cert.ReferenceIdeal.Facts₀.bcast_S1_S1x1_1 bl) (ix2 P q) = bl (ix1 q) :=
    (Cert.LibColumn.bcastInDim_1b_ab_apply _ Cert.ReferenceIdeal.Facts₀.bcast_S1x1_S50000x1_0_1 P q).trans
      (Cert.LibColumn.bcastInDim_b_1b_apply bl Cert.ReferenceIdeal.Facts₀.bcast_S1_S1x1_1 (0 : Fin 1) q)
  rw [h1, h2, h3]

/-! ## From blocks to the array -/

variable (V : (c : Dev nD) → (b : Ref sig .tc) → Buf (Elt Ideal) ((c : Thread nD τ).loc b))

theorem hz : (![0, 0] : Fin 2 → Nat) = fun _ => 0 := funext fun a => by fin_cases a <;> rfl
theorem hz1 : (![0] : Fin 1 → Nat) = fun _ => 0 := funext fun a => by fin_cases a; rfl

/-- The block index maps over the grid: the row-blocked windows sit at block (t, 0), the weights and the bias at 0. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 1) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- What point t writes back is block t of the reference's combination of the arrays the region found. -/
theorem flushed_eq (c : Dev nD) (t : Fin cfg2.N) :
    (dat2 (F := Ideal) V c).flushed 5 t
      = ((cfg2.win 5).blk t).view.read (Elt Ideal)
          (Cert.Sage.lin1 (V c main_v50) (V c main_v38) (V c main_arg9) (V c main_arg10) (V c main_arg11)) := by
  show (cfg2.win 5).cut (grid2.coords t) ((dat2 V c).after 5 t) = _
  rw [after2_5]
  unfold out2_5
  rw [View.canon_unit_zero hz]
  simp only [View.ld_unit_zero (S := S2000x128) hz, View.ld_unit_zero (S := S128x1) hz, View.ld_unit_zero (S := S1) hz1]
  obtain ⟨e00, e01, e10, e11, e20, e21, e30, e40, e41, e50, e51⟩ := idx_facts t
  have ht : t.val < 25 := t.isLt
  funext j
  obtain ⟨p, q, rfl⟩ : ∃ (p : Fin 2000) (q : Fin 1), j = ix2 p q := ⟨j 0, j 1, eq_ix2 j⟩
  have hp : p.val < 2000 := p.isLt
  have hq : q.val < 1 := q.isLt
  refine (pay_apply (iblk2 V c 0 t) (iblk2 V c 1 t) (iblk2 V c 2 t) (iblk2 V c 4 t) (iblk2 V c 3 t) p q).trans ?_
  show _ = Cert.Sage.lin1 (V c main_v50) (V c main_v38) (V c main_arg9) (V c main_arg10) (V c main_arg11)
      (((cfg2.win 5).blk t).view.emb (ix2 p q))
  have hP : ((cfg2.win 5).blk t).view.emb (ix2 p q) = ix2 (⟨t.val * 2000 + p.val, by omega⟩ : Fin 50000) q := by
    funext a; apply Fin.ext
    match a with
    | ⟨0, _⟩ => show win2_5.index t (0 : Fin 2) * 2000 + 1 * p.val = t.val * 2000 + p.val; omega
    | ⟨1, _⟩ => show win2_5.index t (1 : Fin 2) * 1 + 1 * q.val = q.val; omega
  rw [hP, spec_apply]
  have a0 : ∀ k : Fin 128, iblk2 V c 0 t (ix2 p k) = V c main_v50 (ix2 (⟨t.val * 2000 + p.val, by omega⟩ : Fin 50000) k) := fun k => by
    show V c main_v50 (((cfg2.win 0).blk t).view.emb (ix2 p k)) = _
    refine congrArg (V c main_v50) ?_
    funext a; apply Fin.ext
    have hk : k.val < 128 := k.isLt
    match a with
    | ⟨0, _⟩ => show win2_0.index t (0 : Fin 2) * 2000 + 1 * p.val = t.val * 2000 + p.val; omega
    | ⟨1, _⟩ => show win2_0.index t (1 : Fin 2) * 128 + 1 * k.val = k.val; omega
  have a1 : ∀ k : Fin 128, iblk2 V c 1 t (ix2 p k) = V c main_v38 (ix2 (⟨t.val * 2000 + p.val, by omega⟩ : Fin 50000) k) := fun k => by
    show V c main_v38 (((cfg2.win 1).blk t).view.emb (ix2 p k)) = _
    refine congrArg (V c main_v38) ?_
    funext a; apply Fin.ext
    have hk : k.val < 128 := k.isLt
    match a with
    | ⟨0, _⟩ => show win2_1.index t (0 : Fin 2) * 2000 + 1 * p.val = t.val * 2000 + p.val; omega
    | ⟨1, _⟩ => show win2_1.index t (1 : Fin 2) * 128 + 1 * k.val = k.val; omega
  have a2 : ∀ k : Fin 128, iblk2 V c 2 t (ix2 k q) = V c main_arg9 (ix2 k q) := fun k => by
    show V c main_arg9 (((cfg2.win 2).blk t).view.emb (ix2 k q)) = _
    refine congrArg (V c main_arg9) ?_
    funext a; apply Fin.ext
    have hk : k.val < 128 := k.isLt
    match a with
    | ⟨0, _⟩ => show win2_2.index t (0 : Fin 2) * 128 + 1 * k.val = k.val; omega
    | ⟨1, _⟩ => show win2_2.index t (1 : Fin 2) * 1 + 1 * q.val = q.val; omega
  have a4 : ∀ k : Fin 128, iblk2 V c 4 t (ix2 k q) = V c main_arg11 (ix2 k q) := fun k => by
    show V c main_arg11 (((cfg2.win 4).blk t).view.emb (ix2 k q)) = _
    refine congrArg (V c main_arg11) ?_
    funext a; apply Fin.ext
    have hk : k.val < 128 := k.isLt
    match a with
    | ⟨0, _⟩ => show win2_4.index t (0 : Fin 2) * 128 + 1 * k.val = k.val; omega
    | ⟨1, _⟩ => show win2_4.index t (1 : Fin 2) * 1 + 1 * q.val = q.val; omega
  have a3 : iblk2 V c 3 t (ix1 q) = V c main_arg10 (ix1 q) := by
    show V c main_arg10 (((cfg2.win 3).blk t).view.emb (ix1 q)) = _
    refine congrArg (V c main_arg10) ?_
    funext a; apply Fin.ext
    match a with
    | ⟨0, _⟩ => show win2_3.index t (0 : Fin 1) * 1 + 1 * q.val = q.val; omega
  simp only [a0, a1, a2, a4, a3]
  exact add_right_comm _ _ _

/-- An index of the result array is in point t's block iff its row is among the block's 2000 rows. -/
theorem mem_blk (t : Fin cfg2.N) (i : S50000x1.Idx) :
    i ∈ ((cfg2.win 5).blk t).view.set ↔ ∀ a : Fin 2, win2_5.index t a * S2000x1.size a ≤ (i a).val ∧ (i a).val < win2_5.index t a * S2000x1.size a + S2000x1.size a := by
  show i ∈ ((View.whole main_v51).slice (win2_5.rect t)).set ↔ _
  rw [View.set_slice_whole, Rect.mem_set_unit]
  exact Iff.rfl

/-- Every entry of the result array lies in the block of the point its row belongs to. -/
theorem covered (i : S50000x1.Idx) : ∃ t : Fin cfg2.N, (cfg2.win 5).flush t = true ∧ i ∈ ((cfg2.win 5).blk t).view.set := by
  have hi0 : (i 0).val < 50000 := (i 0).isLt
  have hi1 : (i 1).val < 1 := (i 1).isLt
  let t : Fin cfg2.N := ⟨(i 0).val / 2000, by show (i 0).val / 2000 < 25; omega⟩
  obtain ⟨-, -, -, -, -, -, -, -, -, e50, e51⟩ := idx_facts t
  have e50' : win2_5.index t (0 : Fin 2) = (i 0).val / 2000 := e50
  refine ⟨t, flush2_5 t, ?_⟩
  rw [mem_blk]
  intro a
  match a with
  | ⟨0, _⟩ => show win2_5.index t (0 : Fin 2) * 2000 ≤ (i 0).val ∧ (i 0).val < win2_5.index t (0 : Fin 2) * 2000 + 2000; omega
  | ⟨1, _⟩ => show win2_5.index t (1 : Fin 2) * 1 ≤ (i 1).val ∧ (i 1).val < win2_5.index t (1 : Fin 2) * 1 + 1; omega

/-- THE ARRAY THE REGION LEAVES is the reference's combination of the arrays the region found. -/
theorem value (c : Dev nD) :
    (dat2 (F := Ideal) V c).arrAt 5 cfg2.N
      = Cert.Sage.lin1 (V c main_v50) (V c main_v38) (V c main_arg9) (V c main_arg10) (V c main_arg11) :=
  (dat2 (F := Ideal) V c).arrAt_eq_of_cover 5 _ (fun t _ => flushed_eq V c t) covered

end Cert.Sage.Region2

end
-- ==== Proof.Region3.lean ====
/-
  Region 3 computes the critic's per-node score. At grid point t its body reads rows 2000·t … 2000·t + 1999 of the
  aggregated features and of the second hidden layer, the two 128 × 128 weight matrices, the bias, the 128 × 1 matrix Wf
  and the scalar bf, and writes the same rows of the result: with c (p, j) = (Σ_k agg (p, k) · Wlc (k, j) + Σ_k h (p, k) ·
  Wrc (k, j)) + blc j, the value at (p, q) is Σ_j c (p, j) · Wf (j, q) + bf q, a change of float format being the identity
  on the extended reals. The reference has c (p, j) = (Σ_k agg · Wlc + blc j) + Σ_k h · Wrc, the same three terms in
  another order; addition of extended reals is commutative and associative, so the two agree term by term with no
  finiteness assumption. The 25 blocks tile the 50000 rows, so the whole array the region leaves is the reference's
  score of the arrays the region found.
-/
import proofs.«127485_j53523882443412_1_alg».proof.Proof.Gen.KernelIdeal.Frame
import proofs.«127485_j53523882443412_1_alg».proof.Proof.Spec
import proofs.«127485_j53523882443412_1_alg».proof.Proof.LibPlainDot
import proofs.«127485_j53523882443412_1_alg».proof.Proof.LibHostDot
import proofs.«127485_j53523882443412_1_alg».proof.Proof.LibColumn
import Idealize.ShloMosaic.Lib.Pipeline.Value
import Idealize.ShloMosaic.Lib.ValueIdx
import Idealize.ShloMosaic.Lib.ValueLayout

set_option maxRecDepth 16384

noncomputable section

namespace Cert.Sage.Region3

open Idealize.ShloMosaic Idealize.ShloMosaic.ValueIdx Idealize.ShloMosaic.TcCoe Idealize.SL.Sem
open Cert.KernelIdeal Cert.KernelIdeal.Gen
open scoped BigOperators

/-! ## The body's value at an entry of its block -/

/-- A 128-entry bias laid out as a row and repeated down the rows reads, at (p, j), its entry j. -/
theorem bias_apply (b : Vec Ideal S128 .f32) (p : Fin 2000) (q : Fin 128) :
    broadcastTo S2000x128 (shapeCast S1x128 b shapeCasts_S128_S1x128) broadcasts_S1x128_S2000x128 (ix2 p q) = b (ix1 q) := by
  refine (broadcastTo_apply _ broadcasts_S1x128_S2000x128 (ix2 p q) (ix2 (0 : Fin 1) q) fun a => ?_).trans ?_
  · match a with
    | ⟨0, _⟩ => rfl
    | ⟨1, _⟩ => rfl
  · refine shapeCast_apply b shapeCasts_S128_S1x128 (ix2 (0 : Fin 1) q) (ix1 q) ?_
    rw [Shape.rowMajor_val_one, Shape.rowMajor_val_two]
    show q.val = 0 * 128 + q.val
    omega

/-- A one-entry bias laid out as a 1 × 1 array and repeated down the rows reads, at (p, q), its entry. -/
theorem bias1_apply (b : Vec Ideal S1 .f32) (p : Fin 2000) (q : Fin 1) :
    broadcastTo S2000x1 (shapeCast S1x1 b shapeCasts_S1_S1x1) broadcasts_S1x1_S2000x1 (ix2 p q) = b (ix1 q) := by
  have hq : q.val < 1 := q.isLt
  refine (broadcastTo_apply _ broadcasts_S1x1_S2000x1 (ix2 p q) (ix2 (0 : Fin 1) q) fun a => ?_).trans ?_
  · match a with
    | ⟨0, _⟩ => rfl
    | ⟨1, _⟩ => show q.val = 0; omega
  · refine shapeCast_apply b shapeCasts_S1_S1x1 (ix2 (0 : Fin 1) q) (ix1 q) ?_
    rw [Shape.rowMajor_val_one, Shape.rowMajor_val_two]
    show q.val = 0 * 1 + q.val
    omega

/-- The width-128 combination the body forms before the last product, as a block. -/
def inner (x0 x1 : Vec Ideal S2000x128 .f32) (x2 x4 : Vec Ideal S128x128 .f32) (x3 : Vec Ideal S128 .f32) :
    FVec Ideal S2000x128 .f32 :=
  addf
    (addf (matmul (F := Ideal) (φ₁ := .bf16) (φ₂ := .bf16) dot_S2000x128_S128x128_S2000x128_1_0_0_1_n_n none x0 x2 (constant (F := Ideal) S2000x128 .f32 0x00000000#32))
      (matmul (F := Ideal) (φ₁ := .bf16) (φ₂ := .bf16) dot_S2000x128_S128x128_S2000x128_1_0_0_1_n_n none x1 x4 (constant (F := Ideal) S2000x128 .f32 0x00000000#32)))
    (broadcastTo S2000x128 (shapeCast S1x128 x3 shapeCasts_S128_S1x128) broadcasts_S1x128_S2000x128)

/-- That combination at (p, j). -/
theorem inner_apply (x0 x1 : Vec Ideal S2000x128 .f32) (x2 x4 : Vec Ideal S128x128 .f32) (x3 : Vec Ideal S128 .f32)
    (p : Fin 2000) (j : Fin 128) :
    inner x0 x1 x2 x4 x3 (ix2 p j)
      = ((∑ k : Fin 128, x0 (ix2 p k) * x2 (ix2 k j)) + ∑ k : Fin 128, x1 (ix2 p k) * x4 (ix2 k j)) + x3 (ix1 j) := by
  unfold inner
  show (matmul (F := Ideal) (φ₁ := .bf16) (φ₂ := .bf16) dot_S2000x128_S128x128_S2000x128_1_0_0_1_n_n none x0 x2 (constant (F := Ideal) S2000x128 .f32 0x00000000#32) (ix2 p j)
        + matmul (F := Ideal) (φ₁ := .bf16) (φ₂ := .bf16) dot_S2000x128_S128x128_S2000x128_1_0_0_1_n_n none x1 x4 (constant (F := Ideal) S2000x128 .f32 0x00000000#32) (ix2 p j))
       + broadcastTo S2000x128 (shapeCast S1x128 x3 shapeCasts_S128_S1x128) broadcasts_S1x128_S2000x128 (ix2 p j) = _
  rw [bias_apply]
  have h1 : matmul (F := Ideal) (φ₁ := .bf16) (φ₂ := .bf16) dot_S2000x128_S128x128_S2000x128_1_0_0_1_n_n none x0 x2 (constant (F := Ideal) S2000x128 .f32 0x00000000#32) (ix2 p j)
      = ∑ k : Fin 128, x0 (ix2 p k) * x2 (ix2 k j) :=
    Cert.LibPlainDot.matmul_zero_apply (φ₁ := .bf16) (φ₂ := .bf16) dot_S2000x128_S128x128_S2000x128_1_0_0_1_n_n.wf none x0 x2 p j
  have h2 : matmul (F := Ideal) (φ₁ := .bf16) (φ₂ := .bf16) dot_S2000x128_S128x128_S2000x128_1_0_0_1_n_n none x1 x4 (constant (F := Ideal) S2000x128 .f32 0x00000000#32) (ix2 p j)
      = ∑ k : Fin 128, x1 (ix2 p k) * x4 (ix2 k j) :=
    Cert.LibPlainDot.matmul_zero_apply (φ₁ := .bf16) (φ₂ := .bf16) dot_S2000x128_S128x128_S2000x128_1_0_0_1_n_n.wf none x1 x4 p j
  rw [h1, h2]

/-- The stored value at (p, q) of the block. -/
theorem pay_apply (x0 x1 : Vec Ideal S2000x128 .f32) (x2 x4 : Vec Ideal S128x128 .f32) (x3 : Vec Ideal S128 .f32)
    (x5 : Vec Ideal S128x1 .f32) (x6 : Vec Ideal S1 .f32) (p : Fin 2000) (q : Fin 1) :
    k3_pay1 (F := Ideal) x0 x1 x2 x4 x3 x5 x6 (ix2 p q)
      = (∑ j : Fin 128, (((∑ k : Fin 128, x0 (ix2 p k) * x2 (ix2 k j)) + ∑ k : Fin 128, x1 (ix2 p k) * x4 (ix2 k j)) + x3 (ix1 j))
            * x5 (ix2 j q)) + x6 (ix1 q) := by
  unfold k3_pay1
  show matmul (F := Ideal) (φ₁ := .bf16) (φ₂ := .bf16) dot_S2000x128_S128x1_S2000x1_1_0_0_1_n_n none
        (inner (shapeCast S2000x128 x0 shapeCasts_S2000x128_S2000x128) (shapeCast S2000x128 x1 shapeCasts_S2000x128_S2000x128) x2 x4 x3)
        x5 (constant (F := Ideal) S2000x1 .f32 0x00000000#32) (ix2 p q)
      + broadcastTo S2000x1 (shapeCast S1x1 x6 shapeCasts_S1_S1x1) broadcasts_S1x1_S2000x1 (ix2 p q) = _
  rw [shapeCast_self, shapeCast_self, bias1_apply]
  have h : matmul (F := Ideal) (φ₁ := .bf16) (φ₂ := .bf16) dot_S2000x128_S128x1_S2000x1_1_0_0_1_n_n none (inner x0 x1 x2 x4 x3) x5 (constant (F := Ideal) S2000x1 .f32 0x00000000#32) (ix2 p q)
      = ∑ j : Fin 128, inner x0 x1 x2 x4 x3 (ix2 p j) * x5 (ix2 j q) :=
    Cert.LibPlainDot.matmul_zero_apply (φ₁ := .bf16) (φ₂ := .bf16) dot_S2000x128_S128x1_S2000x1_1_0_0_1_n_n.wf none (inner x0 x1 x2 x4 x3) x5 p q
  rw [h]
  simp only [inner_apply]

/-! ## The reference's score at an entry -/

/-- The reference's width-128 combination at (P, j). -/
theorem lin128_apply (a x : Vec Ideal S50000x128 .f32) (Wl : Vec Ideal S128x128 .f32) (bl : Vec Ideal S128 .f32)
    (Wr : Vec Ideal S128x128 .f32) (P : Fin 50000) (j : Fin 128) :
    Cert.Sage.lin128 a x Wl bl Wr (ix2 P j)
      = ((∑ k : Fin 128, a (ix2 P k) * Wl (ix2 k j)) + bl (ix1 j)) + ∑ k : Fin 128, x (ix2 P k) * Wr (ix2 k j) := by
  unfold Cert.Sage.lin128
  show (Host.dotGeneral (F := Ideal) (φ₁ := .f32) (φ₂ := .f32) Cert.ReferenceIdeal.dot_S50000x128_S128x128_S50000x128_1_0_0_1_n_n none a Wl (ix2 P j)
        + broadcastInDim Cert.ReferenceIdeal.S50000x128 ![0, 1] Cert.ReferenceIdeal.Facts₀.bcast_S1x128_S50000x128_0_1
            (broadcastInDim Cert.ReferenceIdeal.S1x128 ![1] Cert.ReferenceIdeal.Facts₀.bcast_S128_S1x128_1 bl) (ix2 P j))
       + Host.dotGeneral (F := Ideal) (φ₁ := .f32) (φ₂ := .f32) Cert.ReferenceIdeal.dot_S50000x128_S128x128_S50000x128_1_0_0_1_n_n none x Wr (ix2 P j) = _
  have h1 : Host.dotGeneral (F := Ideal) (φ₁ := .f32) (φ₂ := .f32) Cert.ReferenceIdeal.dot_S50000x128_S128x128_S50000x128_1_0_0_1_n_n none a Wl (ix2 P j) = ∑ k : Fin 128, a (ix2 P k) * Wl (ix2 k j) :=
    Cert.LibHostDot.hostDot_apply (φ₁ := .f32) (φ₂ := .f32) Cert.ReferenceIdeal.dot_S50000x128_S128x128_S50000x128_1_0_0_1_n_n.wf none a Wl P j
  have h2 : Host.dotGeneral (F := Ideal) (φ₁ := .f32) (φ₂ := .f32) Cert.ReferenceIdeal.dot_S50000x128_S128x128_S50000x128_1_0_0_1_n_n none x Wr (ix2 P j) = ∑ k : Fin 128, x (ix2 P k) * Wr (ix2 k j) :=
    Cert.LibHostDot.hostDot_apply (φ₁ := .f32) (φ₂ := .f32) Cert.ReferenceIdeal.dot_S50000x128_S128x128_S50000x128_1_0_0_1_n_n.wf none x Wr P j
  have h3 : broadcastInDim Cert.ReferenceIdeal.S50000x128 ![0, 1] Cert.ReferenceIdeal.Facts₀.bcast_S1x128_S50000x128_0_1
            (broadcastInDim Cert.ReferenceIdeal.S1x128 ![1] Cert.ReferenceIdeal.Facts₀.bcast_S128_S1x128_1 bl) (ix2 P j) = bl (ix1 j) :=
    (Cert.LibColumn.bcastInDim_1b_ab_apply _ Cert.ReferenceIdeal.Facts₀.bcast_S1x128_S50000x128_0_1 P j).trans
      (Cert.LibColumn.bcastInDim_b_1b_apply bl Cert.ReferenceIdeal.Facts₀.bcast_S128_S1x128_1 (0 : Fin 1) j)
  rw [h1, h2, h3]

/-- The reference's per-node score at (P, q). -/
theorem spec_apply (a x : Vec Ideal S50000x128 .f32) (Wl : Vec Ideal S128x128 .f32) (bl : Vec Ideal S128 .f32)
    (Wr : Vec Ideal S128x128 .f32) (Wf : Vec Ideal S128x1 .f32) (bf : Vec Ideal S1 .f32) (P : Fin 50000) (q : Fin 1) :
    Cert.Sage.criticLin a x Wl bl Wr Wf bf (ix2 P q)
      = (∑ j : Fin 128, (((∑ k : Fin 128, a (ix2 P k) * Wl (ix2 k j)) + bl (ix1 j)) + ∑ k : Fin 128, x (ix2 P k) * Wr (ix2 k j))
            * Wf (ix2 j q)) + bf (ix1 q) := by
  unfold Cert.Sage.criticLin
  show Host.dotGeneral (F := Ideal) (φ₁ := .f32) (φ₂ := .f32) Cert.ReferenceIdeal.dot_S50000x128_S128x1_S50000x1_1_0_0_1_n_n none (Cert.Sage.lin128 a x Wl bl Wr) Wf (ix2 P q)
      + broadcastInDim Cert.ReferenceIdeal.S50000x1 ![0, 1] Cert.ReferenceIdeal.Facts₀.bcast_S1x1_S50000x1_0_1
          (broadcastInDim Cert.ReferenceIdeal.S1x1 ![1] Cert.ReferenceIdeal.Facts₀.bcast_S1_S1x1_1 bf) (ix2 P q) = _
  have h1 : Host.dotGeneral (F := Ideal) (φ₁ := .f32) (φ₂ := .f32) Cert.ReferenceIdeal.dot_S50000x128_S128x1_S50000x1_1_0_0_1_n_n none (Cert.Sage.lin128 a x Wl bl Wr) Wf (ix2 P q)
      = ∑ j : Fin 128, Cert.Sage.lin128 a x Wl bl Wr (ix2 P j) * Wf (ix2 j q) :=
    Cert.LibHostDot.hostDot_apply (φ₁ := .f32) (φ₂ := .f32) Cert.ReferenceIdeal.dot_S50000x128_S128x1_S50000x1_1_0_0_1_n_n.wf none (Cert.Sage.lin128 a x Wl bl Wr) Wf P q
  have h3 : broadcastInDim Cert.ReferenceIdeal.S50000x1 ![0, 1] Cert.ReferenceIdeal.Facts₀.bcast_S1x1_S50000x1_0_1
          (broadcastInDim Cert.ReferenceIdeal.S1x1 ![1] Cert.ReferenceIdeal.Facts₀.bcast_S1_S1x1_1 bf) (ix2 P q) = bf (ix1 q) :=
    (Cert.LibColumn.bcastInDim_1b_ab_apply _ Cert.ReferenceIdeal.Facts₀.bcast_S1x1_S50000x1_0_1 P q).trans
      (Cert.LibColumn.bcastInDim_b_1b_apply bf Cert.ReferenceIdeal.Facts₀.bcast_S1_S1x1_1 (0 : Fin 1) q)
  rw [h1, h3]
  simp only [lin128_apply]

/-! ## From blocks to the array -/

variable (V : (c : Dev nD) → (b : Ref sig .tc) → Buf (Elt Ideal) ((c : Thread nD τ).loc b))

theorem hz : (![0, 0] : Fin 2 → Nat) = fun _ => 0 := funext fun a => by fin_cases a <;> rfl
theorem hz1 : (![0] : Fin 1 → Nat) = fun _ => 0 := funext fun a => by fin_cases a; rfl

/-- The block index maps over the grid: the row-blocked windows sit at block (t, 0), every other window at 0. -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 1) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 1) = 0
    ∧ win3_7.index t (0 : Fin 2) = t.val ∧ win3_7.index t (1 : Fin 2) = 0 :=
  (by decide +kernel : ∀ t : Fin grid3.N, _)

/-- What point t writes back is block t of the reference's score of the arrays the region found. -/
theorem flushed_eq (c : Dev nD) (t : Fin cfg3.N) :
    (dat3 (F := Ideal) V c).flushed 7 t
      = ((cfg3.win 7).blk t).view.read (Elt Ideal)
          (Cert.Sage.criticLin (V c main_v50) (V c main_v38) (V c main_arg12) (V c main_arg13) (V c main_arg14) (V c main_arg15) (V c main_arg16)) := by
  show (cfg3.win 7).cut (grid3.coords t) ((dat3 V c).after 7 t) = _
  rw [after3_7]
  unfold out3_7
  rw [View.canon_unit_zero hz]
  simp only [View.ld_unit_zero (S := S2000x128) hz, View.ld_unit_zero (S := S128x128) hz, View.ld_unit_zero (S := S128) hz1,
    View.ld_unit_zero (S := S128x1) hz, View.ld_unit_zero (S := S1) hz1]
  obtain ⟨e00, e01, e10, e11, e20, e21, e30, e40, e41, e50, e51, e60, e70, e71⟩ := idx_facts t
  have ht : t.val < 25 := t.isLt
  funext j
  obtain ⟨p, q, rfl⟩ : ∃ (p : Fin 2000) (q : Fin 1), j = ix2 p q := ⟨j 0, j 1, eq_ix2 j⟩
  have hp : p.val < 2000 := p.isLt
  have hq : q.val < 1 := q.isLt
  refine (pay_apply (iblk3 V c 0 t) (iblk3 V c 1 t) (iblk3 V c 2 t) (iblk3 V c 4 t) (iblk3 V c 3 t) (iblk3 V c 5 t) (iblk3 V c 6 t) p q).trans ?_
  show _ = Cert.Sage.criticLin (V c main_v50) (V c main_v38) (V c main_arg12) (V c main_arg13) (V c main_arg14) (V c main_arg15) (V c main_arg16)
      (((cfg3.win 7).blk t).view.emb (ix2 p q))
  have hP : ((cfg3.win 7).blk t).view.emb (ix2 p q) = ix2 (⟨t.val * 2000 + p.val, by omega⟩ : Fin 50000) q := by
    funext a; apply Fin.ext
    match a with
    | ⟨0, _⟩ => show win3_7.index t (0 : Fin 2) * 2000 + 1 * p.val = t.val * 2000 + p.val; omega
    | ⟨1, _⟩ => show win3_7.index t (1 : Fin 2) * 1 + 1 * q.val = q.val; omega
  rw [hP, spec_apply]
  have a0 : ∀ k : Fin 128, iblk3 V c 0 t (ix2 p k) = V c main_v50 (ix2 (⟨t.val * 2000 + p.val, by omega⟩ : Fin 50000) k) := fun k => by
    have hk : k.val < 128 := k.isLt
    show V c main_v50 (((cfg3.win 0).blk t).view.emb (ix2 p k)) = _
    refine congrArg (V c main_v50) ?_
    funext a; apply Fin.ext
    match a with
    | ⟨0, _⟩ => show win3_0.index t (0 : Fin 2) * 2000 + 1 * p.val = t.val * 2000 + p.val; omega
    | ⟨1, _⟩ => show win3_0.index t (1 : Fin 2) * 128 + 1 * k.val = k.val; omega
  have a1 : ∀ k : Fin 128, iblk3 V c 1 t (ix2 p k) = V c main_v38 (ix2 (⟨t.val * 2000 + p.val, by omega⟩ : Fin 50000) k) := fun k => by
    have hk : k.val < 128 := k.isLt
    show V c main_v38 (((cfg3.win 1).blk t).view.emb (ix2 p k)) = _
    refine congrArg (V c main_v38) ?_
    funext a; apply Fin.ext
    match a with
    | ⟨0, _⟩ => show win3_1.index t (0 : Fin 2) * 2000 + 1 * p.val = t.val * 2000 + p.val; omega
    | ⟨1, _⟩ => show win3_1.index t (1 : Fin 2) * 128 + 1 * k.val = k.val; omega
  have a2 : ∀ k j : Fin 128, iblk3 V c 2 t (ix2 k j) = V c main_arg12 (ix2 k j) := fun k j => by
    have hk : k.val < 128 := k.isLt
    have hj : j.val < 128 := j.isLt
    show V c main_arg12 (((cfg3.win 2).blk t).view.emb (ix2 k j)) = _
    refine congrArg (V c main_arg12) ?_
    funext a; apply Fin.ext
    match a with
    | ⟨0, _⟩ => show win3_2.index t (0 : Fin 2) * 128 + 1 * k.val = k.val; omega
    | ⟨1, _⟩ => show win3_2.index t (1 : Fin 2) * 128 + 1 * j.val = j.val; omega
  have a4 : ∀ k j : Fin 128, iblk3 V c 4 t (ix2 k j) = V c main_arg14 (ix2 k j) := fun k j => by
    have hk : k.val < 128 := k.isLt
    have hj : j.val < 128 := j.isLt
    show V c main_arg14 (((cfg3.win 4).blk t).view.emb (ix2 k j)) = _
    refine congrArg (V c main_arg14) ?_
    funext a; apply Fin.ext
    match a with
    | ⟨0, _⟩ => show win3_4.index t (0 : Fin 2) * 128 + 1 * k.val = k.val; omega
    | ⟨1, _⟩ => show win3_4.index t (1 : Fin 2) * 128 + 1 * j.val = j.val; omega
  have a3 : ∀ j : Fin 128, iblk3 V c 3 t (ix1 j) = V c main_arg13 (ix1 j) := fun j => by
    have hj : j.val < 128 := j.isLt
    show V c main_arg13 (((cfg3.win 3).blk t).view.emb (ix1 j)) = _
    refine congrArg (V c main_arg13) ?_
    funext a; apply Fin.ext
    match a with
    | ⟨0, _⟩ => show win3_3.index t (0 : Fin 1) * 128 + 1 * j.val = j.val; omega
  have a5 : ∀ j : Fin 128, iblk3 V c 5 t (ix2 j q) = V c main_arg15 (ix2 j q) := fun j => by
    have hj : j.val < 128 := j.isLt
    show V c main_arg15 (((cfg3.win 5).blk t).view.emb (ix2 j q)) = _
    refine congrArg (V c main_arg15) ?_
    funext a; apply Fin.ext
    match a with
    | ⟨0, _⟩ => show win3_5.index t (0 : Fin 2) * 128 + 1 * j.val = j.val; omega
    | ⟨1, _⟩ => show win3_5.index t (1 : Fin 2) * 1 + 1 * q.val = q.val; omega
  have a6 : iblk3 V c 6 t (ix1 q) = V c main_arg16 (ix1 q) := by
    show V c main_arg16 (((cfg3.win 6).blk t).view.emb (ix1 q)) = _
    refine congrArg (V c main_arg16) ?_
    funext a; apply Fin.ext
    match a with
    | ⟨0, _⟩ => show win3_6.index t (0 : Fin 1) * 1 + 1 * q.val = q.val; omega
  simp only [a0, a1, a2, a4, a3, a5, a6]
  refine congrArg₂ (· + ·) (Finset.sum_congr rfl fun j _ => ?_) rfl
  exact congrArg₂ (· * ·) (add_right_comm _ _ _) rfl

/-- An index of the result array is in point t's block iff its row is among the block's 2000 rows. -/
theorem mem_blk (t : Fin cfg3.N) (i : S50000x1.Idx) :
    i ∈ ((cfg3.win 7).blk t).view.set ↔ ∀ a : Fin 2, win3_7.index t a * S2000x1.size a ≤ (i a).val ∧ (i a).val < win3_7.index t a * S2000x1.size a + S2000x1.size a := by
  show i ∈ ((View.whole main_v59).slice (win3_7.rect t)).set ↔ _
  rw [View.set_slice_whole, Rect.mem_set_unit]
  exact Iff.rfl

/-- Every entry of the result array lies in the block of the point its row belongs to. -/
theorem covered (i : S50000x1.Idx) : ∃ t : Fin cfg3.N, (cfg3.win 7).flush t = true ∧ i ∈ ((cfg3.win 7).blk t).view.set := by
  have hi0 : (i 0).val < 50000 := (i 0).isLt
  have hi1 : (i 1).val < 1 := (i 1).isLt
  let t : Fin cfg3.N := ⟨(i 0).val / 2000, by show (i 0).val / 2000 < 25; omega⟩
  obtain ⟨-, -, -, -, -, -, -, -, -, -, -, -, e70, e71⟩ := idx_facts t
  have e70' : win3_7.index t (0 : Fin 2) = (i 0).val / 2000 := e70
  refine ⟨t, flush3_7 t, ?_⟩
  rw [mem_blk]
  intro a
  match a with
  | ⟨0, _⟩ => show win3_7.index t (0 : Fin 2) * 2000 ≤ (i 0).val ∧ (i 0).val < win3_7.index t (0 : Fin 2) * 2000 + 2000; omega
  | ⟨1, _⟩ => show win3_7.index t (1 : Fin 2) * 1 ≤ (i 1).val ∧ (i 1).val < win3_7.index t (1 : Fin 2) * 1 + 1; omega

/-- THE ARRAY REGION 3 LEAVES is the reference's per-node score of the arrays the region found. -/
theorem value (c : Dev nD) :
    (dat3 (F := Ideal) V c).arrAt 7 cfg3.N
      = Cert.Sage.criticLin (V c main_v50) (V c main_v38) (V c main_arg12) (V c main_arg13) (V c main_arg14) (V c main_arg15) (V c main_arg16) :=
  (dat3 (F := Ideal) V c).arrAt_eq_of_cover 7 _ (fun t _ => flushed_eq V c t) covered

end Cert.Sage.Region3

end
-- ==== Proof.Flow.lean ====
/-
  The kernel program's two results as the network's functions of the launch contents of its arguments.

  The entry function is eleven segments: stretches of host operations and four TensorCore regions.  The buffer contents
  at each segment boundary are a fold from the launch memory.  Below, boundary by boundary, each buffer a later segment
  reads is identified with a stage function of the network applied to the launch contents of the argument arrays: a
  host stretch by computing its operations' composed term, a region's output by the region's value theorem at the
  region's entry contents, and a buffer a segment does not write by what it held before.
-/
import proofs.«127485_j53523882443412_1_alg».proof.Proof.Gen.KernelIdeal.Frame
import proofs.«127485_j53523882443412_1_alg».proof.Proof.Spec
import proofs.«127485_j53523882443412_1_alg».proof.Proof.Region0
import proofs.«127485_j53523882443412_1_alg».proof.Proof.Region1
import proofs.«127485_j53523882443412_1_alg».proof.Proof.Region2
import proofs.«127485_j53523882443412_1_alg».proof.Proof.Region3
import Idealize.ShloMosaic.Lib.StableHlo.Run

set_option maxRecDepth 16384

noncomputable section

namespace Cert.Sage.Flow

open Idealize.ShloMosaic Idealize.ShloMosaic.TcCoe Idealize.SL.Sem
open Idealize.ShloMosaic.StableHlo (after_cons after_nil)
open Cert.KernelIdeal Cert.KernelIdeal.Gen

variable (m : (ℓ : Loc nD τ sig) → Buf (Elt Ideal) ℓ) (ρ : Dev nD → PrngReg)

/-- A buffer no operation of a host stretch writes holds after the stretch what it held before: the stretch's operations
    are enumerated, and the buffer differs from each one's result buffer. -/
macro "host_keep" ops:ident hb:ident : tactic =>
  `(tactic| (
    refine StableHlo.after_of_forall_not_mem _ _ (List.forall_iff_forall_mem.mp ?_)
    simp only [$ops:ident, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (fun h => $hb:ident (by rw [h]; decide))))

/-- Equal arguments give equal values, for a function of five arguments. -/
theorem congr5 {α₁ α₂ α₃ α₄ α₅ β : Sort _} (f : α₁ → α₂ → α₃ → α₄ → α₅ → β)
    {a₁ b₁ : α₁} {a₂ b₂ : α₂} {a₃ b₃ : α₃} {a₄ b₄ : α₄} {a₅ b₅ : α₅}
    (h₁ : a₁ = b₁) (h₂ : a₂ = b₂) (h₃ : a₃ = b₃) (h₄ : a₄ = b₄) (h₅ : a₅ = b₅) :
    f a₁ a₂ a₃ a₄ a₅ = f b₁ b₂ b₃ b₄ b₅ := by
  subst h₁ h₂ h₃ h₄ h₅; rfl

/-- Equal arguments give equal values, for a function of seven arguments. -/
theorem congr7 {α₁ α₂ α₃ α₄ α₅ α₆ α₇ β : Sort _} (f : α₁ → α₂ → α₃ → α₄ → α₅ → α₆ → α₇ → β)
    {a₁ b₁ : α₁} {a₂ b₂ : α₂} {a₃ b₃ : α₃} {a₄ b₄ : α₄} {a₅ b₅ : α₅} {a₆ b₆ : α₆} {a₇ b₇ : α₇}
    (h₁ : a₁ = b₁) (h₂ : a₂ = b₂) (h₃ : a₃ = b₃) (h₄ : a₄ = b₄) (h₅ : a₅ = b₅) (h₆ : a₆ = b₆) (h₇ : a₇ = b₇) :
    f a₁ a₂ a₃ a₄ a₅ a₆ a₇ = f b₁ b₂ b₃ b₄ b₅ b₆ b₇ := by
  subst h₁ h₂ h₃ h₄ h₅ h₆ h₇; rfl

/-- Contents moved to a typed reference's buffer type and back are unchanged. -/
theorem ofBuf_toBuf {T : BufTy} (x : StableHlo.TRef sig T) (v : T.Contents (Elt Ideal)) : x.ofBuf (x.toBuf v) = v := by
  obtain ⟨r, rfl, h₁, h₂⟩ := x
  rfl

/-! ## What each host stretch leaves alone -/

/-- The buffers `hostOps0` writes. -/
abbrev wr0 : List (Ref sig .tc) :=
  [main_v0, main_v1, main_v2, main_v3, main_cst, main_v4, main_cst_0, main_v5, main_v6, main_v7, main_cst_1,
   main_v8, main_v9, main_cst_2, main_v10, main_v11, main_v12, main_c, main_v13, main_v14, main_c_3, main_v15,
   main_v16, main_v17, main_v18, main_v19, main_cst_4, main_v20, main_v21, main_v22, main_v23, main_v24]
/-- A buffer `hostOps0` does not write is the same at the boundary after it as at the one before. -/
theorem keep0 (c : Dev nD) (b : Ref sig .tc) (hb : b ∉ wr0) :
    W1 m ρ c (Proc.devRef .tc b) = W0 m ρ c (Proc.devRef .tc b) := by
  show StableHlo.after hostOps0 (W0 m ρ c) (Proc.devRef .tc b) = _
  host_keep hostOps0 hb

/-- The buffers `hostOps1` writes. -/
abbrev wr1 : List (Ref sig .tc) :=
  [main_c_5, main_v26, main_v27, main_c_6, main_v28, main_v29, main_v30, main_v31, main_v32, main_cst_7, main_v33,
   main_v34, main_v35, main_v36, main_v37]
/-- A buffer `hostOps1` does not write is the same at the boundary after it as at the one before. -/
theorem keep1 (c : Dev nD) (b : Ref sig .tc) (hb : b ∉ wr1) :
    W3 m ρ c (Proc.devRef .tc b) = W2 m ρ c (Proc.devRef .tc b) := by
  show StableHlo.after hostOps1 (W2 m ρ c) (Proc.devRef .tc b) = _
  host_keep hostOps1 hb

/-- The buffers `hostOps2` writes. -/
abbrev wr2 : List (Ref sig .tc) :=
  [main_c_8, main_v39, main_v40, main_c_9, main_v41, main_v42, main_v43, main_v44, main_v45, main_cst_10, main_v46,
   main_v47, main_v48, main_v49, main_v50]
/-- A buffer `hostOps2` does not write is the same at the boundary after it as at the one before. -/
theorem keep2 (c : Dev nD) (b : Ref sig .tc) (hb : b ∉ wr2) :
    W5 m ρ c (Proc.devRef .tc b) = W4 m ρ c (Proc.devRef .tc b) := by
  show StableHlo.after hostOps2 (W4 m ρ c) (Proc.devRef .tc b) = _
  host_keep hostOps2 hb

/-- The buffers `hostOps3` writes. -/
abbrev wr3 : List (Ref sig .tc) :=
  [main_v52, main_v53, main_cst_11, main_v54, main_v55, main_v56, main_cst_12]
/-- A buffer `hostOps3` does not write is the same at the boundary after it as at the one before. -/
theorem keep3 (c : Dev nD) (b : Ref sig .tc) (hb : b ∉ wr3) :
    W7 m ρ c (Proc.devRef .tc b) = W6 m ρ c (Proc.devRef .tc b) := by
  show StableHlo.after hostOps3 (W6 m ρ c) (Proc.devRef .tc b) = _
  host_keep hostOps3 hb

/-- The buffers `hostOps3_1` writes. -/
abbrev wr3_1 : List (Ref sig .tc) :=
  [main_call0_v0, main_call0_v1, main_v57]
/-- A buffer `hostOps3_1` does not write is the same at the boundary after it as at the one before. -/
theorem keep3_1 (c : Dev nD) (b : Ref sig .tc) (hb : b ∉ wr3_1) :
    W8 m ρ c (Proc.devRef .tc b) = W7 m ρ c (Proc.devRef .tc b) := by
  show StableHlo.after hostOps3_1 (W7 m ρ c) (Proc.devRef .tc b) = _
  host_keep hostOps3_1 hb

/-- The buffers `hostOps3_2` writes. -/
abbrev wr3_2 : List (Ref sig .tc) :=
  [main_call1_cst, main_call1_v0, main_call1_cst_0, main_call1_v1, main_call1_v2, main_call1_v3, main_call1_v4,
   main_call1_v5, main_call1_v6, main_call1_cst_1, main_call1_v7, main_call1_v8, main_call1_v9, main_call1_v10,
   main_v58]
/-- A buffer `hostOps3_2` does not write is the same at the boundary after it as at the one before. -/
theorem keep3_2 (c : Dev nD) (b : Ref sig .tc) (hb : b ∉ wr3_2) :
    W9 m ρ c (Proc.devRef .tc b) = W8 m ρ c (Proc.devRef .tc b) := by
  show StableHlo.after hostOps3_2 (W8 m ρ c) (Proc.devRef .tc b) = _
  host_keep hostOps3_2 hb

/-- The buffers `hostOps4` writes. -/
abbrev wr4 : List (Ref sig .tc) :=
  [main_cst_13, main_v60, main_v61, main_v62, main_cst_14, main_v63, main_cst_15, main_v64, main_v65, main_v66,
   main_cst_16, main_v67, main_v68, main_v69, main_v70, main_v71]
/-- A buffer `hostOps4` does not write is the same at the boundary after it as at the one before. -/
theorem keep4 (c : Dev nD) (b : Ref sig .tc) (hb : b ∉ wr4) :
    W11 m ρ c (Proc.devRef .tc b) = W10 m ρ c (Proc.devRef .tc b) := by
  show StableHlo.after hostOps4 (W10 m ρ c) (Proc.devRef .tc b) = _
  host_keep hostOps4 hb

/-! ## The hidden layers at the launch contents of the arguments -/

/-- The first hidden layer of the network at device `c`'s launch contents of the arguments. -/
abbrev h1 (c : Dev nD) :=
  Cert.Sage.hidden1 (m ((c : Thread nD τ).loc main_arg0))
    (m ((c : Thread nD τ).loc main_arg1))
    (m ((c : Thread nD τ).loc main_arg3))
    (m ((c : Thread nD τ).loc main_arg4))
    (m ((c : Thread nD τ).loc main_arg5))
/-- The second hidden layer of the network at device `c`'s launch contents of the arguments. -/
abbrev h2 (c : Dev nD) :=
  Cert.Sage.hidden2 (m ((c : Thread nD τ).loc main_arg0))
    (m ((c : Thread nD τ).loc main_arg1))
    (m ((c : Thread nD τ).loc main_arg3))
    (m ((c : Thread nD τ).loc main_arg4))
    (m ((c : Thread nD τ).loc main_arg5))
    (m ((c : Thread nD τ).loc main_arg6))
    (m ((c : Thread nD τ).loc main_arg7))
    (m ((c : Thread nD τ).loc main_arg8))

/-! ## Boundary 1, after the first host stretch: the edge rows, the inverse degrees, the aggregated input features -/

theorem W1_v1 (c : Dev nD) :
    W1 m ρ c (Proc.devRef .tc main_v1)
      = Cert.Sage.src (m ((c : Thread nD τ).loc main_arg1)) := by
  show StableHlo.after hostOps0 (W0 m ρ c) (Proc.devRef .tc main_v1) = _
  after_results_simp
  rfl
theorem W1_v3 (c : Dev nD) :
    W1 m ρ c (Proc.devRef .tc main_v3)
      = Cert.Sage.dst (m ((c : Thread nD τ).loc main_arg1)) := by
  show StableHlo.after hostOps0 (W0 m ρ c) (Proc.devRef .tc main_v3) = _
  after_results_simp
  rfl
theorem W1_v12 (c : Dev nD) :
    W1 m ρ c (Proc.devRef .tc main_v12)
      = Cert.Sage.invDeg (m ((c : Thread nD τ).loc main_arg1)) := by
  show StableHlo.after hostOps0 (W0 m ρ c) (Proc.devRef .tc main_v12) = _
  after_results_simp
  rfl
theorem W1_v24 (c : Dev nD) :
    W1 m ρ c (Proc.devRef .tc main_v24)
      = Cert.Sage.agg5 (m ((c : Thread nD τ).loc main_arg0)) (m ((c : Thread nD τ).loc main_arg1)) := by
  show StableHlo.after hostOps0 (W0 m ρ c) (Proc.devRef .tc main_v24) = _
  after_results_simp
  rfl
theorem W1_arg0 (c : Dev nD) : W1 m ρ c (Proc.devRef .tc main_arg0) = m ((c : Thread nD τ).loc main_arg0) :=
  keep0 m ρ c main_arg0 (by decide)
theorem W1_arg2 (c : Dev nD) : W1 m ρ c (Proc.devRef .tc main_arg2) = m ((c : Thread nD τ).loc main_arg2) :=
  keep0 m ρ c main_arg2 (by decide)
theorem W1_arg3 (c : Dev nD) : W1 m ρ c (Proc.devRef .tc main_arg3) = m ((c : Thread nD τ).loc main_arg3) :=
  keep0 m ρ c main_arg3 (by decide)
theorem W1_arg4 (c : Dev nD) : W1 m ρ c (Proc.devRef .tc main_arg4) = m ((c : Thread nD τ).loc main_arg4) :=
  keep0 m ρ c main_arg4 (by decide)
theorem W1_arg5 (c : Dev nD) : W1 m ρ c (Proc.devRef .tc main_arg5) = m ((c : Thread nD τ).loc main_arg5) :=
  keep0 m ρ c main_arg5 (by decide)
theorem W1_arg6 (c : Dev nD) : W1 m ρ c (Proc.devRef .tc main_arg6) = m ((c : Thread nD τ).loc main_arg6) :=
  keep0 m ρ c main_arg6 (by decide)
theorem W1_arg7 (c : Dev nD) : W1 m ρ c (Proc.devRef .tc main_arg7) = m ((c : Thread nD τ).loc main_arg7) :=
  keep0 m ρ c main_arg7 (by decide)
theorem W1_arg8 (c : Dev nD) : W1 m ρ c (Proc.devRef .tc main_arg8) = m ((c : Thread nD τ).loc main_arg8) :=
  keep0 m ρ c main_arg8 (by decide)
theorem W1_arg9 (c : Dev nD) : W1 m ρ c (Proc.devRef .tc main_arg9) = m ((c : Thread nD τ).loc main_arg9) :=
  keep0 m ρ c main_arg9 (by decide)
theorem W1_arg10 (c : Dev nD) : W1 m ρ c (Proc.devRef .tc main_arg10) = m ((c : Thread nD τ).loc main_arg10) :=
  keep0 m ρ c main_arg10 (by decide)
theorem W1_arg11 (c : Dev nD) : W1 m ρ c (Proc.devRef .tc main_arg11) = m ((c : Thread nD τ).loc main_arg11) :=
  keep0 m ρ c main_arg11 (by decide)
theorem W1_arg12 (c : Dev nD) : W1 m ρ c (Proc.devRef .tc main_arg12) = m ((c : Thread nD τ).loc main_arg12) :=
  keep0 m ρ c main_arg12 (by decide)
theorem W1_arg13 (c : Dev nD) : W1 m ρ c (Proc.devRef .tc main_arg13) = m ((c : Thread nD τ).loc main_arg13) :=
  keep0 m ρ c main_arg13 (by decide)
theorem W1_arg14 (c : Dev nD) : W1 m ρ c (Proc.devRef .tc main_arg14) = m ((c : Thread nD τ).loc main_arg14) :=
  keep0 m ρ c main_arg14 (by decide)
theorem W1_arg15 (c : Dev nD) : W1 m ρ c (Proc.devRef .tc main_arg15) = m ((c : Thread nD τ).loc main_arg15) :=
  keep0 m ρ c main_arg15 (by decide)
theorem W1_arg16 (c : Dev nD) : W1 m ρ c (Proc.devRef .tc main_arg16) = m ((c : Thread nD τ).loc main_arg16) :=
  keep0 m ρ c main_arg16 (by decide)

/-! ## Boundary 2, after region 0: the first hidden layer -/

theorem W2_v25 (c : Dev nD) : W2 m ρ c (Proc.devRef .tc main_v25) = h1 m c :=
  (W2_arr m ρ c 5).trans ((Cert.Sage.Region0.value (V1 m ρ) c).trans
    (congr5 (Cert.Sage.layer1 (F := Ideal)) (W1_v24 m ρ c) (W1_arg0 m ρ c) (W1_arg3 m ρ c) (W1_arg4 m ρ c) (W1_arg5 m ρ c)))
theorem W2_v1 (c : Dev nD) :
    W2 m ρ c (Proc.devRef .tc main_v1)
      = Cert.Sage.src (m ((c : Thread nD τ).loc main_arg1)) :=
  (W2_of_ne m ρ c main_v1 (by decide)).trans (W1_v1 m ρ c)
theorem W2_v3 (c : Dev nD) :
    W2 m ρ c (Proc.devRef .tc main_v3)
      = Cert.Sage.dst (m ((c : Thread nD τ).loc main_arg1)) :=
  (W2_of_ne m ρ c main_v3 (by decide)).trans (W1_v3 m ρ c)
theorem W2_v12 (c : Dev nD) :
    W2 m ρ c (Proc.devRef .tc main_v12)
      = Cert.Sage.invDeg (m ((c : Thread nD τ).loc main_arg1)) :=
  (W2_of_ne m ρ c main_v12 (by decide)).trans (W1_v12 m ρ c)
theorem W2_arg0 (c : Dev nD) : W2 m ρ c (Proc.devRef .tc main_arg0) = m ((c : Thread nD τ).loc main_arg0) :=
  ((W2_arr m ρ c 1).trans (((dat0 (V1 m ρ) c).arrAt_in 1 rfl _).trans (A_eq0 (V1 m ρ) c 1))).trans (W1_arg0 m ρ c)
theorem W2_arg2 (c : Dev nD) : W2 m ρ c (Proc.devRef .tc main_arg2) = m ((c : Thread nD τ).loc main_arg2) :=
  (W2_of_ne m ρ c main_arg2 (by decide)).trans (W1_arg2 m ρ c)
theorem W2_arg6 (c : Dev nD) : W2 m ρ c (Proc.devRef .tc main_arg6) = m ((c : Thread nD τ).loc main_arg6) :=
  (W2_of_ne m ρ c main_arg6 (by decide)).trans (W1_arg6 m ρ c)
theorem W2_arg7 (c : Dev nD) : W2 m ρ c (Proc.devRef .tc main_arg7) = m ((c : Thread nD τ).loc main_arg7) :=
  (W2_of_ne m ρ c main_arg7 (by decide)).trans (W1_arg7 m ρ c)
theorem W2_arg8 (c : Dev nD) : W2 m ρ c (Proc.devRef .tc main_arg8) = m ((c : Thread nD τ).loc main_arg8) :=
  (W2_of_ne m ρ c main_arg8 (by decide)).trans (W1_arg8 m ρ c)
theorem W2_arg9 (c : Dev nD) : W2 m ρ c (Proc.devRef .tc main_arg9) = m ((c : Thread nD τ).loc main_arg9) :=
  (W2_of_ne m ρ c main_arg9 (by decide)).trans (W1_arg9 m ρ c)
theorem W2_arg10 (c : Dev nD) : W2 m ρ c (Proc.devRef .tc main_arg10) = m ((c : Thread nD τ).loc main_arg10) :=
  (W2_of_ne m ρ c main_arg10 (by decide)).trans (W1_arg10 m ρ c)
theorem W2_arg11 (c : Dev nD) : W2 m ρ c (Proc.devRef .tc main_arg11) = m ((c : Thread nD τ).loc main_arg11) :=
  (W2_of_ne m ρ c main_arg11 (by decide)).trans (W1_arg11 m ρ c)
theorem W2_arg12 (c : Dev nD) : W2 m ρ c (Proc.devRef .tc main_arg12) = m ((c : Thread nD τ).loc main_arg12) :=
  (W2_of_ne m ρ c main_arg12 (by decide)).trans (W1_arg12 m ρ c)
theorem W2_arg13 (c : Dev nD) : W2 m ρ c (Proc.devRef .tc main_arg13) = m ((c : Thread nD τ).loc main_arg13) :=
  (W2_of_ne m ρ c main_arg13 (by decide)).trans (W1_arg13 m ρ c)
theorem W2_arg14 (c : Dev nD) : W2 m ρ c (Proc.devRef .tc main_arg14) = m ((c : Thread nD τ).loc main_arg14) :=
  (W2_of_ne m ρ c main_arg14 (by decide)).trans (W1_arg14 m ρ c)
theorem W2_arg15 (c : Dev nD) : W2 m ρ c (Proc.devRef .tc main_arg15) = m ((c : Thread nD τ).loc main_arg15) :=
  (W2_of_ne m ρ c main_arg15 (by decide)).trans (W1_arg15 m ρ c)
theorem W2_arg16 (c : Dev nD) : W2 m ρ c (Proc.devRef .tc main_arg16) = m ((c : Thread nD τ).loc main_arg16) :=
  (W2_of_ne m ρ c main_arg16 (by decide)).trans (W1_arg16 m ρ c)

/-! ## Boundary 3, after the second host stretch: the aggregated first hidden layer -/

theorem W3_v37 (c : Dev nD) :
    W3 m ρ c (Proc.devRef .tc main_v37)
      = Cert.Sage.agg128 (h1 m c) (m ((c : Thread nD τ).loc main_arg1)) := by
  show StableHlo.after hostOps1 (W2 m ρ c) (Proc.devRef .tc main_v37) = _
  have e0 := W2_v1 m ρ c
  have e1 := W2_v3 m ρ c
  have e2 := W2_v12 m ρ c
  have e3 := W2_v25 m ρ c
  generalize W2 m ρ c = V at e0 e1 e2 e3 ⊢
  after_results_simp
  rw [e0, e1, e2, e3]
  rfl
theorem W3_v25 (c : Dev nD) : W3 m ρ c (Proc.devRef .tc main_v25) = h1 m c :=
  (keep1 m ρ c main_v25 (by decide)).trans (W2_v25 m ρ c)
theorem W3_v1 (c : Dev nD) :
    W3 m ρ c (Proc.devRef .tc main_v1)
      = Cert.Sage.src (m ((c : Thread nD τ).loc main_arg1)) :=
  (keep1 m ρ c main_v1 (by decide)).trans (W2_v1 m ρ c)
theorem W3_v3 (c : Dev nD) :
    W3 m ρ c (Proc.devRef .tc main_v3)
      = Cert.Sage.dst (m ((c : Thread nD τ).loc main_arg1)) :=
  (keep1 m ρ c main_v3 (by decide)).trans (W2_v3 m ρ c)
theorem W3_v12 (c : Dev nD) :
    W3 m ρ c (Proc.devRef .tc main_v12)
      = Cert.Sage.invDeg (m ((c : Thread nD τ).loc main_arg1)) :=
  (keep1 m ρ c main_v12 (by decide)).trans (W2_v12 m ρ c)
theorem W3_arg0 (c : Dev nD) : W3 m ρ c (Proc.devRef .tc main_arg0) = m ((c : Thread nD τ).loc main_arg0) :=
  (keep1 m ρ c main_arg0 (by decide)).trans (W2_arg0 m ρ c)
theorem W3_arg2 (c : Dev nD) : W3 m ρ c (Proc.devRef .tc main_arg2) = m ((c : Thread nD τ).loc main_arg2) :=
  (keep1 m ρ c main_arg2 (by decide)).trans (W2_arg2 m ρ c)
theorem W3_arg6 (c : Dev nD) : W3 m ρ c (Proc.devRef .tc main_arg6) = m ((c : Thread nD τ).loc main_arg6) :=
  (keep1 m ρ c main_arg6 (by decide)).trans (W2_arg6 m ρ c)
theorem W3_arg7 (c : Dev nD) : W3 m ρ c (Proc.devRef .tc main_arg7) = m ((c : Thread nD τ).loc main_arg7) :=
  (keep1 m ρ c main_arg7 (by decide)).trans (W2_arg7 m ρ c)
theorem W3_arg8 (c : Dev nD) : W3 m ρ c (Proc.devRef .tc main_arg8) = m ((c : Thread nD τ).loc main_arg8) :=
  (keep1 m ρ c main_arg8 (by decide)).trans (W2_arg8 m ρ c)
theorem W3_arg9 (c : Dev nD) : W3 m ρ c (Proc.devRef .tc main_arg9) = m ((c : Thread nD τ).loc main_arg9) :=
  (keep1 m ρ c main_arg9 (by decide)).trans (W2_arg9 m ρ c)
theorem W3_arg10 (c : Dev nD) : W3 m ρ c (Proc.devRef .tc main_arg10) = m ((c : Thread nD τ).loc main_arg10) :=
  (keep1 m ρ c main_arg10 (by decide)).trans (W2_arg10 m ρ c)
theorem W3_arg11 (c : Dev nD) : W3 m ρ c (Proc.devRef .tc main_arg11) = m ((c : Thread nD τ).loc main_arg11) :=
  (keep1 m ρ c main_arg11 (by decide)).trans (W2_arg11 m ρ c)
theorem W3_arg12 (c : Dev nD) : W3 m ρ c (Proc.devRef .tc main_arg12) = m ((c : Thread nD τ).loc main_arg12) :=
  (keep1 m ρ c main_arg12 (by decide)).trans (W2_arg12 m ρ c)
theorem W3_arg13 (c : Dev nD) : W3 m ρ c (Proc.devRef .tc main_arg13) = m ((c : Thread nD τ).loc main_arg13) :=
  (keep1 m ρ c main_arg13 (by decide)).trans (W2_arg13 m ρ c)
theorem W3_arg14 (c : Dev nD) : W3 m ρ c (Proc.devRef .tc main_arg14) = m ((c : Thread nD τ).loc main_arg14) :=
  (keep1 m ρ c main_arg14 (by decide)).trans (W2_arg14 m ρ c)
theorem W3_arg15 (c : Dev nD) : W3 m ρ c (Proc.devRef .tc main_arg15) = m ((c : Thread nD τ).loc main_arg15) :=
  (keep1 m ρ c main_arg15 (by decide)).trans (W2_arg15 m ρ c)
theorem W3_arg16 (c : Dev nD) : W3 m ρ c (Proc.devRef .tc main_arg16) = m ((c : Thread nD τ).loc main_arg16) :=
  (keep1 m ρ c main_arg16 (by decide)).trans (W2_arg16 m ρ c)

/-! ## Boundary 4, after region 1: the second hidden layer -/

theorem W4_v38 (c : Dev nD) : W4 m ρ c (Proc.devRef .tc main_v38) = h2 m c :=
  (W4_arr m ρ c 5).trans ((Cert.Sage.Region1.value (V3 m ρ) c).trans
    (congr5 (Cert.Sage.layer2 (F := Ideal)) (W3_v37 m ρ c) (W3_v25 m ρ c) (W3_arg6 m ρ c) (W3_arg7 m ρ c) (W3_arg8 m ρ c)))
theorem W4_v1 (c : Dev nD) :
    W4 m ρ c (Proc.devRef .tc main_v1)
      = Cert.Sage.src (m ((c : Thread nD τ).loc main_arg1)) :=
  (W4_of_ne m ρ c main_v1 (by decide)).trans (W3_v1 m ρ c)
theorem W4_v3 (c : Dev nD) :
    W4 m ρ c (Proc.devRef .tc main_v3)
      = Cert.Sage.dst (m ((c : Thread nD τ).loc main_arg1)) :=
  (W4_of_ne m ρ c main_v3 (by decide)).trans (W3_v3 m ρ c)
theorem W4_v12 (c : Dev nD) :
    W4 m ρ c (Proc.devRef .tc main_v12)
      = Cert.Sage.invDeg (m ((c : Thread nD τ).loc main_arg1)) :=
  (W4_of_ne m ρ c main_v12 (by decide)).trans (W3_v12 m ρ c)
theorem W4_arg0 (c : Dev nD) : W4 m ρ c (Proc.devRef .tc main_arg0) = m ((c : Thread nD τ).loc main_arg0) :=
  (W4_of_ne m ρ c main_arg0 (by decide)).trans (W3_arg0 m ρ c)
theorem W4_arg2 (c : Dev nD) : W4 m ρ c (Proc.devRef .tc main_arg2) = m ((c : Thread nD τ).loc main_arg2) :=
  (W4_of_ne m ρ c main_arg2 (by decide)).trans (W3_arg2 m ρ c)
theorem W4_arg9 (c : Dev nD) : W4 m ρ c (Proc.devRef .tc main_arg9) = m ((c : Thread nD τ).loc main_arg9) :=
  (W4_of_ne m ρ c main_arg9 (by decide)).trans (W3_arg9 m ρ c)
theorem W4_arg10 (c : Dev nD) : W4 m ρ c (Proc.devRef .tc main_arg10) = m ((c : Thread nD τ).loc main_arg10) :=
  (W4_of_ne m ρ c main_arg10 (by decide)).trans (W3_arg10 m ρ c)
theorem W4_arg11 (c : Dev nD) : W4 m ρ c (Proc.devRef .tc main_arg11) = m ((c : Thread nD τ).loc main_arg11) :=
  (W4_of_ne m ρ c main_arg11 (by decide)).trans (W3_arg11 m ρ c)
theorem W4_arg12 (c : Dev nD) : W4 m ρ c (Proc.devRef .tc main_arg12) = m ((c : Thread nD τ).loc main_arg12) :=
  (W4_of_ne m ρ c main_arg12 (by decide)).trans (W3_arg12 m ρ c)
theorem W4_arg13 (c : Dev nD) : W4 m ρ c (Proc.devRef .tc main_arg13) = m ((c : Thread nD τ).loc main_arg13) :=
  (W4_of_ne m ρ c main_arg13 (by decide)).trans (W3_arg13 m ρ c)
theorem W4_arg14 (c : Dev nD) : W4 m ρ c (Proc.devRef .tc main_arg14) = m ((c : Thread nD τ).loc main_arg14) :=
  (W4_of_ne m ρ c main_arg14 (by decide)).trans (W3_arg14 m ρ c)
theorem W4_arg15 (c : Dev nD) : W4 m ρ c (Proc.devRef .tc main_arg15) = m ((c : Thread nD τ).loc main_arg15) :=
  (W4_of_ne m ρ c main_arg15 (by decide)).trans (W3_arg15 m ρ c)
theorem W4_arg16 (c : Dev nD) : W4 m ρ c (Proc.devRef .tc main_arg16) = m ((c : Thread nD τ).loc main_arg16) :=
  (W4_of_ne m ρ c main_arg16 (by decide)).trans (W3_arg16 m ρ c)

/-! ## Boundary 5, after the third host stretch: the aggregated second hidden layer -/

theorem W5_v50 (c : Dev nD) :
    W5 m ρ c (Proc.devRef .tc main_v50)
      = Cert.Sage.agg128 (h2 m c) (m ((c : Thread nD τ).loc main_arg1)) := by
  show StableHlo.after hostOps2 (W4 m ρ c) (Proc.devRef .tc main_v50) = _
  have e0 := W4_v1 m ρ c
  have e1 := W4_v3 m ρ c
  have e2 := W4_v12 m ρ c
  have e3 := W4_v38 m ρ c
  generalize W4 m ρ c = V at e0 e1 e2 e3 ⊢
  after_results_simp
  rw [e0, e1, e2, e3]
  rfl
theorem W5_v38 (c : Dev nD) : W5 m ρ c (Proc.devRef .tc main_v38) = h2 m c :=
  (keep2 m ρ c main_v38 (by decide)).trans (W4_v38 m ρ c)
theorem W5_arg0 (c : Dev nD) : W5 m ρ c (Proc.devRef .tc main_arg0) = m ((c : Thread nD τ).loc main_arg0) :=
  (keep2 m ρ c main_arg0 (by decide)).trans (W4_arg0 m ρ c)
theorem W5_arg2 (c : Dev nD) : W5 m ρ c (Proc.devRef .tc main_arg2) = m ((c : Thread nD τ).loc main_arg2) :=
  (keep2 m ρ c main_arg2 (by decide)).trans (W4_arg2 m ρ c)
theorem W5_arg9 (c : Dev nD) : W5 m ρ c (Proc.devRef .tc main_arg9) = m ((c : Thread nD τ).loc main_arg9) :=
  (keep2 m ρ c main_arg9 (by decide)).trans (W4_arg9 m ρ c)
theorem W5_arg10 (c : Dev nD) : W5 m ρ c (Proc.devRef .tc main_arg10) = m ((c : Thread nD τ).loc main_arg10) :=
  (keep2 m ρ c main_arg10 (by decide)).trans (W4_arg10 m ρ c)
theorem W5_arg11 (c : Dev nD) : W5 m ρ c (Proc.devRef .tc main_arg11) = m ((c : Thread nD τ).loc main_arg11) :=
  (keep2 m ρ c main_arg11 (by decide)).trans (W4_arg11 m ρ c)
theorem W5_arg12 (c : Dev nD) : W5 m ρ c (Proc.devRef .tc main_arg12) = m ((c : Thread nD τ).loc main_arg12) :=
  (keep2 m ρ c main_arg12 (by decide)).trans (W4_arg12 m ρ c)
theorem W5_arg13 (c : Dev nD) : W5 m ρ c (Proc.devRef .tc main_arg13) = m ((c : Thread nD τ).loc main_arg13) :=
  (keep2 m ρ c main_arg13 (by decide)).trans (W4_arg13 m ρ c)
theorem W5_arg14 (c : Dev nD) : W5 m ρ c (Proc.devRef .tc main_arg14) = m ((c : Thread nD τ).loc main_arg14) :=
  (keep2 m ρ c main_arg14 (by decide)).trans (W4_arg14 m ρ c)
theorem W5_arg15 (c : Dev nD) : W5 m ρ c (Proc.devRef .tc main_arg15) = m ((c : Thread nD τ).loc main_arg15) :=
  (keep2 m ρ c main_arg15 (by decide)).trans (W4_arg15 m ρ c)
theorem W5_arg16 (c : Dev nD) : W5 m ρ c (Proc.devRef .tc main_arg16) = m ((c : Thread nD τ).loc main_arg16) :=
  (keep2 m ρ c main_arg16 (by decide)).trans (W4_arg16 m ρ c)

/-! ## Boundary 6, after region 2: the actor's scores -/

theorem W6_v51 (c : Dev nD) :
    W6 m ρ c (Proc.devRef .tc main_v51)
      = Cert.Sage.lin1 (Cert.Sage.agg128 (h2 m c) (m ((c : Thread nD τ).loc main_arg1))) (h2 m c)
          (m ((c : Thread nD τ).loc main_arg9)) (m ((c : Thread nD τ).loc main_arg10))
          (m ((c : Thread nD τ).loc main_arg11)) :=
  (W6_arr m ρ c 5).trans ((Cert.Sage.Region2.value (V5 m ρ) c).trans
    (congr5 (Cert.Sage.lin1 (F := Ideal)) (W5_v50 m ρ c) (W5_v38 m ρ c) (W5_arg9 m ρ c) (W5_arg10 m ρ c) (W5_arg11 m ρ c)))
theorem W6_v50 (c : Dev nD) :
    W6 m ρ c (Proc.devRef .tc main_v50)
      = Cert.Sage.agg128 (h2 m c) (m ((c : Thread nD τ).loc main_arg1)) :=
  ((W6_arr m ρ c 0).trans (((dat2 (V5 m ρ) c).arrAt_in 0 rfl _).trans (A_eq2 (V5 m ρ) c 0))).trans (W5_v50 m ρ c)
theorem W6_v38 (c : Dev nD) : W6 m ρ c (Proc.devRef .tc main_v38) = h2 m c :=
  ((W6_arr m ρ c 1).trans (((dat2 (V5 m ρ) c).arrAt_in 1 rfl _).trans (A_eq2 (V5 m ρ) c 1))).trans (W5_v38 m ρ c)
theorem W6_arg0 (c : Dev nD) : W6 m ρ c (Proc.devRef .tc main_arg0) = m ((c : Thread nD τ).loc main_arg0) :=
  (W6_of_ne m ρ c main_arg0 (by decide)).trans (W5_arg0 m ρ c)
theorem W6_arg2 (c : Dev nD) : W6 m ρ c (Proc.devRef .tc main_arg2) = m ((c : Thread nD τ).loc main_arg2) :=
  (W6_of_ne m ρ c main_arg2 (by decide)).trans (W5_arg2 m ρ c)
theorem W6_arg12 (c : Dev nD) : W6 m ρ c (Proc.devRef .tc main_arg12) = m ((c : Thread nD τ).loc main_arg12) :=
  (W6_of_ne m ρ c main_arg12 (by decide)).trans (W5_arg12 m ρ c)
theorem W6_arg13 (c : Dev nD) : W6 m ρ c (Proc.devRef .tc main_arg13) = m ((c : Thread nD τ).loc main_arg13) :=
  (W6_of_ne m ρ c main_arg13 (by decide)).trans (W5_arg13 m ρ c)
theorem W6_arg14 (c : Dev nD) : W6 m ρ c (Proc.devRef .tc main_arg14) = m ((c : Thread nD τ).loc main_arg14) :=
  (W6_of_ne m ρ c main_arg14 (by decide)).trans (W5_arg14 m ρ c)
theorem W6_arg15 (c : Dev nD) : W6 m ρ c (Proc.devRef .tc main_arg15) = m ((c : Thread nD τ).loc main_arg15) :=
  (W6_of_ne m ρ c main_arg15 (by decide)).trans (W5_arg15 m ρ c)
theorem W6_arg16 (c : Dev nD) : W6 m ρ c (Proc.devRef .tc main_arg16) = m ((c : Thread nD τ).loc main_arg16) :=
  (W6_of_ne m ρ c main_arg16 (by decide)).trans (W5_arg16 m ρ c)

/-! ## Boundaries 7 and 8, after the masking: the masked actor's scores -/

theorem W8_v57 (c : Dev nD) :
    W8 m ρ c (Proc.devRef .tc main_v57)
      = Cert.Sage.masked (m ((c : Thread nD τ).loc main_arg0))
          (Cert.Sage.lin1 (Cert.Sage.agg128 (h2 m c) (m ((c : Thread nD τ).loc main_arg1))) (h2 m c)
            (m ((c : Thread nD τ).loc main_arg9)) (m ((c : Thread nD τ).loc main_arg10)) (m ((c : Thread nD τ).loc main_arg11))) := by
  show StableHlo.after hostOps3_1 (StableHlo.after hostOps3 (W6 m ρ c)) (Proc.devRef .tc main_v57) = _
  have e0 := W6_arg0 m ρ c
  have e1 := W6_v51 m ρ c
  generalize W6 m ρ c = V at e0 e1 ⊢
  after_results_simp
  simp only [StableHlo.TRef.ofBuf, StableHlo.TRef.toBuf, cast_cast, cast_eq]
  rw [e0, e1]
  rfl
theorem W7_v50 (c : Dev nD) :
    W7 m ρ c (Proc.devRef .tc main_v50)
      = Cert.Sage.agg128 (h2 m c) (m ((c : Thread nD τ).loc main_arg1)) :=
  (keep3 m ρ c main_v50 (by decide)).trans (W6_v50 m ρ c)
theorem W8_v50 (c : Dev nD) :
    W8 m ρ c (Proc.devRef .tc main_v50)
      = Cert.Sage.agg128 (h2 m c) (m ((c : Thread nD τ).loc main_arg1)) :=
  (keep3_1 m ρ c main_v50 (by decide)).trans (W7_v50 m ρ c)
theorem W7_v38 (c : Dev nD) : W7 m ρ c (Proc.devRef .tc main_v38) = h2 m c :=
  (keep3 m ρ c main_v38 (by decide)).trans (W6_v38 m ρ c)
theorem W8_v38 (c : Dev nD) : W8 m ρ c (Proc.devRef .tc main_v38) = h2 m c :=
  (keep3_1 m ρ c main_v38 (by decide)).trans (W7_v38 m ρ c)
theorem W7_arg2 (c : Dev nD) : W7 m ρ c (Proc.devRef .tc main_arg2) = m ((c : Thread nD τ).loc main_arg2) :=
  (keep3 m ρ c main_arg2 (by decide)).trans (W6_arg2 m ρ c)
theorem W8_arg2 (c : Dev nD) : W8 m ρ c (Proc.devRef .tc main_arg2) = m ((c : Thread nD τ).loc main_arg2) :=
  (keep3_1 m ρ c main_arg2 (by decide)).trans (W7_arg2 m ρ c)
theorem W7_arg12 (c : Dev nD) : W7 m ρ c (Proc.devRef .tc main_arg12) = m ((c : Thread nD τ).loc main_arg12) :=
  (keep3 m ρ c main_arg12 (by decide)).trans (W6_arg12 m ρ c)
theorem W8_arg12 (c : Dev nD) : W8 m ρ c (Proc.devRef .tc main_arg12) = m ((c : Thread nD τ).loc main_arg12) :=
  (keep3_1 m ρ c main_arg12 (by decide)).trans (W7_arg12 m ρ c)
theorem W7_arg13 (c : Dev nD) : W7 m ρ c (Proc.devRef .tc main_arg13) = m ((c : Thread nD τ).loc main_arg13) :=
  (keep3 m ρ c main_arg13 (by decide)).trans (W6_arg13 m ρ c)
theorem W8_arg13 (c : Dev nD) : W8 m ρ c (Proc.devRef .tc main_arg13) = m ((c : Thread nD τ).loc main_arg13) :=
  (keep3_1 m ρ c main_arg13 (by decide)).trans (W7_arg13 m ρ c)
theorem W7_arg14 (c : Dev nD) : W7 m ρ c (Proc.devRef .tc main_arg14) = m ((c : Thread nD τ).loc main_arg14) :=
  (keep3 m ρ c main_arg14 (by decide)).trans (W6_arg14 m ρ c)
theorem W8_arg14 (c : Dev nD) : W8 m ρ c (Proc.devRef .tc main_arg14) = m ((c : Thread nD τ).loc main_arg14) :=
  (keep3_1 m ρ c main_arg14 (by decide)).trans (W7_arg14 m ρ c)
theorem W7_arg15 (c : Dev nD) : W7 m ρ c (Proc.devRef .tc main_arg15) = m ((c : Thread nD τ).loc main_arg15) :=
  (keep3 m ρ c main_arg15 (by decide)).trans (W6_arg15 m ρ c)
theorem W8_arg15 (c : Dev nD) : W8 m ρ c (Proc.devRef .tc main_arg15) = m ((c : Thread nD τ).loc main_arg15) :=
  (keep3_1 m ρ c main_arg15 (by decide)).trans (W7_arg15 m ρ c)
theorem W7_arg16 (c : Dev nD) : W7 m ρ c (Proc.devRef .tc main_arg16) = m ((c : Thread nD τ).loc main_arg16) :=
  (keep3 m ρ c main_arg16 (by decide)).trans (W6_arg16 m ρ c)
theorem W8_arg16 (c : Dev nD) : W8 m ρ c (Proc.devRef .tc main_arg16) = m ((c : Thread nD τ).loc main_arg16) :=
  (keep3_1 m ρ c main_arg16 (by decide)).trans (W7_arg16 m ρ c)

/-! ## Boundary 9, after the log-softmax: the actor's output -/

theorem W9_v58 (c : Dev nD) :
    W9 m ρ c (Proc.devRef .tc main_v58)
      = Cert.Sage.actorOf (m ((c : Thread nD τ).loc main_arg0)) (m ((c : Thread nD τ).loc main_arg1)) (h2 m c)
          (m ((c : Thread nD τ).loc main_arg9)) (m ((c : Thread nD τ).loc main_arg10))
          (m ((c : Thread nD τ).loc main_arg11)) := by
  show StableHlo.after hostOps3_2 (W8 m ρ c) (Proc.devRef .tc main_v58) = _
  have e0 := W8_v57 m ρ c
  generalize W8 m ρ c = V at e0 ⊢
  after_results_simp
  simp only [ofBuf_toBuf]
  rw [e0]
  rfl
theorem W9_v50 (c : Dev nD) :
    W9 m ρ c (Proc.devRef .tc main_v50)
      = Cert.Sage.agg128 (h2 m c) (m ((c : Thread nD τ).loc main_arg1)) :=
  (keep3_2 m ρ c main_v50 (by decide)).trans (W8_v50 m ρ c)
theorem W9_v38 (c : Dev nD) : W9 m ρ c (Proc.devRef .tc main_v38) = h2 m c :=
  (keep3_2 m ρ c main_v38 (by decide)).trans (W8_v38 m ρ c)
theorem W9_arg2 (c : Dev nD) : W9 m ρ c (Proc.devRef .tc main_arg2) = m ((c : Thread nD τ).loc main_arg2) :=
  (keep3_2 m ρ c main_arg2 (by decide)).trans (W8_arg2 m ρ c)
theorem W9_arg12 (c : Dev nD) : W9 m ρ c (Proc.devRef .tc main_arg12) = m ((c : Thread nD τ).loc main_arg12) :=
  (keep3_2 m ρ c main_arg12 (by decide)).trans (W8_arg12 m ρ c)
theorem W9_arg13 (c : Dev nD) : W9 m ρ c (Proc.devRef .tc main_arg13) = m ((c : Thread nD τ).loc main_arg13) :=
  (keep3_2 m ρ c main_arg13 (by decide)).trans (W8_arg13 m ρ c)
theorem W9_arg14 (c : Dev nD) : W9 m ρ c (Proc.devRef .tc main_arg14) = m ((c : Thread nD τ).loc main_arg14) :=
  (keep3_2 m ρ c main_arg14 (by decide)).trans (W8_arg14 m ρ c)
theorem W9_arg15 (c : Dev nD) : W9 m ρ c (Proc.devRef .tc main_arg15) = m ((c : Thread nD τ).loc main_arg15) :=
  (keep3_2 m ρ c main_arg15 (by decide)).trans (W8_arg15 m ρ c)
theorem W9_arg16 (c : Dev nD) : W9 m ρ c (Proc.devRef .tc main_arg16) = m ((c : Thread nD τ).loc main_arg16) :=
  (keep3_2 m ρ c main_arg16 (by decide)).trans (W8_arg16 m ρ c)

/-! ## Boundary 10, after region 3: the critic's per-node scores -/

theorem W10_v59 (c : Dev nD) :
    W10 m ρ c (Proc.devRef .tc main_v59)
      = Cert.Sage.criticLin (Cert.Sage.agg128 (h2 m c) (m ((c : Thread nD τ).loc main_arg1))) (h2 m c)
          (m ((c : Thread nD τ).loc main_arg12)) (m ((c : Thread nD τ).loc main_arg13))
          (m ((c : Thread nD τ).loc main_arg14)) (m ((c : Thread nD τ).loc main_arg15))
          (m ((c : Thread nD τ).loc main_arg16)) :=
  (W10_arr m ρ c 7).trans ((Cert.Sage.Region3.value (V9 m ρ) c).trans
    (congr7 (Cert.Sage.criticLin (F := Ideal)) (W9_v50 m ρ c) (W9_v38 m ρ c) (W9_arg12 m ρ c) (W9_arg13 m ρ c)
      (W9_arg14 m ρ c) (W9_arg15 m ρ c) (W9_arg16 m ρ c)))
theorem W10_v58 (c : Dev nD) :
    W10 m ρ c (Proc.devRef .tc main_v58)
      = Cert.Sage.actorOf (m ((c : Thread nD τ).loc main_arg0)) (m ((c : Thread nD τ).loc main_arg1)) (h2 m c)
          (m ((c : Thread nD τ).loc main_arg9)) (m ((c : Thread nD τ).loc main_arg10))
          (m ((c : Thread nD τ).loc main_arg11)) :=
  (W10_of_ne m ρ c main_v58 (by decide)).trans (W9_v58 m ρ c)
theorem W10_arg2 (c : Dev nD) : W10 m ρ c (Proc.devRef .tc main_arg2) = m ((c : Thread nD τ).loc main_arg2) :=
  (W10_of_ne m ρ c main_arg2 (by decide)).trans (W9_arg2 m ρ c)

/-! ## Boundary 11, after the last host stretch: the critic's output -/

theorem W11_v71 (c : Dev nD) :
    W11 m ρ c (Proc.devRef .tc main_v71)
      = Cert.Sage.criticOf (m ((c : Thread nD τ).loc main_arg1)) (m ((c : Thread nD τ).loc main_arg2)) (h2 m c)
          (m ((c : Thread nD τ).loc main_arg12)) (m ((c : Thread nD τ).loc main_arg13))
          (m ((c : Thread nD τ).loc main_arg14)) (m ((c : Thread nD τ).loc main_arg15))
          (m ((c : Thread nD τ).loc main_arg16)) := by
  show StableHlo.after hostOps4 (W10 m ρ c) (Proc.devRef .tc main_v71) = _
  have e0 := W10_arg2 m ρ c
  have e1 := W10_v59 m ρ c
  generalize W10 m ρ c = V at e0 e1 ⊢
  after_results_simp
  rw [e0, e1]
  rfl
theorem W11_v58 (c : Dev nD) :
    W11 m ρ c (Proc.devRef .tc main_v58)
      = Cert.Sage.actorOf (m ((c : Thread nD τ).loc main_arg0)) (m ((c : Thread nD τ).loc main_arg1)) (h2 m c)
          (m ((c : Thread nD τ).loc main_arg9)) (m ((c : Thread nD τ).loc main_arg10))
          (m ((c : Thread nD τ).loc main_arg11)) :=
  (keep4 m ρ c main_v58 (by decide)).trans (W10_v58 m ρ c)

/-! ## The two results -/

/-- The kernel program's first result is the network's actor output of the launch contents of the arguments. -/
theorem actor_eq (c : Dev nD) :
    W11 m ρ c (Proc.devRef .tc main_v58)
      = Cert.Sage.actorOf (m ((c : Thread nD τ).loc main_arg0)) (m ((c : Thread nD τ).loc main_arg1))
          (Cert.Sage.hidden2 (m ((c : Thread nD τ).loc main_arg0)) (m ((c : Thread nD τ).loc main_arg1)) (m ((c : Thread nD τ).loc main_arg3))
            (m ((c : Thread nD τ).loc main_arg4)) (m ((c : Thread nD τ).loc main_arg5)) (m ((c : Thread nD τ).loc main_arg6))
            (m ((c : Thread nD τ).loc main_arg7)) (m ((c : Thread nD τ).loc main_arg8)))
          (m ((c : Thread nD τ).loc main_arg9)) (m ((c : Thread nD τ).loc main_arg10)) (m ((c : Thread nD τ).loc main_arg11)) :=
  W11_v58 m ρ c

/-- The kernel program's second result is the network's critic output of the launch contents of the arguments. -/
theorem critic_eq (c : Dev nD) :
    W11 m ρ c (Proc.devRef .tc main_v71)
      = Cert.Sage.criticOf (m ((c : Thread nD τ).loc main_arg1)) (m ((c : Thread nD τ).loc main_arg2))
          (Cert.Sage.hidden2 (m ((c : Thread nD τ).loc main_arg0)) (m ((c : Thread nD τ).loc main_arg1)) (m ((c : Thread nD τ).loc main_arg3))
            (m ((c : Thread nD τ).loc main_arg4)) (m ((c : Thread nD τ).loc main_arg5)) (m ((c : Thread nD τ).loc main_arg6))
            (m ((c : Thread nD τ).loc main_arg7)) (m ((c : Thread nD τ).loc main_arg8)))
          (m ((c : Thread nD τ).loc main_arg12)) (m ((c : Thread nD τ).loc main_arg13)) (m ((c : Thread nD τ).loc main_arg14))
          (m ((c : Thread nD τ).loc main_arg15)) (m ((c : Thread nD τ).loc main_arg16)) :=
  W11_v71 m ρ c

end Cert.Sage.Flow

end
-- ==== Proof.RefFlow.lean ====
/-
  The reference's results as the network's functions of its arguments. Its 148 host operations are cut into eight
  stretches; after each stretch the few buffers later stretches read are named by the stage functions that state the
  network (edge sources and destinations, inverse degrees, the mask bits, the hidden layers, the heads' scores), and every
  other buffer a later stretch reads is shown untouched. The composition of the eight steps is the actor's and the
  critic's output; no term larger than one stage is ever formed.
-/
import proofs.«127485_j53523882443412_1_alg».proof.Proof.RefRun
import proofs.«127485_j53523882443412_1_alg».proof.Proof.Spec
import Idealize.ShloMosaic.Lib.StableHlo.Run

set_option maxRecDepth 16384

noncomputable section

namespace Cert.Sage.RefFlow

open Cert.ReferenceIdeal Cert.ReferenceIdeal.Gen Cert.ReferenceIdeal.RunP
open Idealize.ShloMosaic Idealize.ShloMosaic.TcCoe Idealize.SL.Sem Idealize.ShloMosaic.StableHlo

variable {F : FTy → Type} [FloatOps F]

/-! ## The eight stretches -/

/-- Stretch A of the reference's operations. -/
abbrev opsA : List (HloOp τ sig (Elt F)) :=
  [
    unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    nullary main_cst (constant S_ .f32 0x3F800000#32),
    unary main_cst main_v4 (broadcastInDim S800000 ![] bcast_S_S800000 : (⟨S_, .f32⟩ : BufTy).Contents (Elt F) → (⟨S800000, .f32⟩ : BufTy).Contents (Elt F)),
    nullary main_cst_0 (constant S_ .f32 0x00000000#32),
    unary main_cst_0 main_v5 (broadcastInDim S50000 ![] bcast_S_S50000 : (⟨S_, .f32⟩ : BufTy).Contents (Elt F) → (⟨S50000, .f32⟩ : BufTy).Contents (Elt F)),
    unary main_v3 main_v6 (broadcastInDim S800000x1 ![0] bcast_S800000_S800000x1_0 : (⟨S800000, .i32⟩ : BufTy).Contents (Elt F) → (⟨S800000x1, .i32⟩ : BufTy).Contents (Elt F)),
    ternary main_v5 main_v6 main_v4 main_v7 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_1 (constant S_ .f32 0x3F800000#32),
    unary main_cst_1 main_v8 (broadcastInDim S50000 ![] bcast_S_S50000 : (⟨S_, .f32⟩ : BufTy).Contents (Elt F) → (⟨S50000, .f32⟩ : BufTy).Contents (Elt F)),
    binary main_v7 main_v8 main_v9 (maximumf : (⟨S50000, .f32⟩ : BufTy).Contents (Elt F) → (⟨S50000, .f32⟩ : BufTy).Contents (Elt F) → (⟨S50000, .f32⟩ : BufTy).Contents (Elt F)),
    nullary main_cst_2 (constant S_ .f32 0x3F800000#32),
    unary main_cst_2 main_v10 (broadcastInDim S50000 ![] bcast_S_S50000 : (⟨S_, .f32⟩ : BufTy).Contents (Elt F) → (⟨S50000, .f32⟩ : BufTy).Contents (Elt F)),
    binary main_v10 main_v9 main_v11 (Host.divf : (⟨S50000, .f32⟩ : BufTy).Contents (Elt F) → (⟨S50000, .f32⟩ : BufTy).Contents (Elt F) → (⟨S50000, .f32⟩ : BufTy).Contents (Elt F)),
    unary main_v11 main_v12 (broadcastInDim S50000x1 ![0] bcast_S50000_S50000x1_0 : (⟨S50000, .f32⟩ : BufTy).Contents (Elt F) → (⟨S50000x1, .f32⟩ : BufTy).Contents (Elt F)),
    unary main_arg0 main_v13 ((extractStridedSlice S50000x1 ![0, 2] · slices_S50000x5_S50000x1_0_2) : (⟨S50000x5, .f32⟩ : BufTy).Contents (Elt F) → (⟨S50000x1, .f32⟩ : BufTy).Contents (Elt F)),
    reshape main_v13 main_v14 rfl shapeCasts_S50000x1_S50000,
    nullary main_cst_3 (constant S_ .f32 0x00000000#32),
    unary main_cst_3 main_v15 (broadcastInDim S50000 ![] bcast_S_S50000 : (⟨S_, .f32⟩ : BufTy).Contents (Elt F) → (⟨S50000, .f32⟩ : BufTy).Contents (Elt F)),
    binary main_v14 main_v15 main_v16 (cmpf .une : (⟨S50000, .f32⟩ : BufTy).Contents (Elt F) → (⟨S50000, .f32⟩ : BufTy).Contents (Elt F) → (⟨S50000, .i1⟩ : BufTy).Contents (Elt F)) ]

/-- Stretch B of the reference's operations. -/
abbrev opsB : List (HloOp τ sig (Elt F)) :=
  [
    nullary main_c (constantI S_ 32 0#32),
    unary main_c main_v17 (broadcastInDim S800000 ![] bcast_S_S800000 : (⟨S_, .i32⟩ : BufTy).Contents (Elt F) → (⟨S800000, .i32⟩ : BufTy).Contents (Elt F)),
    binary main_v1 main_v17 main_v18 (cmpi .slt : (⟨S800000, .i32⟩ : BufTy).Contents (Elt F) → (⟨S800000, .i32⟩ : BufTy).Contents (Elt F) → (⟨S800000, .i1⟩ : BufTy).Contents (Elt F)),
    nullary main_c_4 (constantI S_ 32 50000#32),
    unary main_c_4 main_v19 (broadcastInDim S800000 ![] bcast_S_S800000 : (⟨S_, .i32⟩ : BufTy).Contents (Elt F) → (⟨S800000, .i32⟩ : BufTy).Contents (Elt F)),
    binary main_v1 main_v19 main_v20 (addi : (⟨S800000, .i32⟩ : BufTy).Contents (Elt F) → (⟨S800000, .i32⟩ : BufTy).Contents (Elt F) → (⟨S800000, .i32⟩ : BufTy).Contents (Elt F)),
    ternary main_v18 main_v20 main_v1 main_v21 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v21 main_v22 (broadcastInDim S800000x1 ![0] bcast_S800000_S800000x1_0 : (⟨S800000, .i32⟩ : BufTy).Contents (Elt F) → (⟨S800000x1, .i32⟩ : BufTy).Contents (Elt F)),
    binary main_arg0 main_v22 main_v23 ((fun x i => Host.gather gather_S50000x5_S800000x1_S800000x5_1_0_n_n_0_1_15 x i) : (⟨S50000x5, .f32⟩ : BufTy).Contents (Elt F) → (⟨S800000x1, .i32⟩ : BufTy).Contents (Elt F) → (⟨S800000x5, .f32⟩ : BufTy).Contents (Elt F)),
    nullary main_cst_5 (constant S_ .f32 0x00000000#32),
    unary main_cst_5 main_v24 (broadcastInDim S50000x5 ![] bcast_S_S50000x5 : (⟨S_, .f32⟩ : BufTy).Contents (Elt F) → (⟨S50000x5, .f32⟩ : BufTy).Contents (Elt F)),
    unary main_v3 main_v25 (broadcastInDim S800000x1 ![0] bcast_S800000_S800000x1_0 : (⟨S800000, .i32⟩ : BufTy).Contents (Elt F) → (⟨S800000x1, .i32⟩ : BufTy).Contents (Elt F)),
    ternary main_v24 main_v25 main_v23 main_v26 ((fun x i u => Host.scatterAdd scatter_S50000x5_S800000x1_S800000x5_1_0_0_1 x i u) : (⟨S50000x5, .f32⟩ : BufTy).Contents (Elt F) → (⟨S800000x1, .i32⟩ : BufTy).Contents (Elt F) → (⟨S800000x5, .f32⟩ : BufTy).Contents (Elt F) → (⟨S50000x5, .f32⟩ : BufTy).Contents (Elt F)),
    unary main_v12 main_v27 (broadcastInDim S50000x5 ![0, 1] bcast_S50000x1_S50000x5_0_1 : (⟨S50000x1, .f32⟩ : BufTy).Contents (Elt F) → (⟨S50000x5, .f32⟩ : BufTy).Contents (Elt F)),
    binary main_v26 main_v27 main_v28 (mulf : (⟨S50000x5, .f32⟩ : BufTy).Contents (Elt F) → (⟨S50000x5, .f32⟩ : BufTy).Contents (Elt F) → (⟨S50000x5, .f32⟩ : BufTy).Contents (Elt F)),
    binary main_v28 main_arg3 main_v29 ((fun l r => Host.dotGeneral dot_S50000x5_S5x128_S50000x128_1_0_0_1_n_n none l r) : (⟨S50000x5, .f32⟩ : BufTy).Contents (Elt F) → (⟨S5x128, .f32⟩ : BufTy).Contents (Elt F) → (⟨S50000x128, .f32⟩ : BufTy).Contents (Elt F)),
    unary main_arg4 main_v30 (broadcastInDim S1x128 ![1] bcast_S128_S1x128_1 : (⟨S128, .f32⟩ : BufTy).Contents (Elt F) → (⟨S1x128, .f32⟩ : BufTy).Contents (Elt F)),
    unary main_v30 main_v31 (broadcastInDim S50000x128 ![0, 1] bcast_S1x128_S50000x128_0_1 : (⟨S1x128, .f32⟩ : BufTy).Contents (Elt F) → (⟨S50000x128, .f32⟩ : BufTy).Contents (Elt F)),
    binary main_v29 main_v31 main_v32 (addf : (⟨S50000x128, .f32⟩ : BufTy).Contents (Elt F) → (⟨S50000x128, .f32⟩ : BufTy).Contents (Elt F) → (⟨S50000x128, .f32⟩ : BufTy).Contents (Elt F)),
    binary main_arg0 main_arg5 main_v33 ((fun l r => Host.dotGeneral dot_S50000x5_S5x128_S50000x128_1_0_0_1_n_n none l r) : (⟨S50000x5, .f32⟩ : BufTy).Contents (Elt F) → (⟨S5x128, .f32⟩ : BufTy).Contents (Elt F) → (⟨S50000x128, .f32⟩ : BufTy).Contents (Elt F)),
    binary main_v32 main_v33 main_v34 (addf : (⟨S50000x128, .f32⟩ : BufTy).Contents (Elt F) → (⟨S50000x128, .f32⟩ : BufTy).Contents (Elt F) → (⟨S50000x128, .f32⟩ : BufTy).Contents (Elt F)),
    unary main_v34 main_v35 (Host.tanh : (⟨S50000x128, .f32⟩ : BufTy).Contents (Elt F) → (⟨S50000x128, .f32⟩ : BufTy).Contents (Elt F)) ]

/-- Stretch C of the reference's operations. -/
abbrev opsC : List (HloOp τ sig (Elt F)) :=
  [
    nullary main_c_6 (constantI S_ 32 0#32),
    unary main_c_6 main_v36 (broadcastInDim S800000 ![] bcast_S_S800000 : (⟨S_, .i32⟩ : BufTy).Contents (Elt F) → (⟨S800000, .i32⟩ : BufTy).Contents (Elt F)),
    binary main_v1 main_v36 main_v37 (cmpi .slt : (⟨S800000, .i32⟩ : BufTy).Contents (Elt F) → (⟨S800000, .i32⟩ : BufTy).Contents (Elt F) → (⟨S800000, .i1⟩ : BufTy).Contents (Elt F)),
    nullary main_c_7 (constantI S_ 32 50000#32),
    unary main_c_7 main_v38 (broadcastInDim S800000 ![] bcast_S_S800000 : (⟨S_, .i32⟩ : BufTy).Contents (Elt F) → (⟨S800000, .i32⟩ : BufTy).Contents (Elt F)),
    binary main_v1 main_v38 main_v39 (addi : (⟨S800000, .i32⟩ : BufTy).Contents (Elt F) → (⟨S800000, .i32⟩ : BufTy).Contents (Elt F) → (⟨S800000, .i32⟩ : BufTy).Contents (Elt F)),
    ternary main_v37 main_v39 main_v1 main_v40 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v40 main_v41 (broadcastInDim S800000x1 ![0] bcast_S800000_S800000x1_0 : (⟨S800000, .i32⟩ : BufTy).Contents (Elt F) → (⟨S800000x1, .i32⟩ : BufTy).Contents (Elt F)),
    binary main_v35 main_v41 main_v42 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst_8 (constant S_ .f32 0x00000000#32),
    unary main_cst_8 main_v43 (broadcastInDim S50000x128 ![] bcast_S_S50000x128 : (⟨S_, .f32⟩ : BufTy).Contents (Elt F) → (⟨S50000x128, .f32⟩ : BufTy).Contents (Elt F)),
    unary main_v3 main_v44 (broadcastInDim S800000x1 ![0] bcast_S800000_S800000x1_0 : (⟨S800000, .i32⟩ : BufTy).Contents (Elt F) → (⟨S800000x1, .i32⟩ : BufTy).Contents (Elt F)),
    ternary main_v43 main_v44 main_v42 main_v45 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    unary main_v12 main_v46 (broadcastInDim S50000x128 ![0, 1] bcast_S50000x1_S50000x128_0_1 : (⟨S50000x1, .f32⟩ : BufTy).Contents (Elt F) → (⟨S50000x128, .f32⟩ : BufTy).Contents (Elt F)),
    binary main_v45 main_v46 main_v47 (mulf : (⟨S50000x128, .f32⟩ : BufTy).Contents (Elt F) → (⟨S50000x128, .f32⟩ : BufTy).Contents (Elt F) → (⟨S50000x128, .f32⟩ : BufTy).Contents (Elt F)),
    binary main_v47 main_arg6 main_v48 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg7 main_v49 (broadcastInDim S1x128 ![1] bcast_S128_S1x128_1 : (⟨S128, .f32⟩ : BufTy).Contents (Elt F) → (⟨S1x128, .f32⟩ : BufTy).Contents (Elt F)),
    unary main_v49 main_v50 (broadcastInDim S50000x128 ![0, 1] bcast_S1x128_S50000x128_0_1 : (⟨S1x128, .f32⟩ : BufTy).Contents (Elt F) → (⟨S50000x128, .f32⟩ : BufTy).Contents (Elt F)),
    binary main_v48 main_v50 main_v51 (addf : (⟨S50000x128, .f32⟩ : BufTy).Contents (Elt F) → (⟨S50000x128, .f32⟩ : BufTy).Contents (Elt F) → (⟨S50000x128, .f32⟩ : BufTy).Contents (Elt F)),
    binary main_v35 main_arg8 main_v52 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v51 main_v52 main_v53 (addf : (⟨S50000x128, .f32⟩ : BufTy).Contents (Elt F) → (⟨S50000x128, .f32⟩ : BufTy).Contents (Elt F) → (⟨S50000x128, .f32⟩ : BufTy).Contents (Elt F)),
    unary main_v53 main_v54 (Host.tanh : (⟨S50000x128, .f32⟩ : BufTy).Contents (Elt F) → (⟨S50000x128, .f32⟩ : BufTy).Contents (Elt F)) ]

/-- Stretch D of the reference's operations. -/
abbrev opsD : List (HloOp τ sig (Elt F)) :=
  [
    nullary main_c_9 (constantI S_ 32 0#32),
    unary main_c_9 main_v55 (broadcastInDim S800000 ![] bcast_S_S800000 : (⟨S_, .i32⟩ : BufTy).Contents (Elt F) → (⟨S800000, .i32⟩ : BufTy).Contents (Elt F)),
    binary main_v1 main_v55 main_v56 (cmpi .slt : (⟨S800000, .i32⟩ : BufTy).Contents (Elt F) → (⟨S800000, .i32⟩ : BufTy).Contents (Elt F) → (⟨S800000, .i1⟩ : BufTy).Contents (Elt F)),
    nullary main_c_10 (constantI S_ 32 50000#32),
    unary main_c_10 main_v57 (broadcastInDim S800000 ![] bcast_S_S800000 : (⟨S_, .i32⟩ : BufTy).Contents (Elt F) → (⟨S800000, .i32⟩ : BufTy).Contents (Elt F)),
    binary main_v1 main_v57 main_v58 (addi : (⟨S800000, .i32⟩ : BufTy).Contents (Elt F) → (⟨S800000, .i32⟩ : BufTy).Contents (Elt F) → (⟨S800000, .i32⟩ : BufTy).Contents (Elt F)),
    ternary main_v56 main_v58 main_v1 main_v59 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v59 main_v60 (broadcastInDim S800000x1 ![0] bcast_S800000_S800000x1_0 : (⟨S800000, .i32⟩ : BufTy).Contents (Elt F) → (⟨S800000x1, .i32⟩ : BufTy).Contents (Elt F)),
    binary main_v54 main_v60 main_v61 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst_11 (constant S_ .f32 0x00000000#32),
    unary main_cst_11 main_v62 (broadcastInDim S50000x128 ![] bcast_S_S50000x128 : (⟨S_, .f32⟩ : BufTy).Contents (Elt F) → (⟨S50000x128, .f32⟩ : BufTy).Contents (Elt F)),
    unary main_v3 main_v63 (broadcastInDim S800000x1 ![0] bcast_S800000_S800000x1_0 : (⟨S800000, .i32⟩ : BufTy).Contents (Elt F) → (⟨S800000x1, .i32⟩ : BufTy).Contents (Elt F)),
    ternary main_v62 main_v63 main_v61 main_v64 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    unary main_v12 main_v65 (broadcastInDim S50000x128 ![0, 1] bcast_S50000x1_S50000x128_0_1 : (⟨S50000x1, .f32⟩ : BufTy).Contents (Elt F) → (⟨S50000x128, .f32⟩ : BufTy).Contents (Elt F)),
    binary main_v64 main_v65 main_v66 (mulf : (⟨S50000x128, .f32⟩ : BufTy).Contents (Elt F) → (⟨S50000x128, .f32⟩ : BufTy).Contents (Elt F) → (⟨S50000x128, .f32⟩ : BufTy).Contents (Elt F)),
    binary main_v66 main_arg9 main_v67 ((fun l r => Host.dotGeneral dot_S50000x128_S128x1_S50000x1_1_0_0_1_n_n none l r) : (⟨S50000x128, .f32⟩ : BufTy).Contents (Elt F) → (⟨S128x1, .f32⟩ : BufTy).Contents (Elt F) → (⟨S50000x1, .f32⟩ : BufTy).Contents (Elt F)),
    unary main_arg10 main_v68 (broadcastInDim S1x1 ![1] bcast_S1_S1x1_1 : (⟨S1, .f32⟩ : BufTy).Contents (Elt F) → (⟨S1x1, .f32⟩ : BufTy).Contents (Elt F)),
    unary main_v68 main_v69 (broadcastInDim S50000x1 ![0, 1] bcast_S1x1_S50000x1_0_1 : (⟨S1x1, .f32⟩ : BufTy).Contents (Elt F) → (⟨S50000x1, .f32⟩ : BufTy).Contents (Elt F)),
    binary main_v67 main_v69 main_v70 (addf : (⟨S50000x1, .f32⟩ : BufTy).Contents (Elt F) → (⟨S50000x1, .f32⟩ : BufTy).Contents (Elt F) → (⟨S50000x1, .f32⟩ : BufTy).Contents (Elt F)),
    binary main_v54 main_arg11 main_v71 ((fun l r => Host.dotGeneral dot_S50000x128_S128x1_S50000x1_1_0_0_1_n_n none l r) : (⟨S50000x128, .f32⟩ : BufTy).Contents (Elt F) → (⟨S128x1, .f32⟩ : BufTy).Contents (Elt F) → (⟨S50000x1, .f32⟩ : BufTy).Contents (Elt F)),
    binary main_v70 main_v71 main_v72 (addf : (⟨S50000x1, .f32⟩ : BufTy).Contents (Elt F) → (⟨S50000x1, .f32⟩ : BufTy).Contents (Elt F) → (⟨S50000x1, .f32⟩ : BufTy).Contents (Elt F)) ]

/-- Stretch E of the reference's operations. -/
abbrev opsE : List (HloOp τ sig (Elt F)) :=
  [
    unary main_v16 main_v73 (broadcastInDim S50000x1 ![0] bcast_S50000_S50000x1_0 : (⟨S50000, .i1⟩ : BufTy).Contents (Elt F) → (⟨S50000x1, .i1⟩ : BufTy).Contents (Elt F)),
    nullary main_cst_12 (constant S_ .f32 0xFF800000#32),
    TRef.unary (TRef.of (T := ⟨S_, .f32⟩) main_cst_12) (TRef.of (T := ⟨S_, .f32⟩) main_call0_v0) id,
    TRef.unary (TRef.of (T := ⟨S_, .f32⟩) main_call0_v0) (TRef.of (T := ⟨S50000x1, .f32⟩) main_call0_v1) (broadcastInDim S50000x1 ![] bcast_S_S50000x1),
    TRef.ternary (TRef.of (T := ⟨S50000x1, .i1⟩) main_v73) (TRef.of (T := ⟨S50000x1, .f32⟩) main_call0_v1) (TRef.of (T := ⟨S50000x1, .f32⟩) main_v72) (TRef.of (T := ⟨S50000x1, .f32⟩) main_v74) select ]

/-- Stretch J of the reference's operations. -/
abbrev opsJ : List (HloOp τ sig (Elt F)) :=
  [
    TRef.nullary (TRef.of (T := ⟨S_, .f32⟩) main_call1_cst) (constant S_ .f32 0xFF800000#32),
    TRef.binary (TRef.of (T := ⟨S50000x1, .f32⟩) main_v74) (TRef.of (T := ⟨S_, .f32⟩) main_call1_cst) (TRef.of (T := ⟨S1, .f32⟩) main_call1_v0) (fun x v => Host.reduce FloatOps.maximumf x v reducesTo_S50000x1_S1_d0 h_S_),
    TRef.nullary (TRef.of (T := ⟨S_, .f32⟩) main_call1_cst_0) (constant S_ .f32 0xFF800000#32),
    TRef.unary (TRef.of (T := ⟨S_, .f32⟩) main_call1_cst_0) (TRef.of (T := ⟨S1, .f32⟩) main_call1_v1) (broadcastInDim S1 ![] bcast_S_S1),
    TRef.binary (TRef.of (T := ⟨S1, .f32⟩) main_call1_v1) (TRef.of (T := ⟨S1, .f32⟩) main_call1_v0) (TRef.of (T := ⟨S1, .f32⟩) main_call1_v2) maximumf,
    TRef.unary (TRef.of (T := ⟨S1, .f32⟩) main_call1_v2) (TRef.of (T := ⟨S1x1, .f32⟩) main_call1_v3) (broadcastInDim S1x1 ![1] bcast_S1_S1x1_1),
    TRef.unary (TRef.of (T := ⟨S1x1, .f32⟩) main_call1_v3) (TRef.of (T := ⟨S50000x1, .f32⟩) main_call1_v4) (broadcastInDim S50000x1 ![0, 1] bcast_S1x1_S50000x1_0_1),
    TRef.binary (TRef.of (T := ⟨S50000x1, .f32⟩) main_v74) (TRef.of (T := ⟨S50000x1, .f32⟩) main_call1_v4) (TRef.of (T := ⟨S50000x1, .f32⟩) main_call1_v5) subf,
    TRef.unary (TRef.of (T := ⟨S50000x1, .f32⟩) main_call1_v5) (TRef.of (T := ⟨S50000x1, .f32⟩) main_call1_v6) Host.exp,
    TRef.nullary (TRef.of (T := ⟨S_, .f32⟩) main_call1_cst_1) (constant S_ .f32 0x00000000#32),
    TRef.binary (TRef.of (T := ⟨S50000x1, .f32⟩) main_call1_v6) (TRef.of (T := ⟨S_, .f32⟩) main_call1_cst_1) (TRef.of (T := ⟨S1, .f32⟩) main_call1_v7) (fun x v => Host.reduceAdd x v reducesTo_S50000x1_S1_d0 h_S_),
    TRef.unary (TRef.of (T := ⟨S1, .f32⟩) main_call1_v7) (TRef.of (T := ⟨S1x1, .f32⟩) main_call1_v8) (broadcastInDim S1x1 ![1] bcast_S1_S1x1_1),
    TRef.unary (TRef.of (T := ⟨S1x1, .f32⟩) main_call1_v8) (TRef.of (T := ⟨S1x1, .f32⟩) main_call1_v9) Host.log,
    TRef.unary (TRef.of (T := ⟨S1x1, .f32⟩) main_call1_v9) (TRef.of (T := ⟨S50000x1, .f32⟩) main_call1_v10) (broadcastInDim S50000x1 ![0, 1] bcast_S1x1_S50000x1_0_1),
    TRef.binary (TRef.of (T := ⟨S50000x1, .f32⟩) main_call1_v5) (TRef.of (T := ⟨S50000x1, .f32⟩) main_call1_v10) (TRef.of (T := ⟨S50000x1, .f32⟩) main_v75) subf ]

/-- Stretch G of the reference's operations. -/
abbrev opsG : List (HloOp τ sig (Elt F)) :=
  [
    nullary main_c_13 (constantI S_ 32 0#32),
    unary main_c_13 main_v76 (broadcastInDim S800000 ![] bcast_S_S800000 : (⟨S_, .i32⟩ : BufTy).Contents (Elt F) → (⟨S800000, .i32⟩ : BufTy).Contents (Elt F)),
    binary main_v1 main_v76 main_v77 (cmpi .slt : (⟨S800000, .i32⟩ : BufTy).Contents (Elt F) → (⟨S800000, .i32⟩ : BufTy).Contents (Elt F) → (⟨S800000, .i1⟩ : BufTy).Contents (Elt F)),
    nullary main_c_14 (constantI S_ 32 50000#32),
    unary main_c_14 main_v78 (broadcastInDim S800000 ![] bcast_S_S800000 : (⟨S_, .i32⟩ : BufTy).Contents (Elt F) → (⟨S800000, .i32⟩ : BufTy).Contents (Elt F)),
    binary main_v1 main_v78 main_v79 (addi : (⟨S800000, .i32⟩ : BufTy).Contents (Elt F) → (⟨S800000, .i32⟩ : BufTy).Contents (Elt F) → (⟨S800000, .i32⟩ : BufTy).Contents (Elt F)),
    ternary main_v77 main_v79 main_v1 main_v80 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v80 main_v81 (broadcastInDim S800000x1 ![0] bcast_S800000_S800000x1_0 : (⟨S800000, .i32⟩ : BufTy).Contents (Elt F) → (⟨S800000x1, .i32⟩ : BufTy).Contents (Elt F)),
    binary main_v54 main_v81 main_v82 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst_15 (constant S_ .f32 0x00000000#32),
    unary main_cst_15 main_v83 (broadcastInDim S50000x128 ![] bcast_S_S50000x128 : (⟨S_, .f32⟩ : BufTy).Contents (Elt F) → (⟨S50000x128, .f32⟩ : BufTy).Contents (Elt F)),
    unary main_v3 main_v84 (broadcastInDim S800000x1 ![0] bcast_S800000_S800000x1_0 : (⟨S800000, .i32⟩ : BufTy).Contents (Elt F) → (⟨S800000x1, .i32⟩ : BufTy).Contents (Elt F)),
    ternary main_v83 main_v84 main_v82 main_v85 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    unary main_v12 main_v86 (broadcastInDim S50000x128 ![0, 1] bcast_S50000x1_S50000x128_0_1 : (⟨S50000x1, .f32⟩ : BufTy).Contents (Elt F) → (⟨S50000x128, .f32⟩ : BufTy).Contents (Elt F)),
    binary main_v85 main_v86 main_v87 (mulf : (⟨S50000x128, .f32⟩ : BufTy).Contents (Elt F) → (⟨S50000x128, .f32⟩ : BufTy).Contents (Elt F) → (⟨S50000x128, .f32⟩ : BufTy).Contents (Elt F)),
    binary main_v87 main_arg12 main_v88 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg13 main_v89 (broadcastInDim S1x128 ![1] bcast_S128_S1x128_1 : (⟨S128, .f32⟩ : BufTy).Contents (Elt F) → (⟨S1x128, .f32⟩ : BufTy).Contents (Elt F)),
    unary main_v89 main_v90 (broadcastInDim S50000x128 ![0, 1] bcast_S1x128_S50000x128_0_1 : (⟨S1x128, .f32⟩ : BufTy).Contents (Elt F) → (⟨S50000x128, .f32⟩ : BufTy).Contents (Elt F)),
    binary main_v88 main_v90 main_v91 (addf : (⟨S50000x128, .f32⟩ : BufTy).Contents (Elt F) → (⟨S50000x128, .f32⟩ : BufTy).Contents (Elt F) → (⟨S50000x128, .f32⟩ : BufTy).Contents (Elt F)),
    binary main_v54 main_arg14 main_v92 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v91 main_v92 main_v93 (addf : (⟨S50000x128, .f32⟩ : BufTy).Contents (Elt F) → (⟨S50000x128, .f32⟩ : BufTy).Contents (Elt F) → (⟨S50000x128, .f32⟩ : BufTy).Contents (Elt F)),
    binary main_v93 main_arg15 main_v94 ((fun l r => Host.dotGeneral dot_S50000x128_S128x1_S50000x1_1_0_0_1_n_n none l r) : (⟨S50000x128, .f32⟩ : BufTy).Contents (Elt F) → (⟨S128x1, .f32⟩ : BufTy).Contents (Elt F) → (⟨S50000x1, .f32⟩ : BufTy).Contents (Elt F)),
    unary main_arg16 main_v95 (broadcastInDim S1x1 ![1] bcast_S1_S1x1_1 : (⟨S1, .f32⟩ : BufTy).Contents (Elt F) → (⟨S1x1, .f32⟩ : BufTy).Contents (Elt F)),
    unary main_v95 main_v96 (broadcastInDim S50000x1 ![0, 1] bcast_S1x1_S50000x1_0_1 : (⟨S1x1, .f32⟩ : BufTy).Contents (Elt F) → (⟨S50000x1, .f32⟩ : BufTy).Contents (Elt F)),
    binary main_v94 main_v96 main_v97 (addf : (⟨S50000x1, .f32⟩ : BufTy).Contents (Elt F) → (⟨S50000x1, .f32⟩ : BufTy).Contents (Elt F) → (⟨S50000x1, .f32⟩ : BufTy).Contents (Elt F)) ]

/-- Stretch H of the reference's operations. -/
abbrev opsH : List (HloOp τ sig (Elt F)) :=
  [
    nullary main_cst_16 (constant S_ .f32 0x00000000#32),
    unary main_cst_16 main_v98 (broadcastInDim S1x1 ![] bcast_S_S1x1 : (⟨S_, .f32⟩ : BufTy).Contents (Elt F) → (⟨S1x1, .f32⟩ : BufTy).Contents (Elt F)),
    unary main_arg2 main_v99 (broadcastInDim S50000x1 ![0] bcast_S50000_S50000x1_0 : (⟨S50000, .i32⟩ : BufTy).Contents (Elt F) → (⟨S50000x1, .i32⟩ : BufTy).Contents (Elt F)),
    ternary main_v98 main_v99 main_v97 main_v100 ((fun x i u => Host.scatterAdd scatter_S1x1_S50000x1_S50000x1_1_0_0_1 x i u) : (⟨S1x1, .f32⟩ : BufTy).Contents (Elt F) → (⟨S50000x1, .i32⟩ : BufTy).Contents (Elt F) → (⟨S50000x1, .f32⟩ : BufTy).Contents (Elt F) → (⟨S1x1, .f32⟩ : BufTy).Contents (Elt F)),
    nullary main_cst_17 (constant S_ .f32 0x3F800000#32),
    unary main_cst_17 main_v101 (broadcastInDim S50000 ![] bcast_S_S50000 : (⟨S_, .f32⟩ : BufTy).Contents (Elt F) → (⟨S50000, .f32⟩ : BufTy).Contents (Elt F)),
    nullary main_cst_18 (constant S_ .f32 0x00000000#32),
    unary main_cst_18 main_v102 (broadcastInDim S1 ![] bcast_S_S1 : (⟨S_, .f32⟩ : BufTy).Contents (Elt F) → (⟨S1, .f32⟩ : BufTy).Contents (Elt F)),
    unary main_arg2 main_v103 (broadcastInDim S50000x1 ![0] bcast_S50000_S50000x1_0 : (⟨S50000, .i32⟩ : BufTy).Contents (Elt F) → (⟨S50000x1, .i32⟩ : BufTy).Contents (Elt F)),
    ternary main_v102 main_v103 main_v101 main_v104 ((fun x i u => Host.scatterAdd scatter_S1_S50000x1_S50000_n_0_0_1 x i u) : (⟨S1, .f32⟩ : BufTy).Contents (Elt F) → (⟨S50000x1, .i32⟩ : BufTy).Contents (Elt F) → (⟨S50000, .f32⟩ : BufTy).Contents (Elt F) → (⟨S1, .f32⟩ : BufTy).Contents (Elt F)),
    nullary main_cst_19 (constant S_ .f32 0x3F800000#32),
    unary main_cst_19 main_v105 (broadcastInDim S1 ![] bcast_S_S1 : (⟨S_, .f32⟩ : BufTy).Contents (Elt F) → (⟨S1, .f32⟩ : BufTy).Contents (Elt F)),
    binary main_v104 main_v105 main_v106 (maximumf : (⟨S1, .f32⟩ : BufTy).Contents (Elt F) → (⟨S1, .f32⟩ : BufTy).Contents (Elt F) → (⟨S1, .f32⟩ : BufTy).Contents (Elt F)),
    unary main_v106 main_v107 (broadcastInDim S1x1 ![0] bcast_S1_S1x1_0 : (⟨S1, .f32⟩ : BufTy).Contents (Elt F) → (⟨S1x1, .f32⟩ : BufTy).Contents (Elt F)),
    binary main_v100 main_v107 main_v108 (Host.divf : (⟨S1x1, .f32⟩ : BufTy).Contents (Elt F) → (⟨S1x1, .f32⟩ : BufTy).Contents (Elt F) → (⟨S1x1, .f32⟩ : BufTy).Contents (Elt F)),
    unary main_v108 main_v109 (Host.tanh : (⟨S1x1, .f32⟩ : BufTy).Contents (Elt F) → (⟨S1x1, .f32⟩ : BufTy).Contents (Elt F)) ]

/-- The reference's operations are the eight stretches in order. -/
theorem ops_split : (ops (F := F)) = opsA ++ (opsB ++ (opsC ++ (opsD ++ (opsE ++ (opsJ ++ (opsG ++ opsH)))))) := rfl

/-- The fold of the results over a concatenation is the fold over the second part of the fold over the first. -/
theorem after_append (l1 l2 : List (HloOp τ sig (Elt F))) (V : Valuation τ sig (Elt F)) :
    after (l1 ++ l2) V = after l2 (after l1 V) := by
  induction l1 generalizing V with
  | nil => rfl
  | cons op l ih => exact ih _

/-! ## Each stretch, from any contents `W` -/

section Stretch
variable (W : Valuation τ sig (Elt F))

theorem A_v1 : after (opsA (F := F)) W (Proc.devRef .tc main_v1) = Cert.Sage.src (W (Proc.devRef .tc main_arg1)) := by
  after_results_simp; rfl
theorem A_v3 : after (opsA (F := F)) W (Proc.devRef .tc main_v3) = Cert.Sage.dst (W (Proc.devRef .tc main_arg1)) := by
  after_results_simp; rfl
theorem A_v12 : after (opsA (F := F)) W (Proc.devRef .tc main_v12) = Cert.Sage.invDeg (W (Proc.devRef .tc main_arg1)) := by
  after_results_simp; rfl
theorem A_v16 : after (opsA (F := F)) W (Proc.devRef .tc main_v16) = (cmpf .une (shapeCast S50000 (extractStridedSlice S50000x1 ![0, 2] (W (Proc.devRef .tc main_arg0)) slices_S50000x5_S50000x1_0_2) shapeCasts_S50000x1_S50000) (broadcastInDim S50000 ![] bcast_S_S50000 (constant S_ .f32 0x00000000#32))) := by
  after_results_simp; rfl

set_option maxHeartbeats 8000000 in
theorem B_v35 (x : Vec F S50000x5 .f32) (e : Vec F S2x800000 .i32) (Wl : Vec F S5x128 .f32) (bl : Vec F S128 .f32) (Wr : Vec F S5x128 .f32)
    (h1 : W (Proc.devRef .tc main_v1) = Cert.Sage.src e) (h3 : W (Proc.devRef .tc main_v3) = Cert.Sage.dst e) (h12 : W (Proc.devRef .tc main_v12) = Cert.Sage.invDeg e)
    (h0 : W (Proc.devRef .tc main_arg0) = x) (ha3 : W (Proc.devRef .tc main_arg3) = Wl) (ha4 : W (Proc.devRef .tc main_arg4) = bl) (ha5 : W (Proc.devRef .tc main_arg5) = Wr) :
    after (opsB (F := F)) W (Proc.devRef .tc main_v35) = Cert.Sage.hidden1 x e Wl bl Wr := by
  after_results_simp
  rw [h1, h3, h12, h0, ha3, ha4, ha5]
  rfl

set_option maxHeartbeats 8000000 in
theorem C_v54 (h : Vec F S50000x128 .f32) (e : Vec F S2x800000 .i32) (Wl : Vec F S128x128 .f32) (bl : Vec F S128 .f32) (Wr : Vec F S128x128 .f32)
    (h1 : W (Proc.devRef .tc main_v1) = Cert.Sage.src e) (h3 : W (Proc.devRef .tc main_v3) = Cert.Sage.dst e) (h12 : W (Proc.devRef .tc main_v12) = Cert.Sage.invDeg e)
    (h35 : W (Proc.devRef .tc main_v35) = h) (ha6 : W (Proc.devRef .tc main_arg6) = Wl) (ha7 : W (Proc.devRef .tc main_arg7) = bl) (ha8 : W (Proc.devRef .tc main_arg8) = Wr) :
    after (opsC (F := F)) W (Proc.devRef .tc main_v54) = Cert.Sage.layer2 (Cert.Sage.agg128 h e) h Wl bl Wr := by
  after_results_simp
  rw [h1, h3, h12, h35, ha6, ha7, ha8]
  rfl

set_option maxHeartbeats 8000000 in
theorem D_v72 (h : Vec F S50000x128 .f32) (e : Vec F S2x800000 .i32) (Wl : Vec F S128x1 .f32) (bl : Vec F S1 .f32) (Wr : Vec F S128x1 .f32)
    (h1 : W (Proc.devRef .tc main_v1) = Cert.Sage.src e) (h3 : W (Proc.devRef .tc main_v3) = Cert.Sage.dst e) (h12 : W (Proc.devRef .tc main_v12) = Cert.Sage.invDeg e)
    (h54 : W (Proc.devRef .tc main_v54) = h) (ha9 : W (Proc.devRef .tc main_arg9) = Wl) (ha10 : W (Proc.devRef .tc main_arg10) = bl) (ha11 : W (Proc.devRef .tc main_arg11) = Wr) :
    after (opsD (F := F)) W (Proc.devRef .tc main_v72) = Cert.Sage.lin1 (Cert.Sage.agg128 h e) h Wl bl Wr := by
  after_results_simp
  rw [h1, h3, h12, h54, ha9, ha10, ha11]
  rfl

/-- Contents moved to a typed reference's buffer type and back are unchanged. -/
theorem ofBuf_toBuf {T : BufTy} (x : StableHlo.TRef sig T) (v : T.Contents (Elt F)) : x.ofBuf (x.toBuf v) = v := by
  obtain ⟨r, rfl, h₁, h₂⟩ := x
  rfl

set_option maxHeartbeats 8000000 in
theorem E_v74 (x : Vec F S50000x5 .f32) (act : Vec F S50000x1 .f32)
    (h16 : W (Proc.devRef .tc main_v16) = (cmpf .une (shapeCast S50000 (extractStridedSlice S50000x1 ![0, 2] x slices_S50000x5_S50000x1_0_2) shapeCasts_S50000x1_S50000) (broadcastInDim S50000 ![] bcast_S_S50000 (constant S_ .f32 0x00000000#32)))) (h72 : W (Proc.devRef .tc main_v72) = act) :
    after (opsE (F := F)) W (Proc.devRef .tc main_v74) = Cert.Sage.masked x act := by
  after_results_simp
  simp only [StableHlo.TRef.ofBuf, StableHlo.TRef.toBuf, cast_cast, cast_eq]
  rw [h16, h72]
  rfl

set_option maxHeartbeats 8000000 in
theorem J_v75 (v : Vec F S50000x1 .f32) (h74 : W (Proc.devRef .tc main_v74) = v) :
    after (opsJ (F := F)) W (Proc.devRef .tc main_v75) = Cert.Sage.logSoftmax v := by
  after_results_simp
  simp only [ofBuf_toBuf]
  rw [h74]
  rfl

set_option maxHeartbeats 8000000 in
theorem G_v97 (h : Vec F S50000x128 .f32) (e : Vec F S2x800000 .i32) (Wl : Vec F S128x128 .f32) (bl : Vec F S128 .f32) (Wr : Vec F S128x128 .f32)
    (Wf : Vec F S128x1 .f32) (bf : Vec F S1 .f32)
    (h1 : W (Proc.devRef .tc main_v1) = Cert.Sage.src e) (h3 : W (Proc.devRef .tc main_v3) = Cert.Sage.dst e) (h12 : W (Proc.devRef .tc main_v12) = Cert.Sage.invDeg e)
    (h54 : W (Proc.devRef .tc main_v54) = h) (ha12 : W (Proc.devRef .tc main_arg12) = Wl) (ha13 : W (Proc.devRef .tc main_arg13) = bl) (ha14 : W (Proc.devRef .tc main_arg14) = Wr)
    (ha15 : W (Proc.devRef .tc main_arg15) = Wf) (ha16 : W (Proc.devRef .tc main_arg16) = bf) :
    after (opsG (F := F)) W (Proc.devRef .tc main_v97) = Cert.Sage.criticLin (Cert.Sage.agg128 h e) h Wl bl Wr Wf bf := by
  after_results_simp
  rw [h1, h3, h12, h54, ha12, ha13, ha14, ha15, ha16]
  rfl

theorem H_v109 (batch : Vec F S50000 .i32) (s : Vec F S50000x1 .f32)
    (ha2 : W (Proc.devRef .tc main_arg2) = batch) (h97 : W (Proc.devRef .tc main_v97) = s) :
    after (opsH (F := F)) W (Proc.devRef .tc main_v109) = Cert.Sage.pooled batch s := by
  after_results_simp
  rw [ha2, h97]
  rfl

/-! ### Buffers a stretch leaves alone -/

theorem pA_arg0 : after (opsA (F := F)) W (Proc.devRef .tc main_arg0) = W (Proc.devRef .tc main_arg0) := by after_results_simp
theorem pA_arg2 : after (opsA (F := F)) W (Proc.devRef .tc main_arg2) = W (Proc.devRef .tc main_arg2) := by after_results_simp
theorem pA_arg3 : after (opsA (F := F)) W (Proc.devRef .tc main_arg3) = W (Proc.devRef .tc main_arg3) := by after_results_simp
theorem pA_arg4 : after (opsA (F := F)) W (Proc.devRef .tc main_arg4) = W (Proc.devRef .tc main_arg4) := by after_results_simp
theorem pA_arg5 : after (opsA (F := F)) W (Proc.devRef .tc main_arg5) = W (Proc.devRef .tc main_arg5) := by after_results_simp
theorem pA_arg6 : after (opsA (F := F)) W (Proc.devRef .tc main_arg6) = W (Proc.devRef .tc main_arg6) := by after_results_simp
theorem pA_arg7 : after (opsA (F := F)) W (Proc.devRef .tc main_arg7) = W (Proc.devRef .tc main_arg7) := by after_results_simp
theorem pA_arg8 : after (opsA (F := F)) W (Proc.devRef .tc main_arg8) = W (Proc.devRef .tc main_arg8) := by after_results_simp
theorem pA_arg9 : after (opsA (F := F)) W (Proc.devRef .tc main_arg9) = W (Proc.devRef .tc main_arg9) := by after_results_simp
theorem pA_arg10 : after (opsA (F := F)) W (Proc.devRef .tc main_arg10) = W (Proc.devRef .tc main_arg10) := by after_results_simp
theorem pA_arg11 : after (opsA (F := F)) W (Proc.devRef .tc main_arg11) = W (Proc.devRef .tc main_arg11) := by after_results_simp
theorem pA_arg12 : after (opsA (F := F)) W (Proc.devRef .tc main_arg12) = W (Proc.devRef .tc main_arg12) := by after_results_simp
theorem pA_arg13 : after (opsA (F := F)) W (Proc.devRef .tc main_arg13) = W (Proc.devRef .tc main_arg13) := by after_results_simp
theorem pA_arg14 : after (opsA (F := F)) W (Proc.devRef .tc main_arg14) = W (Proc.devRef .tc main_arg14) := by after_results_simp
theorem pA_arg15 : after (opsA (F := F)) W (Proc.devRef .tc main_arg15) = W (Proc.devRef .tc main_arg15) := by after_results_simp
theorem pA_arg16 : after (opsA (F := F)) W (Proc.devRef .tc main_arg16) = W (Proc.devRef .tc main_arg16) := by after_results_simp
theorem pB_v1 : after (opsB (F := F)) W (Proc.devRef .tc main_v1) = W (Proc.devRef .tc main_v1) := by after_results_simp
theorem pB_v3 : after (opsB (F := F)) W (Proc.devRef .tc main_v3) = W (Proc.devRef .tc main_v3) := by after_results_simp
theorem pB_v12 : after (opsB (F := F)) W (Proc.devRef .tc main_v12) = W (Proc.devRef .tc main_v12) := by after_results_simp
theorem pB_v16 : after (opsB (F := F)) W (Proc.devRef .tc main_v16) = W (Proc.devRef .tc main_v16) := by after_results_simp
theorem pB_arg2 : after (opsB (F := F)) W (Proc.devRef .tc main_arg2) = W (Proc.devRef .tc main_arg2) := by after_results_simp
theorem pB_arg6 : after (opsB (F := F)) W (Proc.devRef .tc main_arg6) = W (Proc.devRef .tc main_arg6) := by after_results_simp
theorem pB_arg7 : after (opsB (F := F)) W (Proc.devRef .tc main_arg7) = W (Proc.devRef .tc main_arg7) := by after_results_simp
theorem pB_arg8 : after (opsB (F := F)) W (Proc.devRef .tc main_arg8) = W (Proc.devRef .tc main_arg8) := by after_results_simp
theorem pB_arg9 : after (opsB (F := F)) W (Proc.devRef .tc main_arg9) = W (Proc.devRef .tc main_arg9) := by after_results_simp
theorem pB_arg10 : after (opsB (F := F)) W (Proc.devRef .tc main_arg10) = W (Proc.devRef .tc main_arg10) := by after_results_simp
theorem pB_arg11 : after (opsB (F := F)) W (Proc.devRef .tc main_arg11) = W (Proc.devRef .tc main_arg11) := by after_results_simp
theorem pB_arg12 : after (opsB (F := F)) W (Proc.devRef .tc main_arg12) = W (Proc.devRef .tc main_arg12) := by after_results_simp
theorem pB_arg13 : after (opsB (F := F)) W (Proc.devRef .tc main_arg13) = W (Proc.devRef .tc main_arg13) := by after_results_simp
theorem pB_arg14 : after (opsB (F := F)) W (Proc.devRef .tc main_arg14) = W (Proc.devRef .tc main_arg14) := by after_results_simp
theorem pB_arg15 : after (opsB (F := F)) W (Proc.devRef .tc main_arg15) = W (Proc.devRef .tc main_arg15) := by after_results_simp
theorem pB_arg16 : after (opsB (F := F)) W (Proc.devRef .tc main_arg16) = W (Proc.devRef .tc main_arg16) := by after_results_simp
theorem pC_v1 : after (opsC (F := F)) W (Proc.devRef .tc main_v1) = W (Proc.devRef .tc main_v1) := by after_results_simp
theorem pC_v3 : after (opsC (F := F)) W (Proc.devRef .tc main_v3) = W (Proc.devRef .tc main_v3) := by after_results_simp
theorem pC_v12 : after (opsC (F := F)) W (Proc.devRef .tc main_v12) = W (Proc.devRef .tc main_v12) := by after_results_simp
theorem pC_v16 : after (opsC (F := F)) W (Proc.devRef .tc main_v16) = W (Proc.devRef .tc main_v16) := by after_results_simp
theorem pC_arg2 : after (opsC (F := F)) W (Proc.devRef .tc main_arg2) = W (Proc.devRef .tc main_arg2) := by after_results_simp
theorem pC_arg9 : after (opsC (F := F)) W (Proc.devRef .tc main_arg9) = W (Proc.devRef .tc main_arg9) := by after_results_simp
theorem pC_arg10 : after (opsC (F := F)) W (Proc.devRef .tc main_arg10) = W (Proc.devRef .tc main_arg10) := by after_results_simp
theorem pC_arg11 : after (opsC (F := F)) W (Proc.devRef .tc main_arg11) = W (Proc.devRef .tc main_arg11) := by after_results_simp
theorem pC_arg12 : after (opsC (F := F)) W (Proc.devRef .tc main_arg12) = W (Proc.devRef .tc main_arg12) := by after_results_simp
theorem pC_arg13 : after (opsC (F := F)) W (Proc.devRef .tc main_arg13) = W (Proc.devRef .tc main_arg13) := by after_results_simp
theorem pC_arg14 : after (opsC (F := F)) W (Proc.devRef .tc main_arg14) = W (Proc.devRef .tc main_arg14) := by after_results_simp
theorem pC_arg15 : after (opsC (F := F)) W (Proc.devRef .tc main_arg15) = W (Proc.devRef .tc main_arg15) := by after_results_simp
theorem pC_arg16 : after (opsC (F := F)) W (Proc.devRef .tc main_arg16) = W (Proc.devRef .tc main_arg16) := by after_results_simp
theorem pD_v54 : after (opsD (F := F)) W (Proc.devRef .tc main_v54) = W (Proc.devRef .tc main_v54) := by after_results_simp
theorem pD_v1 : after (opsD (F := F)) W (Proc.devRef .tc main_v1) = W (Proc.devRef .tc main_v1) := by after_results_simp
theorem pD_v3 : after (opsD (F := F)) W (Proc.devRef .tc main_v3) = W (Proc.devRef .tc main_v3) := by after_results_simp
theorem pD_v12 : after (opsD (F := F)) W (Proc.devRef .tc main_v12) = W (Proc.devRef .tc main_v12) := by after_results_simp
theorem pD_v16 : after (opsD (F := F)) W (Proc.devRef .tc main_v16) = W (Proc.devRef .tc main_v16) := by after_results_simp
theorem pD_arg2 : after (opsD (F := F)) W (Proc.devRef .tc main_arg2) = W (Proc.devRef .tc main_arg2) := by after_results_simp
theorem pD_arg12 : after (opsD (F := F)) W (Proc.devRef .tc main_arg12) = W (Proc.devRef .tc main_arg12) := by after_results_simp
theorem pD_arg13 : after (opsD (F := F)) W (Proc.devRef .tc main_arg13) = W (Proc.devRef .tc main_arg13) := by after_results_simp
theorem pD_arg14 : after (opsD (F := F)) W (Proc.devRef .tc main_arg14) = W (Proc.devRef .tc main_arg14) := by after_results_simp
theorem pD_arg15 : after (opsD (F := F)) W (Proc.devRef .tc main_arg15) = W (Proc.devRef .tc main_arg15) := by after_results_simp
theorem pD_arg16 : after (opsD (F := F)) W (Proc.devRef .tc main_arg16) = W (Proc.devRef .tc main_arg16) := by after_results_simp
theorem pE_v54 : after (opsE (F := F)) W (Proc.devRef .tc main_v54) = W (Proc.devRef .tc main_v54) := by after_results_simp
theorem pE_v1 : after (opsE (F := F)) W (Proc.devRef .tc main_v1) = W (Proc.devRef .tc main_v1) := by after_results_simp
theorem pE_v3 : after (opsE (F := F)) W (Proc.devRef .tc main_v3) = W (Proc.devRef .tc main_v3) := by after_results_simp
theorem pE_v12 : after (opsE (F := F)) W (Proc.devRef .tc main_v12) = W (Proc.devRef .tc main_v12) := by after_results_simp
theorem pE_arg2 : after (opsE (F := F)) W (Proc.devRef .tc main_arg2) = W (Proc.devRef .tc main_arg2) := by after_results_simp
theorem pE_arg12 : after (opsE (F := F)) W (Proc.devRef .tc main_arg12) = W (Proc.devRef .tc main_arg12) := by after_results_simp
theorem pE_arg13 : after (opsE (F := F)) W (Proc.devRef .tc main_arg13) = W (Proc.devRef .tc main_arg13) := by after_results_simp
theorem pE_arg14 : after (opsE (F := F)) W (Proc.devRef .tc main_arg14) = W (Proc.devRef .tc main_arg14) := by after_results_simp
theorem pE_arg15 : after (opsE (F := F)) W (Proc.devRef .tc main_arg15) = W (Proc.devRef .tc main_arg15) := by after_results_simp
theorem pE_arg16 : after (opsE (F := F)) W (Proc.devRef .tc main_arg16) = W (Proc.devRef .tc main_arg16) := by after_results_simp
theorem pJ_v54 : after (opsJ (F := F)) W (Proc.devRef .tc main_v54) = W (Proc.devRef .tc main_v54) := by after_results_simp
theorem pJ_v1 : after (opsJ (F := F)) W (Proc.devRef .tc main_v1) = W (Proc.devRef .tc main_v1) := by after_results_simp
theorem pJ_v3 : after (opsJ (F := F)) W (Proc.devRef .tc main_v3) = W (Proc.devRef .tc main_v3) := by after_results_simp
theorem pJ_v12 : after (opsJ (F := F)) W (Proc.devRef .tc main_v12) = W (Proc.devRef .tc main_v12) := by after_results_simp
theorem pJ_arg2 : after (opsJ (F := F)) W (Proc.devRef .tc main_arg2) = W (Proc.devRef .tc main_arg2) := by after_results_simp
theorem pJ_arg12 : after (opsJ (F := F)) W (Proc.devRef .tc main_arg12) = W (Proc.devRef .tc main_arg12) := by after_results_simp
theorem pJ_arg13 : after (opsJ (F := F)) W (Proc.devRef .tc main_arg13) = W (Proc.devRef .tc main_arg13) := by after_results_simp
theorem pJ_arg14 : after (opsJ (F := F)) W (Proc.devRef .tc main_arg14) = W (Proc.devRef .tc main_arg14) := by after_results_simp
theorem pJ_arg15 : after (opsJ (F := F)) W (Proc.devRef .tc main_arg15) = W (Proc.devRef .tc main_arg15) := by after_results_simp
theorem pJ_arg16 : after (opsJ (F := F)) W (Proc.devRef .tc main_arg16) = W (Proc.devRef .tc main_arg16) := by after_results_simp
theorem pG_v75 : after (opsG (F := F)) W (Proc.devRef .tc main_v75) = W (Proc.devRef .tc main_v75) := by after_results_simp
theorem pG_arg2 : after (opsG (F := F)) W (Proc.devRef .tc main_arg2) = W (Proc.devRef .tc main_arg2) := by after_results_simp
theorem pH_v75 : after (opsH (F := F)) W (Proc.devRef .tc main_v75) = W (Proc.devRef .tc main_v75) := by after_results_simp

end Stretch

/-! ## The composition, from the launch contents `L` -/

section Chain
variable (L : Valuation τ sig (Elt F))

abbrev W1 : Valuation τ sig (Elt F) := after (opsA (F := F)) L
abbrev W2 : Valuation τ sig (Elt F) := after (opsB (F := F)) (W1 L)
abbrev W3 : Valuation τ sig (Elt F) := after (opsC (F := F)) (W2 L)
abbrev W4 : Valuation τ sig (Elt F) := after (opsD (F := F)) (W3 L)
abbrev W5 : Valuation τ sig (Elt F) := after (opsE (F := F)) (W4 L)
abbrev W6 : Valuation τ sig (Elt F) := after (opsJ (F := F)) (W5 L)
abbrev W7 : Valuation τ sig (Elt F) := after (opsG (F := F)) (W6 L)
abbrev W8 : Valuation τ sig (Elt F) := after (opsH (F := F)) (W7 L)

theorem f1_v1 : W1 L (Proc.devRef .tc main_v1) = Cert.Sage.src (L (Proc.devRef .tc main_arg1)) := A_v1 L
theorem f1_v3 : W1 L (Proc.devRef .tc main_v3) = Cert.Sage.dst (L (Proc.devRef .tc main_arg1)) := A_v3 L
theorem f1_v12 : W1 L (Proc.devRef .tc main_v12) = Cert.Sage.invDeg (L (Proc.devRef .tc main_arg1)) := A_v12 L
theorem f1_v16 : W1 L (Proc.devRef .tc main_v16) = (cmpf .une (shapeCast S50000 (extractStridedSlice S50000x1 ![0, 2] (L (Proc.devRef .tc main_arg0)) slices_S50000x5_S50000x1_0_2) shapeCasts_S50000x1_S50000) (broadcastInDim S50000 ![] bcast_S_S50000 (constant S_ .f32 0x00000000#32))) := A_v16 L
theorem f1_arg0 : W1 L (Proc.devRef .tc main_arg0) = L (Proc.devRef .tc main_arg0) := pA_arg0 L
theorem f1_arg2 : W1 L (Proc.devRef .tc main_arg2) = L (Proc.devRef .tc main_arg2) := pA_arg2 L
theorem f1_arg3 : W1 L (Proc.devRef .tc main_arg3) = L (Proc.devRef .tc main_arg3) := pA_arg3 L
theorem f1_arg4 : W1 L (Proc.devRef .tc main_arg4) = L (Proc.devRef .tc main_arg4) := pA_arg4 L
theorem f1_arg5 : W1 L (Proc.devRef .tc main_arg5) = L (Proc.devRef .tc main_arg5) := pA_arg5 L
theorem f1_arg6 : W1 L (Proc.devRef .tc main_arg6) = L (Proc.devRef .tc main_arg6) := pA_arg6 L
theorem f1_arg7 : W1 L (Proc.devRef .tc main_arg7) = L (Proc.devRef .tc main_arg7) := pA_arg7 L
theorem f1_arg8 : W1 L (Proc.devRef .tc main_arg8) = L (Proc.devRef .tc main_arg8) := pA_arg8 L
theorem f1_arg9 : W1 L (Proc.devRef .tc main_arg9) = L (Proc.devRef .tc main_arg9) := pA_arg9 L
theorem f1_arg10 : W1 L (Proc.devRef .tc main_arg10) = L (Proc.devRef .tc main_arg10) := pA_arg10 L
theorem f1_arg11 : W1 L (Proc.devRef .tc main_arg11) = L (Proc.devRef .tc main_arg11) := pA_arg11 L
theorem f1_arg12 : W1 L (Proc.devRef .tc main_arg12) = L (Proc.devRef .tc main_arg12) := pA_arg12 L
theorem f1_arg13 : W1 L (Proc.devRef .tc main_arg13) = L (Proc.devRef .tc main_arg13) := pA_arg13 L
theorem f1_arg14 : W1 L (Proc.devRef .tc main_arg14) = L (Proc.devRef .tc main_arg14) := pA_arg14 L
theorem f1_arg15 : W1 L (Proc.devRef .tc main_arg15) = L (Proc.devRef .tc main_arg15) := pA_arg15 L
theorem f1_arg16 : W1 L (Proc.devRef .tc main_arg16) = L (Proc.devRef .tc main_arg16) := pA_arg16 L
theorem f2_v35 : W2 L (Proc.devRef .tc main_v35) = (Cert.Sage.hidden1 (L (Proc.devRef .tc main_arg0)) (L (Proc.devRef .tc main_arg1)) (L (Proc.devRef .tc main_arg3)) (L (Proc.devRef .tc main_arg4)) (L (Proc.devRef .tc main_arg5))) := B_v35 (W1 L) _ _ _ _ _ (f1_v1 L) (f1_v3 L) (f1_v12 L) (f1_arg0 L) (f1_arg3 L) (f1_arg4 L) (f1_arg5 L)
theorem f2_v1 : W2 L (Proc.devRef .tc main_v1) = Cert.Sage.src (L (Proc.devRef .tc main_arg1)) := (pB_v1 (W1 L)).trans (f1_v1 L)
theorem f2_v3 : W2 L (Proc.devRef .tc main_v3) = Cert.Sage.dst (L (Proc.devRef .tc main_arg1)) := (pB_v3 (W1 L)).trans (f1_v3 L)
theorem f2_v12 : W2 L (Proc.devRef .tc main_v12) = Cert.Sage.invDeg (L (Proc.devRef .tc main_arg1)) := (pB_v12 (W1 L)).trans (f1_v12 L)
theorem f2_v16 : W2 L (Proc.devRef .tc main_v16) = (cmpf .une (shapeCast S50000 (extractStridedSlice S50000x1 ![0, 2] (L (Proc.devRef .tc main_arg0)) slices_S50000x5_S50000x1_0_2) shapeCasts_S50000x1_S50000) (broadcastInDim S50000 ![] bcast_S_S50000 (constant S_ .f32 0x00000000#32))) := (pB_v16 (W1 L)).trans (f1_v16 L)
theorem f2_arg2 : W2 L (Proc.devRef .tc main_arg2) = L (Proc.devRef .tc main_arg2) := (pB_arg2 (W1 L)).trans (f1_arg2 L)
theorem f2_arg6 : W2 L (Proc.devRef .tc main_arg6) = L (Proc.devRef .tc main_arg6) := (pB_arg6 (W1 L)).trans (f1_arg6 L)
theorem f2_arg7 : W2 L (Proc.devRef .tc main_arg7) = L (Proc.devRef .tc main_arg7) := (pB_arg7 (W1 L)).trans (f1_arg7 L)
theorem f2_arg8 : W2 L (Proc.devRef .tc main_arg8) = L (Proc.devRef .tc main_arg8) := (pB_arg8 (W1 L)).trans (f1_arg8 L)
theorem f2_arg9 : W2 L (Proc.devRef .tc main_arg9) = L (Proc.devRef .tc main_arg9) := (pB_arg9 (W1 L)).trans (f1_arg9 L)
theorem f2_arg10 : W2 L (Proc.devRef .tc main_arg10) = L (Proc.devRef .tc main_arg10) := (pB_arg10 (W1 L)).trans (f1_arg10 L)
theorem f2_arg11 : W2 L (Proc.devRef .tc main_arg11) = L (Proc.devRef .tc main_arg11) := (pB_arg11 (W1 L)).trans (f1_arg11 L)
theorem f2_arg12 : W2 L (Proc.devRef .tc main_arg12) = L (Proc.devRef .tc main_arg12) := (pB_arg12 (W1 L)).trans (f1_arg12 L)
theorem f2_arg13 : W2 L (Proc.devRef .tc main_arg13) = L (Proc.devRef .tc main_arg13) := (pB_arg13 (W1 L)).trans (f1_arg13 L)
theorem f2_arg14 : W2 L (Proc.devRef .tc main_arg14) = L (Proc.devRef .tc main_arg14) := (pB_arg14 (W1 L)).trans (f1_arg14 L)
theorem f2_arg15 : W2 L (Proc.devRef .tc main_arg15) = L (Proc.devRef .tc main_arg15) := (pB_arg15 (W1 L)).trans (f1_arg15 L)
theorem f2_arg16 : W2 L (Proc.devRef .tc main_arg16) = L (Proc.devRef .tc main_arg16) := (pB_arg16 (W1 L)).trans (f1_arg16 L)
theorem f3_v54 : W3 L (Proc.devRef .tc main_v54) = (Cert.Sage.hidden2 (L (Proc.devRef .tc main_arg0)) (L (Proc.devRef .tc main_arg1)) (L (Proc.devRef .tc main_arg3)) (L (Proc.devRef .tc main_arg4)) (L (Proc.devRef .tc main_arg5)) (L (Proc.devRef .tc main_arg6)) (L (Proc.devRef .tc main_arg7)) (L (Proc.devRef .tc main_arg8))) := C_v54 (W2 L) _ _ _ _ _ (f2_v1 L) (f2_v3 L) (f2_v12 L) (f2_v35 L) (f2_arg6 L) (f2_arg7 L) (f2_arg8 L)
theorem f3_v1 : W3 L (Proc.devRef .tc main_v1) = Cert.Sage.src (L (Proc.devRef .tc main_arg1)) := (pC_v1 (W2 L)).trans (f2_v1 L)
theorem f3_v3 : W3 L (Proc.devRef .tc main_v3) = Cert.Sage.dst (L (Proc.devRef .tc main_arg1)) := (pC_v3 (W2 L)).trans (f2_v3 L)
theorem f3_v12 : W3 L (Proc.devRef .tc main_v12) = Cert.Sage.invDeg (L (Proc.devRef .tc main_arg1)) := (pC_v12 (W2 L)).trans (f2_v12 L)
theorem f3_v16 : W3 L (Proc.devRef .tc main_v16) = (cmpf .une (shapeCast S50000 (extractStridedSlice S50000x1 ![0, 2] (L (Proc.devRef .tc main_arg0)) slices_S50000x5_S50000x1_0_2) shapeCasts_S50000x1_S50000) (broadcastInDim S50000 ![] bcast_S_S50000 (constant S_ .f32 0x00000000#32))) := (pC_v16 (W2 L)).trans (f2_v16 L)
theorem f3_arg2 : W3 L (Proc.devRef .tc main_arg2) = L (Proc.devRef .tc main_arg2) := (pC_arg2 (W2 L)).trans (f2_arg2 L)
theorem f3_arg9 : W3 L (Proc.devRef .tc main_arg9) = L (Proc.devRef .tc main_arg9) := (pC_arg9 (W2 L)).trans (f2_arg9 L)
theorem f3_arg10 : W3 L (Proc.devRef .tc main_arg10) = L (Proc.devRef .tc main_arg10) := (pC_arg10 (W2 L)).trans (f2_arg10 L)
theorem f3_arg11 : W3 L (Proc.devRef .tc main_arg11) = L (Proc.devRef .tc main_arg11) := (pC_arg11 (W2 L)).trans (f2_arg11 L)
theorem f3_arg12 : W3 L (Proc.devRef .tc main_arg12) = L (Proc.devRef .tc main_arg12) := (pC_arg12 (W2 L)).trans (f2_arg12 L)
theorem f3_arg13 : W3 L (Proc.devRef .tc main_arg13) = L (Proc.devRef .tc main_arg13) := (pC_arg13 (W2 L)).trans (f2_arg13 L)
theorem f3_arg14 : W3 L (Proc.devRef .tc main_arg14) = L (Proc.devRef .tc main_arg14) := (pC_arg14 (W2 L)).trans (f2_arg14 L)
theorem f3_arg15 : W3 L (Proc.devRef .tc main_arg15) = L (Proc.devRef .tc main_arg15) := (pC_arg15 (W2 L)).trans (f2_arg15 L)
theorem f3_arg16 : W3 L (Proc.devRef .tc main_arg16) = L (Proc.devRef .tc main_arg16) := (pC_arg16 (W2 L)).trans (f2_arg16 L)
theorem f4_v72 : W4 L (Proc.devRef .tc main_v72) = (Cert.Sage.lin1 (Cert.Sage.agg128 (Cert.Sage.hidden2 (L (Proc.devRef .tc main_arg0)) (L (Proc.devRef .tc main_arg1)) (L (Proc.devRef .tc main_arg3)) (L (Proc.devRef .tc main_arg4)) (L (Proc.devRef .tc main_arg5)) (L (Proc.devRef .tc main_arg6)) (L (Proc.devRef .tc main_arg7)) (L (Proc.devRef .tc main_arg8))) (L (Proc.devRef .tc main_arg1))) (Cert.Sage.hidden2 (L (Proc.devRef .tc main_arg0)) (L (Proc.devRef .tc main_arg1)) (L (Proc.devRef .tc main_arg3)) (L (Proc.devRef .tc main_arg4)) (L (Proc.devRef .tc main_arg5)) (L (Proc.devRef .tc main_arg6)) (L (Proc.devRef .tc main_arg7)) (L (Proc.devRef .tc main_arg8))) (L (Proc.devRef .tc main_arg9)) (L (Proc.devRef .tc main_arg10)) (L (Proc.devRef .tc main_arg11))) := D_v72 (W3 L) _ _ _ _ _ (f3_v1 L) (f3_v3 L) (f3_v12 L) (f3_v54 L) (f3_arg9 L) (f3_arg10 L) (f3_arg11 L)
theorem f4_v54 : W4 L (Proc.devRef .tc main_v54) = (Cert.Sage.hidden2 (L (Proc.devRef .tc main_arg0)) (L (Proc.devRef .tc main_arg1)) (L (Proc.devRef .tc main_arg3)) (L (Proc.devRef .tc main_arg4)) (L (Proc.devRef .tc main_arg5)) (L (Proc.devRef .tc main_arg6)) (L (Proc.devRef .tc main_arg7)) (L (Proc.devRef .tc main_arg8))) := (pD_v54 (W3 L)).trans (f3_v54 L)
theorem f4_v1 : W4 L (Proc.devRef .tc main_v1) = Cert.Sage.src (L (Proc.devRef .tc main_arg1)) := (pD_v1 (W3 L)).trans (f3_v1 L)
theorem f4_v3 : W4 L (Proc.devRef .tc main_v3) = Cert.Sage.dst (L (Proc.devRef .tc main_arg1)) := (pD_v3 (W3 L)).trans (f3_v3 L)
theorem f4_v12 : W4 L (Proc.devRef .tc main_v12) = Cert.Sage.invDeg (L (Proc.devRef .tc main_arg1)) := (pD_v12 (W3 L)).trans (f3_v12 L)
theorem f4_v16 : W4 L (Proc.devRef .tc main_v16) = (cmpf .une (shapeCast S50000 (extractStridedSlice S50000x1 ![0, 2] (L (Proc.devRef .tc main_arg0)) slices_S50000x5_S50000x1_0_2) shapeCasts_S50000x1_S50000) (broadcastInDim S50000 ![] bcast_S_S50000 (constant S_ .f32 0x00000000#32))) := (pD_v16 (W3 L)).trans (f3_v16 L)
theorem f4_arg2 : W4 L (Proc.devRef .tc main_arg2) = L (Proc.devRef .tc main_arg2) := (pD_arg2 (W3 L)).trans (f3_arg2 L)
theorem f4_arg12 : W4 L (Proc.devRef .tc main_arg12) = L (Proc.devRef .tc main_arg12) := (pD_arg12 (W3 L)).trans (f3_arg12 L)
theorem f4_arg13 : W4 L (Proc.devRef .tc main_arg13) = L (Proc.devRef .tc main_arg13) := (pD_arg13 (W3 L)).trans (f3_arg13 L)
theorem f4_arg14 : W4 L (Proc.devRef .tc main_arg14) = L (Proc.devRef .tc main_arg14) := (pD_arg14 (W3 L)).trans (f3_arg14 L)
theorem f4_arg15 : W4 L (Proc.devRef .tc main_arg15) = L (Proc.devRef .tc main_arg15) := (pD_arg15 (W3 L)).trans (f3_arg15 L)
theorem f4_arg16 : W4 L (Proc.devRef .tc main_arg16) = L (Proc.devRef .tc main_arg16) := (pD_arg16 (W3 L)).trans (f3_arg16 L)
theorem f5_v74 : W5 L (Proc.devRef .tc main_v74) = Cert.Sage.masked (L (Proc.devRef .tc main_arg0)) (Cert.Sage.lin1 (Cert.Sage.agg128 (Cert.Sage.hidden2 (L (Proc.devRef .tc main_arg0)) (L (Proc.devRef .tc main_arg1)) (L (Proc.devRef .tc main_arg3)) (L (Proc.devRef .tc main_arg4)) (L (Proc.devRef .tc main_arg5)) (L (Proc.devRef .tc main_arg6)) (L (Proc.devRef .tc main_arg7)) (L (Proc.devRef .tc main_arg8))) (L (Proc.devRef .tc main_arg1))) (Cert.Sage.hidden2 (L (Proc.devRef .tc main_arg0)) (L (Proc.devRef .tc main_arg1)) (L (Proc.devRef .tc main_arg3)) (L (Proc.devRef .tc main_arg4)) (L (Proc.devRef .tc main_arg5)) (L (Proc.devRef .tc main_arg6)) (L (Proc.devRef .tc main_arg7)) (L (Proc.devRef .tc main_arg8))) (L (Proc.devRef .tc main_arg9)) (L (Proc.devRef .tc main_arg10)) (L (Proc.devRef .tc main_arg11))) := E_v74 (W4 L) _ _ (f4_v16 L) (f4_v72 L)
theorem f5_v54 : W5 L (Proc.devRef .tc main_v54) = (Cert.Sage.hidden2 (L (Proc.devRef .tc main_arg0)) (L (Proc.devRef .tc main_arg1)) (L (Proc.devRef .tc main_arg3)) (L (Proc.devRef .tc main_arg4)) (L (Proc.devRef .tc main_arg5)) (L (Proc.devRef .tc main_arg6)) (L (Proc.devRef .tc main_arg7)) (L (Proc.devRef .tc main_arg8))) := (pE_v54 (W4 L)).trans (f4_v54 L)
theorem f5_v1 : W5 L (Proc.devRef .tc main_v1) = Cert.Sage.src (L (Proc.devRef .tc main_arg1)) := (pE_v1 (W4 L)).trans (f4_v1 L)
theorem f5_v3 : W5 L (Proc.devRef .tc main_v3) = Cert.Sage.dst (L (Proc.devRef .tc main_arg1)) := (pE_v3 (W4 L)).trans (f4_v3 L)
theorem f5_v12 : W5 L (Proc.devRef .tc main_v12) = Cert.Sage.invDeg (L (Proc.devRef .tc main_arg1)) := (pE_v12 (W4 L)).trans (f4_v12 L)
theorem f5_arg2 : W5 L (Proc.devRef .tc main_arg2) = L (Proc.devRef .tc main_arg2) := (pE_arg2 (W4 L)).trans (f4_arg2 L)
theorem f5_arg12 : W5 L (Proc.devRef .tc main_arg12) = L (Proc.devRef .tc main_arg12) := (pE_arg12 (W4 L)).trans (f4_arg12 L)
theorem f5_arg13 : W5 L (Proc.devRef .tc main_arg13) = L (Proc.devRef .tc main_arg13) := (pE_arg13 (W4 L)).trans (f4_arg13 L)
theorem f5_arg14 : W5 L (Proc.devRef .tc main_arg14) = L (Proc.devRef .tc main_arg14) := (pE_arg14 (W4 L)).trans (f4_arg14 L)
theorem f5_arg15 : W5 L (Proc.devRef .tc main_arg15) = L (Proc.devRef .tc main_arg15) := (pE_arg15 (W4 L)).trans (f4_arg15 L)
theorem f5_arg16 : W5 L (Proc.devRef .tc main_arg16) = L (Proc.devRef .tc main_arg16) := (pE_arg16 (W4 L)).trans (f4_arg16 L)
theorem f6_v75 : W6 L (Proc.devRef .tc main_v75) = (Cert.Sage.actorOf (L (Proc.devRef .tc main_arg0)) (L (Proc.devRef .tc main_arg1)) (Cert.Sage.hidden2 (L (Proc.devRef .tc main_arg0)) (L (Proc.devRef .tc main_arg1)) (L (Proc.devRef .tc main_arg3)) (L (Proc.devRef .tc main_arg4)) (L (Proc.devRef .tc main_arg5)) (L (Proc.devRef .tc main_arg6)) (L (Proc.devRef .tc main_arg7)) (L (Proc.devRef .tc main_arg8))) (L (Proc.devRef .tc main_arg9)) (L (Proc.devRef .tc main_arg10)) (L (Proc.devRef .tc main_arg11))) := J_v75 (W5 L) _ (f5_v74 L)
theorem f6_v54 : W6 L (Proc.devRef .tc main_v54) = (Cert.Sage.hidden2 (L (Proc.devRef .tc main_arg0)) (L (Proc.devRef .tc main_arg1)) (L (Proc.devRef .tc main_arg3)) (L (Proc.devRef .tc main_arg4)) (L (Proc.devRef .tc main_arg5)) (L (Proc.devRef .tc main_arg6)) (L (Proc.devRef .tc main_arg7)) (L (Proc.devRef .tc main_arg8))) := (pJ_v54 (W5 L)).trans (f5_v54 L)
theorem f6_v1 : W6 L (Proc.devRef .tc main_v1) = Cert.Sage.src (L (Proc.devRef .tc main_arg1)) := (pJ_v1 (W5 L)).trans (f5_v1 L)
theorem f6_v3 : W6 L (Proc.devRef .tc main_v3) = Cert.Sage.dst (L (Proc.devRef .tc main_arg1)) := (pJ_v3 (W5 L)).trans (f5_v3 L)
theorem f6_v12 : W6 L (Proc.devRef .tc main_v12) = Cert.Sage.invDeg (L (Proc.devRef .tc main_arg1)) := (pJ_v12 (W5 L)).trans (f5_v12 L)
theorem f6_arg2 : W6 L (Proc.devRef .tc main_arg2) = L (Proc.devRef .tc main_arg2) := (pJ_arg2 (W5 L)).trans (f5_arg2 L)
theorem f6_arg12 : W6 L (Proc.devRef .tc main_arg12) = L (Proc.devRef .tc main_arg12) := (pJ_arg12 (W5 L)).trans (f5_arg12 L)
theorem f6_arg13 : W6 L (Proc.devRef .tc main_arg13) = L (Proc.devRef .tc main_arg13) := (pJ_arg13 (W5 L)).trans (f5_arg13 L)
theorem f6_arg14 : W6 L (Proc.devRef .tc main_arg14) = L (Proc.devRef .tc main_arg14) := (pJ_arg14 (W5 L)).trans (f5_arg14 L)
theorem f6_arg15 : W6 L (Proc.devRef .tc main_arg15) = L (Proc.devRef .tc main_arg15) := (pJ_arg15 (W5 L)).trans (f5_arg15 L)
theorem f6_arg16 : W6 L (Proc.devRef .tc main_arg16) = L (Proc.devRef .tc main_arg16) := (pJ_arg16 (W5 L)).trans (f5_arg16 L)
theorem f7_v97 : W7 L (Proc.devRef .tc main_v97) = (Cert.Sage.criticLin (Cert.Sage.agg128 (Cert.Sage.hidden2 (L (Proc.devRef .tc main_arg0)) (L (Proc.devRef .tc main_arg1)) (L (Proc.devRef .tc main_arg3)) (L (Proc.devRef .tc main_arg4)) (L (Proc.devRef .tc main_arg5)) (L (Proc.devRef .tc main_arg6)) (L (Proc.devRef .tc main_arg7)) (L (Proc.devRef .tc main_arg8))) (L (Proc.devRef .tc main_arg1))) (Cert.Sage.hidden2 (L (Proc.devRef .tc main_arg0)) (L (Proc.devRef .tc main_arg1)) (L (Proc.devRef .tc main_arg3)) (L (Proc.devRef .tc main_arg4)) (L (Proc.devRef .tc main_arg5)) (L (Proc.devRef .tc main_arg6)) (L (Proc.devRef .tc main_arg7)) (L (Proc.devRef .tc main_arg8))) (L (Proc.devRef .tc main_arg12)) (L (Proc.devRef .tc main_arg13)) (L (Proc.devRef .tc main_arg14)) (L (Proc.devRef .tc main_arg15)) (L (Proc.devRef .tc main_arg16))) := G_v97 (W6 L) _ _ _ _ _ _ _ (f6_v1 L) (f6_v3 L) (f6_v12 L) (f6_v54 L) (f6_arg12 L) (f6_arg13 L) (f6_arg14 L) (f6_arg15 L) (f6_arg16 L)
theorem f7_v75 : W7 L (Proc.devRef .tc main_v75) = (Cert.Sage.actorOf (L (Proc.devRef .tc main_arg0)) (L (Proc.devRef .tc main_arg1)) (Cert.Sage.hidden2 (L (Proc.devRef .tc main_arg0)) (L (Proc.devRef .tc main_arg1)) (L (Proc.devRef .tc main_arg3)) (L (Proc.devRef .tc main_arg4)) (L (Proc.devRef .tc main_arg5)) (L (Proc.devRef .tc main_arg6)) (L (Proc.devRef .tc main_arg7)) (L (Proc.devRef .tc main_arg8))) (L (Proc.devRef .tc main_arg9)) (L (Proc.devRef .tc main_arg10)) (L (Proc.devRef .tc main_arg11))) := (pG_v75 (W6 L)).trans (f6_v75 L)
theorem f7_arg2 : W7 L (Proc.devRef .tc main_arg2) = L (Proc.devRef .tc main_arg2) := (pG_arg2 (W6 L)).trans (f6_arg2 L)
theorem f8_v109 : W8 L (Proc.devRef .tc main_v109) = (Cert.Sage.criticOf (L (Proc.devRef .tc main_arg1)) (L (Proc.devRef .tc main_arg2)) (Cert.Sage.hidden2 (L (Proc.devRef .tc main_arg0)) (L (Proc.devRef .tc main_arg1)) (L (Proc.devRef .tc main_arg3)) (L (Proc.devRef .tc main_arg4)) (L (Proc.devRef .tc main_arg5)) (L (Proc.devRef .tc main_arg6)) (L (Proc.devRef .tc main_arg7)) (L (Proc.devRef .tc main_arg8))) (L (Proc.devRef .tc main_arg12)) (L (Proc.devRef .tc main_arg13)) (L (Proc.devRef .tc main_arg14)) (L (Proc.devRef .tc main_arg15)) (L (Proc.devRef .tc main_arg16))) := H_v109 (W7 L) _ _ (f7_arg2 L) (f7_v97 L)
theorem f8_v75 : W8 L (Proc.devRef .tc main_v75) = (Cert.Sage.actorOf (L (Proc.devRef .tc main_arg0)) (L (Proc.devRef .tc main_arg1)) (Cert.Sage.hidden2 (L (Proc.devRef .tc main_arg0)) (L (Proc.devRef .tc main_arg1)) (L (Proc.devRef .tc main_arg3)) (L (Proc.devRef .tc main_arg4)) (L (Proc.devRef .tc main_arg5)) (L (Proc.devRef .tc main_arg6)) (L (Proc.devRef .tc main_arg7)) (L (Proc.devRef .tc main_arg8))) (L (Proc.devRef .tc main_arg9)) (L (Proc.devRef .tc main_arg10)) (L (Proc.devRef .tc main_arg11))) := (pH_v75 (W7 L)).trans (f7_v75 L)

/-- The fold over all the operations is the eighth boundary. -/
theorem after_ops : after (ops (F := F)) L = W8 L := by
  rw [ops_split]
  simp only [after_append]

/-- THE ACTOR OUTPUT: the reference's first result is the network's actor output of the launch contents. -/
theorem out0 : after (ops (F := F)) L (Proc.devRef .tc main_v75) = (Cert.Sage.actorOf (L (Proc.devRef .tc main_arg0)) (L (Proc.devRef .tc main_arg1)) (Cert.Sage.hidden2 (L (Proc.devRef .tc main_arg0)) (L (Proc.devRef .tc main_arg1)) (L (Proc.devRef .tc main_arg3)) (L (Proc.devRef .tc main_arg4)) (L (Proc.devRef .tc main_arg5)) (L (Proc.devRef .tc main_arg6)) (L (Proc.devRef .tc main_arg7)) (L (Proc.devRef .tc main_arg8))) (L (Proc.devRef .tc main_arg9)) (L (Proc.devRef .tc main_arg10)) (L (Proc.devRef .tc main_arg11))) := by
  rw [after_ops]; exact f8_v75 L

/-- THE CRITIC OUTPUT: the reference's second result is the network's critic output of the launch contents. -/
theorem out1 : after (ops (F := F)) L (Proc.devRef .tc main_v109) = (Cert.Sage.criticOf (L (Proc.devRef .tc main_arg1)) (L (Proc.devRef .tc main_arg2)) (Cert.Sage.hidden2 (L (Proc.devRef .tc main_arg0)) (L (Proc.devRef .tc main_arg1)) (L (Proc.devRef .tc main_arg3)) (L (Proc.devRef .tc main_arg4)) (L (Proc.devRef .tc main_arg5)) (L (Proc.devRef .tc main_arg6)) (L (Proc.devRef .tc main_arg7)) (L (Proc.devRef .tc main_arg8))) (L (Proc.devRef .tc main_arg12)) (L (Proc.devRef .tc main_arg13)) (L (Proc.devRef .tc main_arg14)) (L (Proc.devRef .tc main_arg15)) (L (Proc.devRef .tc main_arg16))) := by
  rw [after_ops]; exact f8_v109 L

end Chain

end Cert.Sage.RefFlow

end
-- ==== Proof.RefKeep.lean ====
/-
  No host operation of the reference writes an argument array: each argument's buffer, after all 148 operations, holds
  what it held at launch.
-/
import proofs.«127485_j53523882443412_1_alg».proof.Proof.RefRun
import Idealize.ShloMosaic.Lib.StableHlo.Run

set_option maxRecDepth 16384

noncomputable section

namespace Cert.Sage.RefKeep

open Cert.ReferenceIdeal Cert.ReferenceIdeal.Gen Cert.ReferenceIdeal.RunP
open Idealize.ShloMosaic Idealize.ShloMosaic.TcCoe Idealize.SL.Sem Idealize.ShloMosaic.StableHlo

variable {F : FTy → Type} [FloatOps F] (L : Valuation τ sig (Elt F))

set_option maxHeartbeats 4000000 in
theorem keep_arg0 : after (ops (F := F)) L (Proc.devRef .tc main_arg0) = L (Proc.devRef .tc main_arg0) :=
  StableHlo.after_of_forall_not_mem (b := Proc.devRef .tc main_arg0) _ _ (List.forall_iff_forall_mem.mp (by
    simp only [ops, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

set_option maxHeartbeats 4000000 in
theorem keep_arg1 : after (ops (F := F)) L (Proc.devRef .tc main_arg1) = L (Proc.devRef .tc main_arg1) :=
  StableHlo.after_of_forall_not_mem (b := Proc.devRef .tc main_arg1) _ _ (List.forall_iff_forall_mem.mp (by
    simp only [ops, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

set_option maxHeartbeats 4000000 in
theorem keep_arg2 : after (ops (F := F)) L (Proc.devRef .tc main_arg2) = L (Proc.devRef .tc main_arg2) :=
  StableHlo.after_of_forall_not_mem (b := Proc.devRef .tc main_arg2) _ _ (List.forall_iff_forall_mem.mp (by
    simp only [ops, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

set_option maxHeartbeats 4000000 in
theorem keep_arg3 : after (ops (F := F)) L (Proc.devRef .tc main_arg3) = L (Proc.devRef .tc main_arg3) :=
  StableHlo.after_of_forall_not_mem (b := Proc.devRef .tc main_arg3) _ _ (List.forall_iff_forall_mem.mp (by
    simp only [ops, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

set_option maxHeartbeats 4000000 in
theorem keep_arg4 : after (ops (F := F)) L (Proc.devRef .tc main_arg4) = L (Proc.devRef .tc main_arg4) :=
  StableHlo.after_of_forall_not_mem (b := Proc.devRef .tc main_arg4) _ _ (List.forall_iff_forall_mem.mp (by
    simp only [ops, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

set_option maxHeartbeats 4000000 in
theorem keep_arg5 : after (ops (F := F)) L (Proc.devRef .tc main_arg5) = L (Proc.devRef .tc main_arg5) :=
  StableHlo.after_of_forall_not_mem (b := Proc.devRef .tc main_arg5) _ _ (List.forall_iff_forall_mem.mp (by
    simp only [ops, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

set_option maxHeartbeats 4000000 in
theorem keep_arg6 : after (ops (F := F)) L (Proc.devRef .tc main_arg6) = L (Proc.devRef .tc main_arg6) :=
  StableHlo.after_of_forall_not_mem (b := Proc.devRef .tc main_arg6) _ _ (List.forall_iff_forall_mem.mp (by
    simp only [ops, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

set_option maxHeartbeats 4000000 in
theorem keep_arg7 : after (ops (F := F)) L (Proc.devRef .tc main_arg7) = L (Proc.devRef .tc main_arg7) :=
  StableHlo.after_of_forall_not_mem (b := Proc.devRef .tc main_arg7) _ _ (List.forall_iff_forall_mem.mp (by
    simp only [ops, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

set_option maxHeartbeats 4000000 in
theorem keep_arg8 : after (ops (F := F)) L (Proc.devRef .tc main_arg8) = L (Proc.devRef .tc main_arg8) :=
  StableHlo.after_of_forall_not_mem (b := Proc.devRef .tc main_arg8) _ _ (List.forall_iff_forall_mem.mp (by
    simp only [ops, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

set_option maxHeartbeats 4000000 in
theorem keep_arg9 : after (ops (F := F)) L (Proc.devRef .tc main_arg9) = L (Proc.devRef .tc main_arg9) :=
  StableHlo.after_of_forall_not_mem (b := Proc.devRef .tc main_arg9) _ _ (List.forall_iff_forall_mem.mp (by
    simp only [ops, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

set_option maxHeartbeats 4000000 in
theorem keep_arg10 : after (ops (F := F)) L (Proc.devRef .tc main_arg10) = L (Proc.devRef .tc main_arg10) :=
  StableHlo.after_of_forall_not_mem (b := Proc.devRef .tc main_arg10) _ _ (List.forall_iff_forall_mem.mp (by
    simp only [ops, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

set_option maxHeartbeats 4000000 in
theorem keep_arg11 : after (ops (F := F)) L (Proc.devRef .tc main_arg11) = L (Proc.devRef .tc main_arg11) :=
  StableHlo.after_of_forall_not_mem (b := Proc.devRef .tc main_arg11) _ _ (List.forall_iff_forall_mem.mp (by
    simp only [ops, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

set_option maxHeartbeats 4000000 in
theorem keep_arg12 : after (ops (F := F)) L (Proc.devRef .tc main_arg12) = L (Proc.devRef .tc main_arg12) :=
  StableHlo.after_of_forall_not_mem (b := Proc.devRef .tc main_arg12) _ _ (List.forall_iff_forall_mem.mp (by
    simp only [ops, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

set_option maxHeartbeats 4000000 in
theorem keep_arg13 : after (ops (F := F)) L (Proc.devRef .tc main_arg13) = L (Proc.devRef .tc main_arg13) :=
  StableHlo.after_of_forall_not_mem (b := Proc.devRef .tc main_arg13) _ _ (List.forall_iff_forall_mem.mp (by
    simp only [ops, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

set_option maxHeartbeats 4000000 in
theorem keep_arg14 : after (ops (F := F)) L (Proc.devRef .tc main_arg14) = L (Proc.devRef .tc main_arg14) :=
  StableHlo.after_of_forall_not_mem (b := Proc.devRef .tc main_arg14) _ _ (List.forall_iff_forall_mem.mp (by
    simp only [ops, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

set_option maxHeartbeats 4000000 in
theorem keep_arg15 : after (ops (F := F)) L (Proc.devRef .tc main_arg15) = L (Proc.devRef .tc main_arg15) :=
  StableHlo.after_of_forall_not_mem (b := Proc.devRef .tc main_arg15) _ _ (List.forall_iff_forall_mem.mp (by
    simp only [ops, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

set_option maxHeartbeats 4000000 in
theorem keep_arg16 : after (ops (F := F)) L (Proc.devRef .tc main_arg16) = L (Proc.devRef .tc main_arg16) :=
  StableHlo.after_of_forall_not_mem (b := Proc.devRef .tc main_arg16) _ _ (List.forall_iff_forall_mem.mp (by
    simp only [ops, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

end Cert.Sage.RefKeep

end
-- ==== Proof.RefValue.lean ====
/-
  The reference's run, read: every weakly fair execution ends with its first result at the network's actor output and
  its second at the critic output of the argument arrays, the arguments unchanged.
-/
import proofs.«127485_j53523882443412_1_alg».proof.Proof.RefFlow
import proofs.«127485_j53523882443412_1_alg».proof.Proof.RefKeep

set_option maxRecDepth 16384

noncomputable section

namespace Cert.Sage.RefValue

open Cert.ReferenceIdeal Cert.ReferenceIdeal.Gen Cert.ReferenceIdeal.RunP
open Idealize.ShloMosaic Idealize.ShloMosaic.TcCoe Idealize.SL.Sem Idealize.ShloMosaic.StableHlo

variable {F : FTy → Type} [FloatOps F]

/-- The reference's run with both results named. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v75) = Cert.Sage.actorOf (m ((c.tc : Thread nD τ).loc main_arg0)) (m ((c.tc : Thread nD τ).loc main_arg1)) (Cert.Sage.hidden2 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) (m ((c.tc : Thread nD τ).loc main_arg9)) (m ((c.tc : Thread nD τ).loc main_arg10)) (m ((c.tc : Thread nD τ).loc main_arg11))
      ∧ r.2.mem ((c.tc : Thread nD τ).loc main_v109) = Cert.Sage.criticOf (m ((c.tc : Thread nD τ).loc main_arg1)) (m ((c.tc : Thread nD τ).loc main_arg2)) (Cert.Sage.hidden2 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16) :=
  (θ_run defs _ _).mono (fun r h c =>
    ⟨(h c main_v75).trans (Cert.Sage.RefFlow.out0 (launchContents m c)),
     (h c main_v109).trans (Cert.Sage.RefFlow.out1 (launchContents m c)),
     (h c main_arg0).trans (Cert.Sage.RefKeep.keep_arg0 (launchContents m c)),
     (h c main_arg1).trans (Cert.Sage.RefKeep.keep_arg1 (launchContents m c)),
     (h c main_arg2).trans (Cert.Sage.RefKeep.keep_arg2 (launchContents m c)),
     (h c main_arg3).trans (Cert.Sage.RefKeep.keep_arg3 (launchContents m c)),
     (h c main_arg4).trans (Cert.Sage.RefKeep.keep_arg4 (launchContents m c)),
     (h c main_arg5).trans (Cert.Sage.RefKeep.keep_arg5 (launchContents m c)),
     (h c main_arg6).trans (Cert.Sage.RefKeep.keep_arg6 (launchContents m c)),
     (h c main_arg7).trans (Cert.Sage.RefKeep.keep_arg7 (launchContents m c)),
     (h c main_arg8).trans (Cert.Sage.RefKeep.keep_arg8 (launchContents m c)),
     (h c main_arg9).trans (Cert.Sage.RefKeep.keep_arg9 (launchContents m c)),
     (h c main_arg10).trans (Cert.Sage.RefKeep.keep_arg10 (launchContents m c)),
     (h c main_arg11).trans (Cert.Sage.RefKeep.keep_arg11 (launchContents m c)),
     (h c main_arg12).trans (Cert.Sage.RefKeep.keep_arg12 (launchContents m c)),
     (h c main_arg13).trans (Cert.Sage.RefKeep.keep_arg13 (launchContents m c)),
     (h c main_arg14).trans (Cert.Sage.RefKeep.keep_arg14 (launchContents m c)),
     (h c main_arg15).trans (Cert.Sage.RefKeep.keep_arg15 (launchContents m c)),
     (h c main_arg16).trans (Cert.Sage.RefKeep.keep_arg16 (launchContents m c))⟩)
    (run_fold m ρ)

end Cert.Sage.RefValue

end
-- ==== Proof.lean ====
/-
  The certificate of a two-layer GraphSAGE network with an actor and a critic head: the kernel program (four tiled
  regions for the dense per-node combinations, host operations for the gathers, scatter-adds, the masked log-softmax and
  the pooled tanh) against its reference (host operations only).

  At the ideal instance a float is an extended real, a change of float format is the identity, and a matrix product into
  a zero accumulator is the plain sum over the contracted index, on the kernel's matrix unit and in the host's
  dot_general alike. Each region computes (agg · Wl + h · Wr) + b where the reference computes (agg · Wl + b) + h · Wr:
  the same three terms, and addition of extended reals is commutative and associative, so the two agree entry by entry
  with no finiteness assumption — the precondition is never opened. Everything between the regions (the aggregation by
  gather and scatter-add, the mask, the log-softmax, the pooling) is the same sequence of host operations in both
  programs, carried as the same functions of equal operands.

  The three frames: the kernel's two are the generated frame proofs; the reference's is its run with the results dropped.
  The idealization rewrote no operation, so that conjunct is trivial. The value conjunct puts the kernel's run (each
  region's array read as the reference's combination of the arrays it found, composed along the program) beside the
  reference's run (its operations composed along the program), both ending at the same two functions of the arguments.
-/
import proofs.«127485_j53523882443412_1_alg».proof.Defs
import proofs.«127485_j53523882443412_1_alg».proof.Proof.Gen.Kernel
import proofs.«127485_j53523882443412_1_alg».proof.Proof.Gen.Kernel.Skeleton
import proofs.«127485_j53523882443412_1_alg».proof.Proof.Gen.Kernel.Launch
import proofs.«127485_j53523882443412_1_alg».proof.Proof.Gen.Kernel.Points
import proofs.«127485_j53523882443412_1_alg».proof.Proof.Gen.Kernel.Frame
import proofs.«127485_j53523882443412_1_alg».proof.Proof.Gen.KernelIdeal
import proofs.«127485_j53523882443412_1_alg».proof.Proof.Gen.KernelIdeal.Skeleton
import proofs.«127485_j53523882443412_1_alg».proof.Proof.Gen.KernelIdeal.Launch
import proofs.«127485_j53523882443412_1_alg».proof.Proof.Gen.KernelIdeal.Points
import proofs.«127485_j53523882443412_1_alg».proof.Proof.Gen.KernelIdeal.Frame
import proofs.«127485_j53523882443412_1_alg».proof.Proof.Gen.ReferenceIdeal
import proofs.«127485_j53523882443412_1_alg».proof.Proof.Gen.Pre_finite_inputs
import proofs.«127485_j53523882443412_1_alg».proof.Proof.KernelRun
import proofs.«127485_j53523882443412_1_alg».proof.Proof.Flow
import proofs.«127485_j53523882443412_1_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the two results dropped. -/
theorem frame_ri : Cert.frame_ReferenceIdeal := fun m ρ _ =>
  (θ_run Cert.ReferenceIdeal.defs _ _).mono (fun _ h c => (h c).2.2) (Cert.Sage.RefValue.run (F := Ideal) m ρ)

/-- Both programs end at the network's actor and critic outputs of the (agreeing) argument arrays. -/
theorem algebraic : Cert.algebraic_KernelIdeal_ReferenceIdeal := by
  intro m ρ m' ρ' _ hagree
  refine ⟨fun c => Cert.Sage.actorOf (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (Cert.Sage.hidden2 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)),
    fun c => Cert.Sage.criticOf (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (Cert.Sage.hidden2 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)), ?_, ?_⟩
  · exact (θ_run Cert.KernelIdeal.defs _ _).mono
      (fun r h c => ⟨(h c).1.trans (Cert.Sage.Flow.actor_eq m ρ c), (h c).2.1.trans (Cert.Sage.Flow.critic_eq m ρ c), (h c).2.2⟩)
      (Cert.Sage.KernelRun.run_results (F := Ideal) m ρ)
  · refine (θ_run Cert.ReferenceIdeal.defs _ _).mono (fun r h c => ?_) (Cert.Sage.RefValue.run (F := Ideal) m' ρ')
    obtain ⟨h0, h1, hargs⟩ := h c
    obtain ⟨e0, e1, e2, e3, e4, e5, e6, e7, e8, e9, e10, e11, e12, e13, e14, e15, e16⟩ := hagree c
    refine ⟨h0.trans ?_, h1.trans ?_, hargs⟩
    · rw [e0, e1, e3, e4, e5, e6, e7, e8, e9, e10, e11]
    · rw [e0, e1, e2, e3, e4, e5, e6, e7, e8, e12, e13, e14, e15, e16]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
